-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S2x2048x64 : Shape := ⟨3, ![2, 2048, 64]⟩
abbrev S2x256x64 : Shape := ⟨3, ![2, 256, 64]⟩
abbrev S2x2048 : Shape := ⟨2, ![2, 2048]⟩
abbrev S2x2048x256 : Shape := ⟨3, ![2, 2048, 256]⟩
abbrev S2x2048x1 : Shape := ⟨3, ![2, 2048, 1]⟩

abbrev nBuf : Space → Nat
  | .hbm => 36
  | .vmem => 35
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .bf16⟩
  | .hbm, ⟨16, _⟩ => ⟨S1x1024, .f32⟩
  | .hbm, ⟨17, _⟩ => ⟨S4096x1024, .bf16⟩
  | .hbm, ⟨18, _⟩ => ⟨S1x1024, .f32⟩
  | .hbm, ⟨19, _⟩ => ⟨S4096x1024, .bf16⟩
  | .hbm, ⟨20, _⟩ => ⟨S2x2048x16x64, .bf16⟩
  | .hbm, ⟨21, _⟩ => ⟨S2x16x2048x64, .bf16⟩
  | .hbm, ⟨22, _⟩ => ⟨S32x2048x64, .bf16⟩
  | .hbm, ⟨23, _⟩ => ⟨S2x2048x16x64, .bf16⟩
  | .hbm, ⟨24, _⟩ => ⟨S2x16x2048x64, .bf16⟩
  | .hbm, ⟨25, _⟩ => ⟨S32x2048x64, .bf16⟩
  | .hbm, ⟨26, _⟩ => ⟨S2x2048x16x64, .bf16⟩
  | .hbm, ⟨27, _⟩ => ⟨S2x16x2048x64, .bf16⟩
  | .hbm, ⟨28, _⟩ => ⟨S32x2048x64, .bf16⟩
  | .hbm, ⟨29, _⟩ => ⟨S32x2048x64, .bf16⟩
  | .hbm, ⟨30, _⟩ => ⟨S2x16x2048x64, .bf16⟩
  | .hbm, ⟨31, _⟩ => ⟨S2x2048x16x64, .bf16⟩
  | .hbm, ⟨32, _⟩ => ⟨S4096x1024, .bf16⟩
  | .hbm, ⟨33, _⟩ => ⟨S1x1024, .f32⟩
  | .hbm, ⟨34, _⟩ => ⟨S4096x1024, .f32⟩
  | .hbm, ⟨35, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S2x2048x64, .bf16⟩
  | .local _ .vmem, ⟨19, _⟩ => ⟨S2x2048x64, .bf16⟩
  | .local _ .vmem, ⟨20, _⟩ => ⟨S2x256x64, .bf16⟩
  | .local _ .vmem, ⟨21, _⟩ => ⟨S2x256x64, .bf16⟩
  | .local _ .vmem, ⟨22, _⟩ => ⟨S2x256x64, .bf16⟩
  | .local _ .vmem, ⟨23, _⟩ => ⟨S2x256x64, .bf16⟩
  | .local _ .vmem, ⟨24, _⟩ => ⟨S2x2048x64, .bf16⟩
  | .local _ .vmem, ⟨25, _⟩ => ⟨S2x2048x64, .bf16⟩
  | .local _ .vmem, ⟨26, _⟩ => ⟨S2x2048, .f32⟩
  | .local _ .vmem, ⟨27, _⟩ => ⟨S2x2048, .f32⟩
  | .local _ .vmem, ⟨28, _⟩ => ⟨S2x2048x64, .f32⟩
  | .local _ .vmem, ⟨29, _⟩ => ⟨S512x1024, .bf16⟩
  | .local _ .vmem, ⟨30, _⟩ => ⟨S512x1024, .bf16⟩
  | .local _ .vmem, ⟨31, _⟩ => ⟨S1024x1024, .f32⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![16, 1, 8], ![false, false, false]⟩

def k3_cond2 (i : grid3.Coords) : BitVec 1 :=
  let arg2 : BitVec 32 := BitVec.ofNat 32 (i 2).val
  let c7_i32 : BitVec 32 := 7#32
  let v41 : BitVec 1 := Scalar.cmpi .eq arg2 c7_i32
  let v42 : BitVec 32 := Scalar.extui v41
  let c0_i32_27 : BitVec 32 := 0#32
  let v43 : BitVec 1 := Scalar.cmpi .ne v42 c0_i32_27
  v43

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S2x2048x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S2x256x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S2x256x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S2x2048x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  inb_S2x2048x64_S2x2048x64_0_0_0 : ∀ a, (![0, 0, 0] : Fin 3 → Nat) a + S2x2048x64.size a ≤ S2x2048x64.size a
  h_S2x2048x64 : 0 < S2x2048x64.numel
  shapeCasts_S2x2048x64_S2x2048x64 : S2x2048x64.ShapeCasts S2x2048x64
  inb_S2x256x64_S2x256x64_0_0_0 : ∀ a, (![0, 0, 0] : Fin 3 → Nat) a + S2x256x64.size a ≤ S2x256x64.size a
  h_S2x256x64 : 0 < S2x256x64.numel
  shapeCasts_S2x256x64_S2x256x64 : S2x256x64.ShapeCasts S2x256x64
  reduces_S2x2048x256_S2x2048 : S2x2048x256.Reduces [2] S2x2048
  shapeCasts_S2x2048_S2x2048x1 : S2x2048.ShapeCasts S2x2048x1
  broadcasts_S2x2048x1_S2x2048x256 : S2x2048x1.Broadcasts S2x2048x256
  broadcasts_S2x2048x1_S2x2048x64 : S2x2048x1.Broadcasts S2x2048x64
  packedbf16_S2x2048x64_S2x2048x64_0_0_0 : (Rect.unit (s := S2x2048x64) ![0, 0, 0] S2x2048x64.size inb_S2x2048x64_S2x2048x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S2x2048x64_S2x256x64_S2x2048x256_2_2_1_1_0_0_wf : DotDims.WF S2x2048x64 S2x256x64 S2x2048x256 [2] [2] [1] [1] [0] [0]
  dot_S2x2048x256_S2x256x64_S2x2048x64_2_1_1_2_0_0_wf : DotDims.WF S2x2048x256 S2x256x64 S2x2048x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x2048x64.size a ≤ S32x2048x64.size a
  hwx3_0 : ∀ i : grid3.Coords, EltTy.bits .bf16 = 32 ∨ (Rect.block (s := S32x2048x64) S2x2048x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2x256x64.size a ≤ S32x2048x64.size a
  hwx3_1 : ∀ i : grid3.Coords, EltTy.bits .bf16 = 32 ∨ (Rect.block (s := S32x2048x64) S2x256x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2x256x64.size a ≤ S32x2048x64.size a
  hwx3_2 : ∀ i : grid3.Coords, EltTy.bits .bf16 = 32 ∨ (Rect.block (s := S32x2048x64) S2x256x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2x2048x64.size a ≤ S32x2048x64.size a
  hwx3_3 : ∀ i : grid3.Coords, EltTy.bits .bf16 = 32 ∨ (Rect.block (s := S32x2048x64) S2x2048x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2x2048x64_S2x256x64_S2x2048x256_2_2_1_1_0_0 : DotDims S2x2048x64 S2x256x64 S2x2048x256 where
  lhsContracting := [2]
  rhsContracting := [2]
  lhsNonContracting := [1]
  rhsNonContracting := [1]
  lhsBatch := [0]
  rhsBatch := [0]
  wf := dot_S2x2048x64_S2x256x64_S2x2048x256_2_2_1_1_0_0_wf
def dot_S2x2048x256_S2x256x64_S2x2048x64_2_1_1_2_0_0 : DotDims S2x2048x256 S2x256x64 S2x2048x64 where
  lhsContracting := [2]
  rhsContracting := [1]
  lhsNonContracting := [1]
  rhsNonContracting := [2]
  lhsBatch := [0]
  rhsBatch := [0]
  wf := dot_S2x2048x256_S2x256x64_S2x2048x64_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S2x2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2x256x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S2x256x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S2x2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v21) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v22) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.IdealLin0.lean ====
import proofs.«147348_j2388001816882_2_alg».proof.Proof.Gen.KernelIdeal.Launch
import proofs.«147348_j2388001816882_2_alg».proof.Proof.Gen.KernelIdeal.Skeleton
import proofs.«147348_j2388001816882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 0: one grid point's work, and the pipeline's proof data

The projection `y = x · W + b` runs over a grid of 8 points. At point `t` the body sees a
512 × 1024 block of `x` (rows `512·t … 512·t + 511`), the whole weight matrix `W` and the bias
row `b` (both brought in once, at the first point, and left in place afterwards), and writes one
512 × 1024 block of `y`. This file states what the body leaves in the output block as a function
`out3` of the three input blocks, proves the body's separation-logic triple against it, and packs
the result as the pipeline's proof data over ARBITRARY entry contents `V` of the core's buffers. -/

set_option maxRecDepth 16384

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` window's staging buffer holds its block at every point: it is fetched at every point, and a
    buffer the body only reads keeps its block. Stated for any proof data whose array is `V`'s and whose
    body leaves the block in place. -/
theorem before_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window is fetched at the first point only; at a later point its block index has not moved,
    so the buffer still holds the block of that point (which is the whole matrix at every point). -/
theorem before_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias window: as the weight window. -/
theorem before_2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rx : Rect S512x1024 := Rect.unit (s := S512x1024) ![0, 0] S512x1024.size inb_S512x1024_S512x1024_0_0
abbrev rw' : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0

/-! ## What the body leaves in the output block -/

/-- The output block after the body, from the three input blocks: the one store's payload
    (`x · W + b` in the payload's roundings) laid over the whole block. -/
def out3 (x0 : Vec F S512x1024 .f32) (x1 : Vec F S1024x1024 .f32) (x2 : Vec F S1x1024 .f32) : Vec F S512x1024 .bf16 :=
  View.canon [⟨rx, k0_pay1 (View.ld x0 rx) (View.ld x1 rw') (View.ld x2 rb)⟩]

/-- The one store is the whole block, so it covers every index of it. -/
theorem cover3 (p0 : Vec F S512x1024 .bf16) (y : S512x1024.Idx) :
    ∃ pc ∈ ([⟨rx, p0⟩] : List (View.Piece (Elt F) S512x1024 .bf16)), y ∈ pc.1.set :=
  View.cover_of_tiled [⟨rx, p0⟩] S512x1024.size (by rfl) y

/-! ## The body's triple -/

set_option maxHeartbeats 1000000 in
/-- The body on whole staging memrefs — the three inputs at contents `x0 x1 x2`, the output at anything —
    runs to the continuation with the inputs as they were and the output at `out3 x0 x1 x2`: three loads,
    a dead load of the output, one store of the payload. -/
theorem sound_kernel (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data on core `c`: the arrays as the region finds them; after the body at point `t` each
    input's buffer at its block and the output's at `out3` of the three input blocks; the invariant is
    "the scoped rest and the generator register are untouched"; nothing owed; full shares. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 (iblk V c 0 t) (iblk V c 1 t) (iblk V c 2 t) := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the body's triple applies; the
    invariant and the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Lin0

end
-- ==== Proof.IdealLin1.lean ====
import proofs.«147348_j2388001816882_2_alg».proof.Proof.Gen.KernelIdeal.Launch
import proofs.«147348_j2388001816882_2_alg».proof.Proof.Gen.KernelIdeal.Skeleton
import proofs.«147348_j2388001816882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 1: one grid point's work, and the pipeline's proof data

The projection `y = x · W + b` runs over a grid of 8 points. At point `t` the body sees a
512 × 1024 block of `x` (rows `512·t … 512·t + 511`), the whole weight matrix `W` and the bias
row `b` (both brought in once, at the first point, and left in place afterwards), and writes one
512 × 1024 block of `y`. This file states what the body leaves in the output block as a function
`out3` of the three input blocks, proves the body's separation-logic triple against it, and packs
the result as the pipeline's proof data over ARBITRARY entry contents `V` of the core's buffers. -/

set_option maxRecDepth 16384

noncomputable section

namespace Cert.KernelIdeal.Lin1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The `x` window's staging buffer holds its block at every point: it is fetched at every point, and a
    buffer the body only reads keeps its block. Stated for any proof data whose array is `V`'s and whose
    body leaves the block in place. -/
theorem before_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window is fetched at the first point only; at a later point its block index has not moved,
    so the buffer still holds the block of that point (which is the whole matrix at every point). -/
theorem before_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias window: as the weight window. -/
theorem before_2_of {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rx : Rect S512x1024 := Rect.unit (s := S512x1024) ![0, 0] S512x1024.size inb_S512x1024_S512x1024_0_0
abbrev rw' : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0

/-! ## What the body leaves in the output block -/

/-- The output block after the body, from the three input blocks: the one store's payload
    (`x · W + b` in the payload's roundings) laid over the whole block. -/
def out3 (x0 : Vec F S512x1024 .f32) (x1 : Vec F S1024x1024 .f32) (x2 : Vec F S1x1024 .f32) : Vec F S512x1024 .bf16 :=
  View.canon [⟨rx, k1_pay1 (View.ld x0 rx) (View.ld x1 rw') (View.ld x2 rb)⟩]

/-- The one store is the whole block, so it covers every index of it. -/
theorem cover3 (p0 : Vec F S512x1024 .bf16) (y : S512x1024.Idx) :
    ∃ pc ∈ ([⟨rx, p0⟩] : List (View.Piece (Elt F) S512x1024 .bf16)), y ∈ pc.1.set :=
  View.cover_of_tiled [⟨rx, p0⟩] S512x1024.size (by rfl) y

/-! ## The body's triple -/

set_option maxHeartbeats 1000000 in
/-- The body on whole staging memrefs — the three inputs at contents `x0 x1 x2`, the output at anything —
    runs to the continuation with the inputs as they were and the output at `out3 x0 x1 x2`: three loads,
    a dead load of the output, one store of the payload. -/
theorem sound_kernel (c : Dev nD) (E : Set ℕ) (i : grid1.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data on core `c`: the arrays as the region finds them; after the body at point `t` each
    input's buffer at its block and the output's at `out3` of the three input blocks; the invariant is
    "the scoped rest and the generator register are untouched"; nothing owed; full shares. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out3 (iblk V c 0 t) (iblk V c 1 t) (iblk V c 2 t) := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so the body's triple applies; the
    invariant and the core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Lin1

end
-- ==== Proof.IdealLin2.lean ====
import proofs.«147348_j2388001816882_2_alg».proof.Proof.Gen.KernelIdeal.Launch
import proofs.«147348_j2388001816882_2_alg».proof.Proof.Gen.KernelIdeal.Skeleton
import proofs.«147348_j2388001816882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 2: one grid point's work, and the pipeline's proof data

The projection `y = x · W + b` runs over a grid of 8 points. At point `t` the body sees a
512 × 1024 block of `x` (rows `512·t … 512·t + 511`), the whole weight matrix `W` and the bias
row `b` (both brought in once, at the first point, and left in place afterwards), and writes one
512 × 1024 block of `y`. This file states what the body leaves in the output block as a function
`out3` of the three input blocks, proves the body's separation-logic triple against it, and packs
the result as the pipeline's proof data over ARBITRARY entry contents `V` of the core's buffers. -/

set_option maxRecDepth 16384

noncomputable section

namespace Cert.KernelIdeal.Lin2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The `x` window's staging buffer holds its block at every point: it is fetched at every point, and a
    buffer the body only reads keeps its block. Stated for any proof data whose array is `V`'s and whose
    body leaves the block in place. -/
theorem before_0_of {c : Dev nD} (dat : Dat τ (Elt F) Unit ℕ (Pipeline.UD sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window is fetched at the first point only; at a later point its block index has not moved,
    so the buffer still holds the block of that point (which is the whole matrix at every point). -/
theorem before_1_of {c : Dev nD} (dat : Dat τ (Elt F) Unit ℕ (Pipeline.UD sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias window: as the weight window. -/
theorem before_2_of {c : Dev nD} (dat : Dat τ (Elt F) Unit ℕ (Pipeline.UD sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rx : Rect S512x1024 := Rect.unit (s := S512x1024) ![0, 0] S512x1024.size inb_S512x1024_S512x1024_0_0
abbrev rw' : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0

/-! ## What the body leaves in the output block -/

/-- The output block after the body, from the three input blocks: the one store's payload
    (`x · W + b` in the payload's roundings) laid over the whole block. -/
def out3 (x0 : Vec F S512x1024 .f32) (x1 : Vec F S1024x1024 .f32) (x2 : Vec F S1x1024 .f32) : Vec F S512x1024 .bf16 :=
  View.canon [⟨rx, k2_pay1 (View.ld x0 rx) (View.ld x1 rw') (View.ld x2 rb)⟩]

/-- The one store is the whole block, so it covers every index of it. -/
theorem cover3 (p0 : Vec F S512x1024 .bf16) (y : S512x1024.Idx) :
    ∃ pc ∈ ([⟨rx, p0⟩] : List (View.Piece (Elt F) S512x1024 .bf16)), y ∈ pc.1.set :=
  View.cover_of_tiled [⟨rx, p0⟩] S512x1024.size (by rfl) y

/-! ## The body's triple -/

set_option maxHeartbeats 1000000 in
/-- The body on whole staging memrefs — the three inputs at contents `x0 x1 x2`, the output at anything —
    runs to the continuation with the inputs as they were and the output at `out3 x0 x1 x2`: three loads,
    a dead load of the output, one store of the payload. -/
theorem sound_kernel (c : Dev nD) (E : Set ℕ) (i : grid2.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data on core `c`: the arrays as the region finds them; after the body at point `t` each
    input's buffer at its block and the output's at `out3` of the three input blocks; the invariant is
    "the scoped rest and the generator register are untouched"; nothing owed; full shares. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec2 c
  q _ := fullShare
  owed _ := 0

/-- The proof data's arrays are the region-entry contents. -/
theorem A_eq (c : Dev nD) (w : Fin cfg2.W) : (dat V c).A w = V c (Pipeline.arrRef spec2 w) := by
  dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out3 (iblk V c 0 t) (iblk V c 1 t) (iblk V c 2 t) := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so the body's triple applies; the
    invariant and the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Lin2

end
-- ==== Proof.IdealLin4.lean ====
import proofs.«147348_j2388001816882_2_alg».proof.Proof.Gen.KernelIdeal.Launch
import proofs.«147348_j2388001816882_2_alg».proof.Proof.Gen.KernelIdeal.Skeleton
import proofs.«147348_j2388001816882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 4: one grid point's work, and the pipeline's proof data

The projection `y = x · W + b` runs over a grid of 8 points. At point `t` the body sees a
512 × 1024 block of `x` (rows `512·t … 512·t + 511`), the whole weight matrix `W` and the bias
row `b` (both brought in once, at the first point, and left in place afterwards), and writes one
512 × 1024 block of `y`. This file states what the body leaves in the output block as a function
`out3` of the three input blocks, proves the body's separation-logic triple against it, and packs
the result as the pipeline's proof data over ARBITRARY entry contents `V` of the core's buffers. -/

set_option maxRecDepth 16384

noncomputable section

namespace Cert.KernelIdeal.Lin4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The `x` window's staging buffer holds its block at every point: it is fetched at every point, and a
    buffer the body only reads keeps its block. Stated for any proof data whose array is `V`'s and whose
    body leaves the block in place. -/
theorem before_0_of {c : Dev nD} (dat : Dat τ (Elt F) Unit ℕ (Pipeline.UD sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window is fetched at the first point only; at a later point its block index has not moved,
    so the buffer still holds the block of that point (which is the whole matrix at every point). -/
theorem before_1_of {c : Dev nD} (dat : Dat τ (Elt F) Unit ℕ (Pipeline.UD sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias window: as the weight window. -/
theorem before_2_of {c : Dev nD} (dat : Dat τ (Elt F) Unit ℕ (Pipeline.UD sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rx : Rect S512x1024 := Rect.unit (s := S512x1024) ![0, 0] S512x1024.size inb_S512x1024_S512x1024_0_0
abbrev rw' : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0

/-! ## What the body leaves in the output block -/

/-- The output block after the body, from the three input blocks: the one store's payload
    (`x · W + b` in the payload's roundings) laid over the whole block. -/
def out3 (x0 : Vec F S512x1024 .bf16) (x1 : Vec F S1024x1024 .f32) (x2 : Vec F S1x1024 .f32) : Vec F S512x1024 .f32 :=
  View.canon [⟨rx, k4_pay1 (View.ld x0 rx) (View.ld x1 rw') (View.ld x2 rb)⟩]

/-- The one store is the whole block, so it covers every index of it. -/
theorem cover3 (p0 : Vec F S512x1024 .f32) (y : S512x1024.Idx) :
    ∃ pc ∈ ([⟨rx, p0⟩] : List (View.Piece (Elt F) S512x1024 .f32)), y ∈ pc.1.set :=
  View.cover_of_tiled [⟨rx, p0⟩] S512x1024.size (by rfl) y

/-! ## The body's triple -/

set_option maxHeartbeats 1000000 in
/-- The body on whole staging memrefs — the three inputs at contents `x0 x1 x2`, the output at anything —
    runs to the continuation with the inputs as they were and the output at `out3 x0 x1 x2`: three loads,
    a dead load of the output, one store of the payload. -/
theorem sound_kernel (c : Dev nD) (E : Set ℕ) (i : grid4.Coords)
    (arg1 : Memref sig .tc .vmem S512x1024 .bf16) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data on core `c`: the arrays as the region finds them; after the body at point `t` each
    input's buffer at its block and the output's at `out3` of the three input blocks; the invariant is
    "the scoped rest and the generator register are untouched"; nothing owed; full shares. -/
def dat (c : Dev nD) : Dat τ (Elt F) Unit ℕ (Pipeline.UD sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec4 c
  q _ := fullShare
  owed _ := 0

/-- The proof data's arrays are the region-entry contents. -/
theorem A_eq (c : Dev nD) (w : Fin cfg4.W) : (dat V c).A w = V c (Pipeline.arrRef spec4 w) := by
  dsimp only [dat]

/-- What the body leaves, window by window. -/
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = out3 (iblk V c 0 t) (iblk V c 1 t) (iblk V c 2 t) := by dsimp only [dat]

/-- Each input's current staging buffer holds its block at every point, fetched there or not. -/
theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d
theorem before_2 (c : Dev nD) (t : Fin cfg4.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d)))

/-- and what it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t))

/-- The body at any point: the inputs' memrefs hold their blocks, so the body's triple applies; the
    invariant and the core's debts pass through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid4.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W4, bigSep_W4]
  exact sound_body V c t

end Cert.KernelIdeal.Lin4

end
-- ==== Proof.IdealAttnDefs.lean ====
import proofs.«147348_j2388001816882_2_alg».proof.Proof.Gen.KernelIdeal.Launch
import proofs.«147348_j2388001816882_2_alg».proof.Proof.Gen.KernelIdeal.Skeleton
import proofs.«147348_j2388001816882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions of the attention body, in closed form over the grid -/

/-- The first conditional (reset of the running maximum, denominator and numerator): the key-tile coordinate is zero. -/
abbrev cond0 (i : grid3.Coords) : Prop := (Scalar.cmpi .ne (Scalar.extui (Scalar.cmpi .eq (BitVec.ofNat 32 (i 2).val) 0#32)) 0#32) = 1#1
/-- The second conditional (normalise and store the output block): the key-tile coordinate is the last one. -/
abbrev cond1 (i : grid3.Coords) : Prop := k3_cond2 i = 1#1

/-- The reset happens exactly at the points whose position is a multiple of 8 (key tile 0). -/
theorem hcond0 : ∀ t : Fin cfg3.N, cond0 (grid3.coords t) ↔ t.val % 8 = 0 :=
  (by decide +kernel : ∀ t : Fin grid3.N, cond0 (grid3.coords t) ↔ t.val % 8 = 0)
/-- The output is stored exactly at the points whose position is 7 modulo 8 (key tile 7). -/
theorem hcond1 : ∀ t : Fin cfg3.N, cond1 (grid3.coords t) ↔ t.val % 8 = 7 :=
  (by decide +kernel : ∀ t : Fin grid3.N, cond1 (grid3.coords t) ↔ t.val % 8 = 7)

/-- Where the output is not stored, its window is idle, -/
theorem idleAt3 : ∀ t : Fin cfg3.N, ¬cond1 (grid3.coords t) → cfg3.idle 3 (grid3.coords t) = true := by decide +kernel
/-- and not written back; -/
theorem noFlush3 : ∀ t : Fin cfg3.N, ¬cond1 (grid3.coords t) → (cfg3.win 3).flush t = false := by decide +kernel
/-- where it is stored, the window is live. -/
theorem liveAt3 : ∀ t : Fin cfg3.N, cond1 (grid3.coords t) → cfg3.idle 3 (grid3.coords t) = false := by decide +kernel

/-! ## The carried state and one point's effect on it -/

/-- The three scratch buffers the body carries from one key tile to the next: the running row maximum, the running
    denominator and the running (unnormalised) numerator of the softmax-weighted sum. -/
structure Scr (F : FTy → Type) where
  m : Vec F S2x2048 .f32
  l : Vec F S2x2048 .f32
  acc : Vec F S2x2048x64 .f32

/-- The state the first key tile starts from: maximum −∞, denominator 0, numerator 0. -/
def Scr.init : Scr F := ⟨k3_pay4, k3_pay5, k3_pay6⟩

/-- The online-softmax update of one key tile, from the state it starts at: the new maximum, the rescaled denominator
    plus this tile's exponentials, the rescaled numerator plus this tile's weighted values. -/
def upd (s : Scr F) (q : Vec F S2x2048x64 .bf16) (k v : Vec F S2x256x64 .bf16) : Scr F :=
  ⟨k3_pay2 (k3_pay8 q k s.m), k3_pay11 q k s.m s.l, k3_pay1 (k3_pay12 q k s.m v) (k3_pay13 q k s.m) s.acc⟩

/-- One grid point's effect on the carried state: at key tile 0 the state is first reset (whatever it was), then updated. -/
def step (s : Scr F) (ki0 : Bool) (q : Vec F S2x2048x64 .bf16) (k v : Vec F S2x256x64 .bf16) : Scr F :=
  upd (match ki0 with | true => Scr.init | false => s) q k v

theorem step_true (s : Scr F) (q : Vec F S2x2048x64 .bf16) (k v : Vec F S2x256x64 .bf16) : step s true q k v = upd Scr.init q k v := rfl
theorem step_false (s : Scr F) (q : Vec F S2x2048x64 .bf16) (k v : Vec F S2x256x64 .bf16) : step s false q k v = upd s q k v := rfl

/-- The whole-block rectangles every load and store of the body goes through. -/
abbrev rQ : Rect S2x2048x64 := Rect.unit (s := S2x2048x64) ![0, 0, 0] S2x2048x64.size inb_S2x2048x64_S2x2048x64_0_0_0
abbrev rK : Rect S2x256x64 := Rect.unit (s := S2x256x64) ![0, 0, 0] S2x256x64.size inb_S2x256x64_S2x256x64_0_0_0
abbrev rM : Rect S2x2048 := Rect.unit (s := S2x2048) ![0, 0] S2x2048.size inb_S2x2048_S2x2048_0_0

/-! ## Whole-block loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

section Whole
variable {sg : RefSig} {κ : Kind} {sp : Space} {S : Shape} {e : EltTy}

/-- A store through the whole-block rectangle, made last, leaves its payload in the buffer whatever was stored or
    held before. -/
theorem read_store_whole (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A whole-block load after a whole-block store reads the stored payload. -/
theorem readCov_store_whole (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A whole-block load of a whole buffer reads its contents. -/
theorem readAt_whole {m : Memref sg κ sp S e} (hm : m.IsWhole) {off : Fin S.rank → Nat} (h : off = fun _ => 0)
    (inb : ∀ a, off a + S.size a ≤ S.size a) (x : S.Idx → Elt F e) :
    m.view.readAt (Elt F) (Rect.unit off S.size inb).toLoadRect (hm.unread x) = x := by
  rw [View.readAt_eq_ld, hm.read_unread, View.ld_unit_zero h]

end Whole

end Cert.KernelIdeal.Attn

end
-- ==== Proof.IdealAttnRunA.lean ====
import proofs.«147348_j2388001816882_2_alg».proof.Proof.IdealAttnDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE FIRST KEY TILE: whatever the three scratch buffers held, the body first overwrites them with the initial state
    (maximum −∞, denominator 0, numerator 0) and then updates that with this tile; the output's buffer is not touched. -/
theorem runA (c : Dev nD) (i : grid3.Coords) (arg3 : Memref sig .tc .vmem S2x2048x64 .bf16) (harg3 : arg3.IsWhole) (arg4 : Memref sig .tc .vmem S2x256x64 .bf16) (harg4 : arg4.IsWhole) (arg5 : Memref sig .tc .vmem S2x256x64 .bf16) (harg5 : arg5.IsWhole) (arg6 : Memref sig .tc .vmem S2x2048x64 .bf16) (harg6 : arg6.IsWhole) (arg7 : Memref sig .tc .vmem S2x2048 .f32) (harg7 : arg7.IsWhole) (arg8 : Memref sig .tc .vmem S2x2048 .f32) (harg8 : arg8.IsWhole) (arg9 : Memref sig .tc .vmem S2x2048x64 .f32) (harg9 : arg9.IsWhole) (hc0 : cond0 i) (hc1 : ¬cond1 i)
    (q : Vec F S2x2048x64 .bf16) (k v : Vec F S2x256x64 .bf16) (xo : Vec F S2x2048x64 .bf16) (E : Set ℕ) (K : PUnit → sProp 𝕄) :
    iprop(owns (c : Thread nD τ) arg3 fullShare q
        ∗ owns (c : Thread nD τ) arg4 fullShare k
        ∗ owns (c : Thread nD τ) arg5 fullShare v
        ∗ owns (c : Thread nD τ) arg6 fullShare xo
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg3 fullShare q
            ∗ owns (c : Thread nD τ) arg4 fullShare k
            ∗ owns (c : Thread nD τ) arg5 fullShare v
            ∗ owns (c : Thread nD τ) arg6 fullShare xo
            ∗ owns (c : Thread nD τ) arg7 fullShare (k3_pay2 (k3_pay8 q k k3_pay4))
            ∗ owns (c : Thread nD τ) arg8 fullShare (k3_pay11 q k k3_pay4 k3_pay5)
            ∗ owns (c : Thread nD τ) arg9 fullShare (k3_pay1 (k3_pay12 q k k3_pay4 v) (k3_pay13 q k k3_pay4) k3_pay6)) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  isplitl [H8]
  · iexists _; isplitr; swap; · iexact H8
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  iexists _; isplitr; swap; · iexact H9
  ipureintro
  sl_unfold_run_names
  rw [read_store_whole _ _ hz3]
  try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])

end Cert.KernelIdeal.Attn

end
-- ==== Proof.IdealAttnRunB.lean ====
import proofs.«147348_j2388001816882_2_alg».proof.Proof.IdealAttnRunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE MIDDLE KEY TILES (neither the first nor the last): from the query, key and value blocks, the output's buffer at
    anything stated and the carried state `m`, `l`, `acc`, the body runs to the blocks and the output's buffer as they were
    and the carried state updated: the new maximum, the rescaled denominator plus this tile's exponentials, the rescaled
    numerator plus this tile's weighted values. Every load and store is of a whole buffer. -/
theorem runB (c : Dev nD) (i : grid3.Coords) (arg3 : Memref sig .tc .vmem S2x2048x64 .bf16) (harg3 : arg3.IsWhole) (arg4 : Memref sig .tc .vmem S2x256x64 .bf16) (harg4 : arg4.IsWhole) (arg5 : Memref sig .tc .vmem S2x256x64 .bf16) (harg5 : arg5.IsWhole) (arg6 : Memref sig .tc .vmem S2x2048x64 .bf16) (harg6 : arg6.IsWhole) (arg7 : Memref sig .tc .vmem S2x2048 .f32) (harg7 : arg7.IsWhole) (arg8 : Memref sig .tc .vmem S2x2048 .f32) (harg8 : arg8.IsWhole) (arg9 : Memref sig .tc .vmem S2x2048x64 .f32) (harg9 : arg9.IsWhole) (hc0 : ¬cond0 i) (hc1 : ¬cond1 i)
    (q : Vec F S2x2048x64 .bf16) (k v : Vec F S2x256x64 .bf16) (xo : Vec F S2x2048x64 .bf16) (m l : Vec F S2x2048 .f32) (acc : Vec F S2x2048x64 .f32) (E : Set ℕ) (K : PUnit → sProp 𝕄) :
    iprop(owns (c : Thread nD τ) arg3 fullShare q
        ∗ owns (c : Thread nD τ) arg4 fullShare k
        ∗ owns (c : Thread nD τ) arg5 fullShare v
        ∗ owns (c : Thread nD τ) arg6 fullShare xo
        ∗ owns (c : Thread nD τ) arg7 fullShare m
        ∗ owns (c : Thread nD τ) arg8 fullShare l
        ∗ owns (c : Thread nD τ) arg9 fullShare acc
        ∗ (iprop(owns (c : Thread nD τ) arg3 fullShare q
            ∗ owns (c : Thread nD τ) arg4 fullShare k
            ∗ owns (c : Thread nD τ) arg5 fullShare v
            ∗ owns (c : Thread nD τ) arg6 fullShare xo
            ∗ owns (c : Thread nD τ) arg7 fullShare (k3_pay2 (k3_pay8 q k m))
            ∗ owns (c : Thread nD τ) arg8 fullShare (k3_pay11 q k m l)
            ∗ owns (c : Thread nD τ) arg9 fullShare (k3_pay1 (k3_pay12 q k m v) (k3_pay13 q k m) acc)) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  isplitl [H8]
  · iexists _; isplitr; swap; · iexact H8
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  iexists _; isplitr; swap; · iexact H9
  ipureintro
  sl_unfold_run_names
  rw [read_store_whole _ _ hz3]
  try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])

end Cert.KernelIdeal.Attn

end
-- ==== Proof.IdealAttnRunC.lean ====
import proofs.«147348_j2388001816882_2_alg».proof.Proof.IdealAttnRunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE LAST KEY TILE: the carried state is updated as at a middle tile, and then the output's buffer, whatever it
    held, is overwritten with the updated numerator divided by the updated denominator, rounded to bf16. -/
theorem runC (c : Dev nD) (i : grid3.Coords) (arg3 : Memref sig .tc .vmem S2x2048x64 .bf16) (harg3 : arg3.IsWhole) (arg4 : Memref sig .tc .vmem S2x256x64 .bf16) (harg4 : arg4.IsWhole) (arg5 : Memref sig .tc .vmem S2x256x64 .bf16) (harg5 : arg5.IsWhole) (arg6 : Memref sig .tc .vmem S2x2048x64 .bf16) (harg6 : arg6.IsWhole) (arg7 : Memref sig .tc .vmem S2x2048 .f32) (harg7 : arg7.IsWhole) (arg8 : Memref sig .tc .vmem S2x2048 .f32) (harg8 : arg8.IsWhole) (arg9 : Memref sig .tc .vmem S2x2048x64 .f32) (harg9 : arg9.IsWhole) (hc0 : ¬cond0 i) (hc1 : cond1 i)
    (q : Vec F S2x2048x64 .bf16) (k v : Vec F S2x256x64 .bf16) (m l : Vec F S2x2048 .f32) (acc : Vec F S2x2048x64 .f32) (E : Set ℕ) (K : PUnit → sProp 𝕄) :
    iprop(owns (c : Thread nD τ) arg3 fullShare q
        ∗ owns (c : Thread nD τ) arg4 fullShare k
        ∗ owns (c : Thread nD τ) arg5 fullShare v
        ∗ (∃ d, owns (c : Thread nD τ) arg6 fullShare d)
        ∗ owns (c : Thread nD τ) arg7 fullShare m
        ∗ owns (c : Thread nD τ) arg8 fullShare l
        ∗ owns (c : Thread nD τ) arg9 fullShare acc
        ∗ (iprop(owns (c : Thread nD τ) arg3 fullShare q
            ∗ owns (c : Thread nD τ) arg4 fullShare k
            ∗ owns (c : Thread nD τ) arg5 fullShare v
            ∗ owns (c : Thread nD τ) arg6 fullShare (k3_pay3 (k3_pay1 (k3_pay12 q k m v) (k3_pay13 q k m) acc) (k3_pay11 q k m l))
            ∗ owns (c : Thread nD τ) arg7 fullShare (k3_pay2 (k3_pay8 q k m))
            ∗ owns (c : Thread nD τ) arg8 fullShare (k3_pay11 q k m l)
            ∗ owns (c : Thread nD τ) arg9 fullShare (k3_pay1 (k3_pay12 q k m v) (k3_pay13 q k m) acc)) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    rw [read_store_whole _ _ hz3]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  isplitl [H7]
  · iexists _; isplitr; swap; · iexact H7
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  isplitl [H8]
  · iexists _; isplitr; swap; · iexact H8
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  iexists _; isplitr; swap; · iexact H9
  ipureintro
  sl_unfold_run_names
  rw [read_store_whole _ _ hz3]
  try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])

end Cert.KernelIdeal.Attn

end
-- ==== Proof.IdealAttn.lean ====
import proofs.«147348_j2388001816882_2_alg».proof.Proof.IdealAttnRunC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The carried state and the output block, point by point -/

/-- The carried state after the first `n` points: each point's `step` over its query, key and value blocks; the points
    whose position is a multiple of 8 (key tile 0) reset first, so what stands at `n = 0` is never read. -/
def scrAt (c : Dev nD) : ℕ → Scr F
  | 0 => Scr.init
  | n + 1 => if h : n < cfg3.N then
      step (scrAt c n) (decide (n % 8 = 0)) (iblk V c 0 ⟨n, h⟩) (iblk V c 1 ⟨n, h⟩) (iblk V c 2 ⟨n, h⟩)
    else scrAt c n

theorem scrAt_succ (c : Dev nD) (t : Fin cfg3.N) :
    scrAt V c (t.val + 1) = step (scrAt V c t.val) (decide (t.val % 8 = 0)) (iblk V c 0 t) (iblk V c 1 t) (iblk V c 2 t) := by
  show (if h : t.val < cfg3.N then _ else _) = _
  rw [dif_pos t.isLt]

/-- The output staging block after point `t`: the numerator over the denominator of the state that point leaves, rounded
    to bf16 — what the body stores at key tile 7 (elsewhere the window is idle and this is not consulted). -/
def outAt (c : Dev nD) (t : Fin cfg3.N) : Vec F S2x2048x64 .bf16 :=
  k3_pay3 (scrAt V c (t.val + 1)).acc (scrAt V c (t.val + 1)).l

/-! ## The proof data -/

/-- The three scratch operands, whole scoped buffers of the kernel's own. -/
abbrev scM0 : Memref sig .tc .vmem S2x2048 .f32 := Memref.whole cc3_scratch0
abbrev scM1 : Memref sig .tc .vmem S2x2048 .f32 := Memref.whole cc3_scratch1
abbrev scM2 : Memref sig .tc .vmem S2x2048x64 .f32 := Memref.whole cc3_scratch2

/-- The invariant before position `n`: the three scratch buffers at the carried state (before the first point: at
    anything), every other scoped buffer unopened, the generator register at some state. -/
def Phi (c : Dev nD) (n : ℕ) : sProp 𝕄 :=
  iprop(∃ (dm dl : Vec F S2x2048 .f32) (dacc : Vec F S2x2048x64 .f32), ⌜n ≠ 0 → (⟨dm, dl, dacc⟩ : Scr F) = scrAt V c n⌝
    ∗ iprop(owns (c : Thread nD τ) scM0 fullShare dm ∗ owns (c : Thread nD τ) scM1 fullShare dl ∗ owns (c : Thread nD τ) scM2 fullShare dacc)
    ∗ Pipeline.scopedRestBut (Ix := Unit) (Name := ℕ) (U := Pipeline.UD sig nD τ) (Lvl := ℕ) (Val := Elt F) spec3 c [cc3_scratch0, cc3_scratch1, cc3_scratch2]
    ∗ (∃ r, prngReg c r))

/-- The proof data of the attention pipeline on core `c`. -/
def dat (c : Dev nD) : Dat τ (Elt F) Unit ℕ (Pipeline.UD sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t
  Φ t := Phi V c t.val
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = outAt V c t := by dsimp only [dat]

/-- Each input's current staging buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- Each window's current staging memref at point `t`, as the pipeline passes it, and its wholeness. -/
abbrev ms0 (t : Fin cfg3.N) : Memref sig .tc .vmem S2x2048x64 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2x256x64 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S2x256x64 .bf16 := win3_2.stage (cfg3.slots t 2)
abbrev hs2 (t : Fin cfg3.N) : (ms2 t).IsWhole := hstage3_2 ((cfg3.slots t 2).cast nbuf3_2)
abbrev ms3 (t : Fin cfg3.N) : Memref sig .tc .vmem S2x2048x64 .bf16 := win3_3.stage (cfg3.slots t 3)
abbrev hs3 (t : Fin cfg3.N) : (ms3 t).IsWhole := hstage3_3 ((cfg3.slots t 3).cast nbuf3_3)

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg3.N) : (dat V c).leavesExact 0 t = owns (c : Thread nD τ) (ms0 t) fullShare (iblk V c 0 t) := by
  unfold Dat.leavesExact; rw [show cfg3.idle 0 (cfg3.grid.coords t) = false from rfl, after_0]
theorem leaves_1 (c : Dev nD) (t : Fin cfg3.N) : (dat V c).leavesExact 1 t = owns (c : Thread nD τ) (ms1 t) fullShare (iblk V c 1 t) := by
  unfold Dat.leavesExact; rw [show cfg3.idle 1 (cfg3.grid.coords t) = false from rfl, after_1]
theorem leaves_2 (c : Dev nD) (t : Fin cfg3.N) : (dat V c).leavesExact 2 t = owns (c : Thread nD τ) (ms2 t) fullShare (iblk V c 2 t) := by
  unfold Dat.leavesExact; rw [show cfg3.idle 2 (cfg3.grid.coords t) = false from rfl, after_2]

set_option maxHeartbeats 4000000 in
/-- The body at any point. The inputs' memrefs hold their blocks; the position modulo 8 says which of the three control
    cases the point is in, and that case's triple applies: the invariant hands the body the carried state (at key tile 0,
    anything: it is overwritten) and takes back that point's `step` of it; away from key tile 7 the output's buffer goes
    back untouched, at key tile 7 it holds the normalised block. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, leaves_0, leaves_1, leaves_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  by_cases h0 : t.val % 8 = 0
  · have h1 : ¬t.val % 8 = 7 := by omega
    rw [Dat.leavesExact_idle (dat V c) 3 t (idleAt3 t (fun h => h1 ((hcond1 t).mp h))) (noFlush3 t (fun h => h1 ((hcond1 t).mp h)))]
    iintro ⟨⟨%dm, %dl, %dacc, -, ⟨HS0, HS1, HS2⟩, Hrest, Hg⟩, Ho, ⟨%d0, H0⟩, ⟨%d1, H1⟩, ⟨%d2, H2⟩, ⟨%d3, H3⟩⟩
    iapply (runA c (grid3.coords t) _ _ _ _ _ _ _ _ _ _ _ _ _ _ ((hcond0 t).mpr h0) (fun h => h1 ((hcond1 t).mp h))
      (iblk V c 0 t) (iblk V c 1 t) (iblk V c 2 t) _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, HS0, HS1, HS2⟩
    isplitl [HS0 HS1 HS2 Hrest Hg]
    · iexists _, _, _
      isplitr
      · ipureintro; intro _
        rw [scrAt_succ, decide_eq_true h0, step_true]
      isplitl [HS0 HS1 HS2]
      · isplitl [HS0]; · iexact HS0
        isplitl [HS1]; · iexact HS1
        iexact HS2
      isplitl [Hrest]; · iexact Hrest
      iexact Hg
    isplitl [Ho]; · iexact Ho
    isplitl [H0]; · iexact H0
    isplitl [H1]; · iexact H1
    isplitl [H2]; · iexact H2
    iexists _; iexact H3
  · have ht0 : t.val ≠ 0 := fun h => h0 (by rw [h])
    by_cases h1 : t.val % 8 = 7
    · rw [show (dat V c).leavesExact 3 t = owns (c : Thread nD τ) (ms3 t) fullShare ((dat V c).after 3 t) from by
        unfold Dat.leavesExact; rw [liveAt3 t ((hcond1 t).mpr h1)], after_3]
      iintro ⟨⟨%dm, %dl, %dacc, %hs, ⟨HS0, HS1, HS2⟩, Hrest, Hg⟩, Ho, ⟨%d0, H0⟩, ⟨%d1, H1⟩, ⟨%d2, H2⟩, ⟨%d3, H3⟩⟩
      have hs' := hs ht0
      have hnext : scrAt V c (t.val + 1) = upd ⟨dm, dl, dacc⟩ (iblk V c 0 t) (iblk V c 1 t) (iblk V c 2 t) := by
        rw [scrAt_succ, decide_eq_false h0, step_false, ← hs']
      unfold outAt
      rw [hnext]
      iapply (runC c (grid3.coords t) _ _ _ _ _ _ _ _ _ _ _ _ _ _ (fun h => h0 ((hcond0 t).mp h)) ((hcond1 t).mpr h1)
        (iblk V c 0 t) (iblk V c 1 t) (iblk V c 2 t) dm dl dacc Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hrest Hg]
      · iexists _, _, _
        isplitr
        · ipureintro; intro _; rfl
        isplitl [HS0 HS1 HS2]
        · isplitl [HS0]; · iexact HS0
          isplitl [HS1]; · iexact HS1
          iexact HS2
        isplitl [Hrest]; · iexact Hrest
        iexact Hg
      isplitl [Ho]; · iexact Ho
      isplitl [H0]; · iexact H0
      isplitl [H1]; · iexact H1
      isplitl [H2]; · iexact H2
      iexact H3
    · rw [Dat.leavesExact_idle (dat V c) 3 t (idleAt3 t (fun h => h1 ((hcond1 t).mp h))) (noFlush3 t (fun h => h1 ((hcond1 t).mp h)))]
      iintro ⟨⟨%dm, %dl, %dacc, %hs, ⟨HS0, HS1, HS2⟩, Hrest, Hg⟩, Ho, ⟨%d0, H0⟩, ⟨%d1, H1⟩, ⟨%d2, H2⟩, ⟨%d3, H3⟩⟩
      have hs' := hs ht0
      have hnext : scrAt V c (t.val + 1) = upd ⟨dm, dl, dacc⟩ (iblk V c 0 t) (iblk V c 1 t) (iblk V c 2 t) := by
        rw [scrAt_succ, decide_eq_false h0, step_false, ← hs']
      iapply (runB c (grid3.coords t) _ _ _ _ _ _ _ _ _ _ _ _ _ _ (fun h => h0 ((hcond0 t).mp h)) (fun h => h1 ((hcond1 t).mp h))
        (iblk V c 0 t) (iblk V c 1 t) (iblk V c 2 t) _ dm dl dacc Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hrest Hg]
      · iexists _, _, _
        isplitr
        · ipureintro; intro _; exact hnext.symm
        isplitl [HS0 HS1 HS2]
        · isplitl [HS0]; · iexact HS0
          isplitl [HS1]; · iexact HS1
          iexact HS2
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-! ## Into and out of the invariant -/

/-- What the launch hands the region — the generator register, anything `P` beside it (the prefetched tables: none
    here), and the scoped buffers no window stages — gives the invariant before the first point: the three scratch
    buffers are split out of the scoped rest, at whatever they hold. -/
theorem phi_in (c : Dev nD) (P : sProp 𝕄) :
    iprop((∃ r, prngReg c r) ∗ P ∗ Pipeline.scopedRest (Ix := Unit) (Name := ℕ) (U := Pipeline.UD sig nD τ) (Lvl := ℕ) (Val := Elt F) spec3 c) ⊢ (dat V c).Φ 0 := by
  rw [show (dat V c).Φ 0 = Phi V c 0 from rfl, scopedRest3_split]
  unfold Phi
  simp only [scM0, scM1, scM2, owns_whole]
  iintro ⟨Hg, -, ⟨⟨%f0, H0⟩, ⟨%f1, H1⟩, ⟨%f2, H2⟩⟩, Hrest⟩
  iexists f0, f1, f2
  isplitr; · ipureintro; intro h; exact absurd rfl h
  isplitl [H0 H1 H2]
  · isplitl [H0]; · iexact H0
    isplitl [H1]; · iexact H1
    iexact H2
  isplitl [Hrest]; · iexact Hrest
  iexact Hg

/-- After the last point the invariant gives back the generator register, no semaphore of the kernel's own, and the
    scoped rest: what the scratch buffers hold is forgotten. -/
theorem phi_out (c : Dev nD) :
    (dat V c).Φ (Fin.last cfg3.N)
      ⊢ iprop((∃ r, prngReg c r) ∗ Pipeline.ownSems0 (Ix := Unit) (Name := ℕ) (U := Pipeline.UD sig nD τ) (Lvl := ℕ) (Val := Elt F) (τ := τ) (K := PEmpty) (fun k => k.elim) c
          ∗ Pipeline.scopedRest (Ix := Unit) (Name := ℕ) (U := Pipeline.UD sig nD τ) (Lvl := ℕ) (Val := Elt F) spec3 c) := by
  rw [Pipeline.ownSems0_none, show (dat V c).Φ (Fin.last cfg3.N) = Phi V c (Fin.last cfg3.N).val from rfl, scopedRest3_split]
  unfold Phi
  simp only [scM0, scM1, scM2, owns_whole]
  iintro ⟨%dm, %dl, %dacc, -, ⟨H0, H1, H2⟩, Hrest, Hg⟩
  isplitl [Hg]; · iexact Hg
  isplitr; · iempintro
  isplitl [H0 H1 H2]
  · isplitl [H0]; · iexists _; iexact H0
    isplitl [H1]; · iexists _; iexact H1
    iexists _; iexact H2
  iexact Hrest

/-! ## The output block of a (batch·head) pair, as eight steps over its key tiles -/

/-- The grid point of pair `g` at key tile `j`. -/
def pt (g : Fin 16) (j : Fin 8) : Fin cfg3.N :=
  ⟨8 * g.val + j.val, by show 8 * g.val + j.val < grid3.N; rw [N_3]; omega⟩

/-- The carried state of pair `g` after its first `n` key tiles: `step` over the pair's blocks tile by tile, the first
    with the reset. -/
def tiles (c : Dev nD) (g : Fin 16) : (n : ℕ) → n ≤ 8 → Scr F
  | 0, _ => Scr.init
  | n + 1, h => step (tiles c g n (Nat.le_of_succ_le h)) (decide (n = 0))
      (iblk V c 0 (pt g ⟨n, h⟩)) (iblk V c 1 (pt g ⟨n, h⟩)) (iblk V c 2 (pt g ⟨n, h⟩))

theorem scrAt_succ' (c : Dev nD) (n : ℕ) (h : n < cfg3.N) :
    scrAt V c (n + 1) = step (scrAt V c n) (decide (n % 8 = 0)) (iblk V c 0 ⟨n, h⟩) (iblk V c 1 ⟨n, h⟩) (iblk V c 2 ⟨n, h⟩) :=
  scrAt_succ V c ⟨n, h⟩

/-- The running state at position `8·g + n`, `1 ≤ n ≤ 8`, is the pair's own state after `n` tiles: the reset at the
    pair's first tile cuts it off from everything before. -/
theorem scrAt_tiles (c : Dev nD) (g : Fin 16) : ∀ (n : ℕ) (h : n + 1 ≤ 8), scrAt V c (8 * g.val + (n + 1)) = tiles V c g (n + 1) h
  | 0, h => by
    have hlt : 8 * g.val + 0 < cfg3.N := (pt g ⟨0, h⟩).isLt
    show scrAt V c ((8 * g.val + 0) + 1) = _
    rw [scrAt_succ' V c _ hlt, decide_eq_true (by omega : (8 * g.val + 0) % 8 = 0), step_true]
    rfl
  | n + 1, h => by
    have hlt : 8 * g.val + (n + 1) < cfg3.N := (pt g ⟨n + 1, h⟩).isLt
    show scrAt V c ((8 * g.val + (n + 1)) + 1) = _
    rw [scrAt_succ' V c _ hlt, decide_eq_false (by omega : ¬(8 * g.val + (n + 1)) % 8 = 0), step_false,
      scrAt_tiles c g n (Nat.le_of_succ_le h)]
    rfl

/-- WHAT THE PIPELINE WRITES BACK for pair `g` (at its last key tile, position `8·g + 7`): the numerator over the
    denominator, rounded to bf16, of the state after the pair's eight tiles. -/
theorem out_at_last (c : Dev nD) (g : Fin 16) :
    (dat V c).after 3 (pt g 7) = k3_pay3 (tiles V c g 8 (Nat.le_refl 8)).acc (tiles V c g 8 (Nat.le_refl 8)).l := by
  rw [after_3]; unfold outAt
  rw [show (pt g 7).val + 1 = 8 * g.val + (7 + 1) from rfl, scrAt_tiles V c g 7 (Nat.le_refl 8)]

end Cert.KernelIdeal.Attn

end
-- ==== Proof.IdealRun.lean ====
import proofs.«147348_j2388001816882_2_alg».proof.Proof.IdealLin0
import proofs.«147348_j2388001816882_2_alg».proof.Proof.IdealLin1
import proofs.«147348_j2388001816882_2_alg».proof.Proof.IdealLin2
import proofs.«147348_j2388001816882_2_alg».proof.Proof.IdealLin4
import proofs.«147348_j2388001816882_2_alg».proof.Proof.IdealAttn
import proofs.«147348_j2388001816882_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-
  The run of the whole program, region by region. @main is six stretches of host operations (reshapes and
  transposes: the head split and merge) around five kernel regions: three projections, the attention kernel, the output
  projection. The contents of every unscoped buffer are followed through the eleven items as a fold from the launch
  memory: a host stretch applies its operations; a region replaces its output array by what its write-backs leave and
  keeps everything else. The launch theorem for a program of several regions then gives: every weakly fair execution
  terminates, nothing faults, and the final memory holds that fold's last value — in particular the result array and,
  unchanged, every argument.
-/
namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A valuation of the buffers read at the TensorCore's references. -/
abbrev rd (W : Dev nD → Valuation τ sig (Elt F)) : (c : Dev nD) → (b : Ref sig .tc) → Buf (Elt F) ((c : Thread nD τ).loc b) :=
  fun c b => W c b

/-! ## The buffers' contents at each boundary -/

/-- At launch. -/
abbrev W0 : Dev nD → Valuation τ sig (Elt F) := fun c b => (s₀ m ρ).mem ((c : Dev nD), b)
/-- After the first host stretch (the three inputs flattened to [4096,1024], the query bias as a row). -/
abbrev W1 : Dev nD → Valuation τ sig (Elt F) := fun c => StableHlo.after hostOps0 (W0 m ρ c)

/-- After region 0: its windows' arrays at what its write-backs leave, every other buffer as the region found it. -/
def W2 (c : Dev nD) : Valuation τ sig (Elt F) :=
  Pipeline.withArrays spec0 c (W1 m ρ c) fun w => (Lin0.dat (rd (W1 m ρ)) c).arrAt w cfg0.N
theorem W2_arr (c : Dev nD) (w : Fin cfg0.W) :
    W2 m ρ c (Proc.devRef .tc (Pipeline.arrRef spec0 w)) = (Lin0.dat (rd (W1 m ρ)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (Lin0.dat (rd (W1 m ρ)) c).arrAt w cfg0.N = rd (W2 m ρ) c (Pipeline.arrRef spec0 w) :=
  (W2_arr m ρ c w).symm
theorem hrest0 (c : Dev nD) : ∀ b, b ∉ Finset.univ.image (Pipeline.arrRef spec0) → rd (W2 m ρ) c b = rd (W1 m ρ) c b :=
  fun b hb => W2_of_ne m ρ c b fun w e => hb (Finset.mem_image.mpr ⟨w, Finset.mem_univ _, e⟩)
/-- A reference other than the region's output array holds after the region what it held before: an input window's array
    is read, never written back; any other buffer bypasses the region. -/
theorem W2_keep (c : Dev nD) (r : Ref sig .tc) (hr : r ≠ main_v4) :
    W2 m ρ c (Proc.devRef .tc r) = W1 m ρ c (Proc.devRef .tc r) := by
  by_cases h : ∃ w, Pipeline.arrRef spec0 w = r
  · obtain ⟨w, rfl⟩ := h
    match w, hr with
    | ⟨0, _⟩, _ => exact (W2_arr m ρ c 0).trans (((Lin0.dat (rd (W1 m ρ)) c).arrAt_in 0 rfl _).trans (Lin0.A_eq (rd (W1 m ρ)) c 0))
    | ⟨1, _⟩, _ => exact (W2_arr m ρ c 1).trans (((Lin0.dat (rd (W1 m ρ)) c).arrAt_in 1 rfl _).trans (Lin0.A_eq (rd (W1 m ρ)) c 1))
    | ⟨2, _⟩, _ => exact (W2_arr m ρ c 2).trans (((Lin0.dat (rd (W1 m ρ)) c).arrAt_in 2 rfl _).trans (Lin0.A_eq (rd (W1 m ρ)) c 2))
    | ⟨3, _⟩, hr => exact absurd rfl hr
  · exact W2_of_ne m ρ c r fun w e => h ⟨w, e⟩

abbrev W3 : Dev nD → Valuation τ sig (Elt F) := fun c => StableHlo.after hostOps1 (W2 m ρ c)

/-- After region 1: its windows' arrays at what its write-backs leave, every other buffer as the region found it. -/
def W4 (c : Dev nD) : Valuation τ sig (Elt F) :=
  Pipeline.withArrays spec1 c (W3 m ρ c) fun w => (Lin1.dat (rd (W3 m ρ)) c).arrAt w cfg1.N
theorem W4_arr (c : Dev nD) (w : Fin cfg1.W) :
    W4 m ρ c (Proc.devRef .tc (Pipeline.arrRef spec1 w)) = (Lin1.dat (rd (W3 m ρ)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (Lin1.dat (rd (W3 m ρ)) c).arrAt w cfg1.N = rd (W4 m ρ) c (Pipeline.arrRef spec1 w) :=
  (W4_arr m ρ c w).symm
theorem hrest1 (c : Dev nD) : ∀ b, b ∉ Finset.univ.image (Pipeline.arrRef spec1) → rd (W4 m ρ) c b = rd (W3 m ρ) c b :=
  fun b hb => W4_of_ne m ρ c b fun w e => hb (Finset.mem_image.mpr ⟨w, Finset.mem_univ _, e⟩)
/-- A reference other than the region's output array holds after the region what it held before: an input window's array
    is read, never written back; any other buffer bypasses the region. -/
theorem W4_keep (c : Dev nD) (r : Ref sig .tc) (hr : r ≠ main_v6) :
    W4 m ρ c (Proc.devRef .tc r) = W3 m ρ c (Proc.devRef .tc r) := by
  by_cases h : ∃ w, Pipeline.arrRef spec1 w = r
  · obtain ⟨w, rfl⟩ := h
    match w, hr with
    | ⟨0, _⟩, _ => exact (W4_arr m ρ c 0).trans (((Lin1.dat (rd (W3 m ρ)) c).arrAt_in 0 rfl _).trans (Lin1.A_eq (rd (W3 m ρ)) c 0))
    | ⟨1, _⟩, _ => exact (W4_arr m ρ c 1).trans (((Lin1.dat (rd (W3 m ρ)) c).arrAt_in 1 rfl _).trans (Lin1.A_eq (rd (W3 m ρ)) c 1))
    | ⟨2, _⟩, _ => exact (W4_arr m ρ c 2).trans (((Lin1.dat (rd (W3 m ρ)) c).arrAt_in 2 rfl _).trans (Lin1.A_eq (rd (W3 m ρ)) c 2))
    | ⟨3, _⟩, hr => exact absurd rfl hr
  · exact W4_of_ne m ρ c r fun w e => h ⟨w, e⟩

abbrev W5 : Dev nD → Valuation τ sig (Elt F) := fun c => StableHlo.after hostOps2 (W4 m ρ c)

/-- After region 2: its windows' arrays at what its write-backs leave, every other buffer as the region found it. -/
def W6 (c : Dev nD) : Valuation τ sig (Elt F) :=
  Pipeline.withArrays spec2 c (W5 m ρ c) fun w => (Lin2.dat (rd (W5 m ρ)) c).arrAt w cfg2.N
theorem W6_arr (c : Dev nD) (w : Fin cfg2.W) :
    W6 m ρ c (Proc.devRef .tc (Pipeline.arrRef spec2 w)) = (Lin2.dat (rd (W5 m ρ)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (Lin2.dat (rd (W5 m ρ)) c).arrAt w cfg2.N = rd (W6 m ρ) c (Pipeline.arrRef spec2 w) :=
  (W6_arr m ρ c w).symm
theorem hrest2 (c : Dev nD) : ∀ b, b ∉ Finset.univ.image (Pipeline.arrRef spec2) → rd (W6 m ρ) c b = rd (W5 m ρ) c b :=
  fun b hb => W6_of_ne m ρ c b fun w e => hb (Finset.mem_image.mpr ⟨w, Finset.mem_univ _, e⟩)
/-- A reference other than the region's output array holds after the region what it held before: an input window's array
    is read, never written back; any other buffer bypasses the region. -/
theorem W6_keep (c : Dev nD) (r : Ref sig .tc) (hr : r ≠ main_v8) :
    W6 m ρ c (Proc.devRef .tc r) = W5 m ρ c (Proc.devRef .tc r) := by
  by_cases h : ∃ w, Pipeline.arrRef spec2 w = r
  · obtain ⟨w, rfl⟩ := h
    match w, hr with
    | ⟨0, _⟩, _ => exact (W6_arr m ρ c 0).trans (((Lin2.dat (rd (W5 m ρ)) c).arrAt_in 0 rfl _).trans (Lin2.A_eq (rd (W5 m ρ)) c 0))
    | ⟨1, _⟩, _ => exact (W6_arr m ρ c 1).trans (((Lin2.dat (rd (W5 m ρ)) c).arrAt_in 1 rfl _).trans (Lin2.A_eq (rd (W5 m ρ)) c 1))
    | ⟨2, _⟩, _ => exact (W6_arr m ρ c 2).trans (((Lin2.dat (rd (W5 m ρ)) c).arrAt_in 2 rfl _).trans (Lin2.A_eq (rd (W5 m ρ)) c 2))
    | ⟨3, _⟩, hr => exact absurd rfl hr
  · exact W6_of_ne m ρ c r fun w e => h ⟨w, e⟩

/-- After the head split of the three projections. -/
abbrev W7 : Dev nD → Valuation τ sig (Elt F) := fun c => StableHlo.after hostOps3 (W6 m ρ c)

/-- After region 3: its windows' arrays at what its write-backs leave, every other buffer as the region found it. -/
def W8 (c : Dev nD) : Valuation τ sig (Elt F) :=
  Pipeline.withArrays spec3 c (W7 m ρ c) fun w => (Attn.dat (rd (W7 m ρ)) c).arrAt w cfg3.N
theorem W8_arr (c : Dev nD) (w : Fin cfg3.W) :
    W8 m ρ c (Proc.devRef .tc (Pipeline.arrRef spec3 w)) = (Attn.dat (rd (W7 m ρ)) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem hF3 (c : Dev nD) (w : Fin cfg3.W) : (Attn.dat (rd (W7 m ρ)) c).arrAt w cfg3.N = rd (W8 m ρ) c (Pipeline.arrRef spec3 w) :=
  (W8_arr m ρ c w).symm
theorem hrest3 (c : Dev nD) : ∀ b, b ∉ Finset.univ.image (Pipeline.arrRef spec3) → rd (W8 m ρ) c b = rd (W7 m ρ) c b :=
  fun b hb => W8_of_ne m ρ c b fun w e => hb (Finset.mem_image.mpr ⟨w, Finset.mem_univ _, e⟩)
/-- A reference other than the region's output array holds after the region what it held before: an input window's array
    is read, never written back; any other buffer bypasses the region. -/
theorem W8_keep (c : Dev nD) (r : Ref sig .tc) (hr : r ≠ main_v18) :
    W8 m ρ c (Proc.devRef .tc r) = W7 m ρ c (Proc.devRef .tc r) := by
  by_cases h : ∃ w, Pipeline.arrRef spec3 w = r
  · obtain ⟨w, rfl⟩ := h
    match w, hr with
    | ⟨0, _⟩, _ => exact (W8_arr m ρ c 0).trans (((Attn.dat (rd (W7 m ρ)) c).arrAt_in 0 rfl _).trans (Attn.A_eq (rd (W7 m ρ)) c 0))
    | ⟨1, _⟩, _ => exact (W8_arr m ρ c 1).trans (((Attn.dat (rd (W7 m ρ)) c).arrAt_in 1 rfl _).trans (Attn.A_eq (rd (W7 m ρ)) c 1))
    | ⟨2, _⟩, _ => exact (W8_arr m ρ c 2).trans (((Attn.dat (rd (W7 m ρ)) c).arrAt_in 2 rfl _).trans (Attn.A_eq (rd (W7 m ρ)) c 2))
    | ⟨3, _⟩, hr => exact absurd rfl hr
  · exact W8_of_ne m ρ c r fun w e => h ⟨w, e⟩

/-- After the head merge. -/
abbrev W9 : Dev nD → Valuation τ sig (Elt F) := fun c => StableHlo.after hostOps4 (W8 m ρ c)

/-- After region 4: its windows' arrays at what its write-backs leave, every other buffer as the region found it. -/
def W10 (c : Dev nD) : Valuation τ sig (Elt F) :=
  Pipeline.withArrays spec4 c (W9 m ρ c) fun w => (Lin4.dat (rd (W9 m ρ)) c).arrAt w cfg4.N
theorem W10_arr (c : Dev nD) (w : Fin cfg4.W) :
    W10 m ρ c (Proc.devRef .tc (Pipeline.arrRef spec4 w)) = (Lin4.dat (rd (W9 m ρ)) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
theorem hF4 (c : Dev nD) (w : Fin cfg4.W) : (Lin4.dat (rd (W9 m ρ)) c).arrAt w cfg4.N = rd (W10 m ρ) c (Pipeline.arrRef spec4 w) :=
  (W10_arr m ρ c w).symm
theorem hrest4 (c : Dev nD) : ∀ b, b ∉ Finset.univ.image (Pipeline.arrRef spec4) → rd (W10 m ρ) c b = rd (W9 m ρ) c b :=
  fun b hb => W10_of_ne m ρ c b fun w e => hb (Finset.mem_image.mpr ⟨w, Finset.mem_univ _, e⟩)
/-- A reference other than the region's output array holds after the region what it held before: an input window's array
    is read, never written back; any other buffer bypasses the region. -/
theorem W10_keep (c : Dev nD) (r : Ref sig .tc) (hr : r ≠ main_v23) :
    W10 m ρ c (Proc.devRef .tc r) = W9 m ρ c (Proc.devRef .tc r) := by
  by_cases h : ∃ w, Pipeline.arrRef spec4 w = r
  · obtain ⟨w, rfl⟩ := h
    match w, hr with
    | ⟨0, _⟩, _ => exact (W10_arr m ρ c 0).trans (((Lin4.dat (rd (W9 m ρ)) c).arrAt_in 0 rfl _).trans (Lin4.A_eq (rd (W9 m ρ)) c 0))
    | ⟨1, _⟩, _ => exact (W10_arr m ρ c 1).trans (((Lin4.dat (rd (W9 m ρ)) c).arrAt_in 1 rfl _).trans (Lin4.A_eq (rd (W9 m ρ)) c 1))
    | ⟨2, _⟩, _ => exact (W10_arr m ρ c 2).trans (((Lin4.dat (rd (W9 m ρ)) c).arrAt_in 2 rfl _).trans (Lin4.A_eq (rd (W9 m ρ)) c 2))
    | ⟨3, _⟩, hr => exact absurd rfl hr
  · exact W10_of_ne m ρ c r fun w e => h ⟨w, e⟩

/-- After the last reshape: the result. -/
abbrev W11 : Dev nD → Valuation τ sig (Elt F) := fun c => StableHlo.after hostOps5 (W10 m ρ c)

/-- A reference a host stretch does not write holds after it what it held before. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
theorem W9_keep (c : Dev nD) (r : Ref sig .tc) (h : r ∉ hostOps4_W) : W9 m ρ c (Proc.devRef .tc r) = W8 m ρ c (Proc.devRef .tc r) :=
  StableHlo.after_of_writes_sub hostOps4 _ hostOps4_writes h
theorem W11_step (c : Dev nD) (r : Ref sig .tc) (h : r ∉ hostOps5_W) : W11 m ρ c (Proc.devRef .tc r) = W10 m ρ c (Proc.devRef .tc r) :=
  StableHlo.after_of_writes_sub hostOps5 _ hostOps5_writes h

/-- A reference that no host stretch writes and that is no region's output array ends holding its launch contents. -/
theorem W11_keep (c : Dev nD) (r : Ref sig .tc) (h0 : r ∉ hostOps0_W) (h1 : r ∉ hostOps1_W) (h2 : r ∉ hostOps2_W)
    (h3 : r ∉ hostOps3_W) (h4 : r ∉ hostOps4_W) (h5 : r ∉ hostOps5_W)
    (o0 : r ≠ main_v4) (o1 : r ≠ main_v6) (o2 : r ≠ main_v8) (o3 : r ≠ main_v18) (o4 : r ≠ main_v23) :
    W11 m ρ c (Proc.devRef .tc r) = m ((c : Thread nD τ).loc r) :=
  calc W11 m ρ c (Proc.devRef .tc r)
    _ = W10 m ρ c (Proc.devRef .tc r) := StableHlo.after_of_writes_sub hostOps5 _ hostOps5_writes h5
    _ = W9 m ρ c (Proc.devRef .tc r) := W10_keep m ρ c r o4
    _ = W8 m ρ c (Proc.devRef .tc r) := StableHlo.after_of_writes_sub hostOps4 _ hostOps4_writes h4
    _ = W7 m ρ c (Proc.devRef .tc r) := W8_keep m ρ c r o3
    _ = W6 m ρ c (Proc.devRef .tc r) := StableHlo.after_of_writes_sub hostOps3 _ hostOps3_writes h3
    _ = W5 m ρ c (Proc.devRef .tc r) := W6_keep m ρ c r o2
    _ = W4 m ρ c (Proc.devRef .tc r) := StableHlo.after_of_writes_sub hostOps2 _ hostOps2_writes h2
    _ = W3 m ρ c (Proc.devRef .tc r) := W4_keep m ρ c r o1
    _ = W2 m ρ c (Proc.devRef .tc r) := StableHlo.after_of_writes_sub hostOps1 _ hostOps1_writes h1
    _ = W1 m ρ c (Proc.devRef .tc r) := W2_keep m ρ c r o0
    _ = W0 m ρ c (Proc.devRef .tc r) := StableHlo.after_of_writes_sub hostOps0 _ hostOps0_writes h0
    _ = m ((c : Thread nD τ).loc r) := rfl

/-! ## The proof data family and the thread state -/

/-- No pallas_call of this program has a prefetched table. -/
abbrev adm : (p : Fin 5) → (pcfgs (F := F) p).Adm := fun p => (cfgs p).toPCfg_adm
/-- Every pipeline's proof data, each at the contents its region is entered with. -/
def pdats : (p : Fin 5) → (c : Dev nD) → Dat τ (Elt F) Unit ℕ (Pipeline.UD sig nD τ) ℕ (Pipeline.pin (pcfgs (F := F)) adm p) c
  | ⟨0, _⟩ => fun c => Lin0.dat (rd (W1 m ρ)) c
  | ⟨1, _⟩ => fun c => Lin1.dat (rd (W3 m ρ)) c
  | ⟨2, _⟩ => fun c => Lin2.dat (rd (W5 m ρ)) c
  | ⟨3, _⟩ => fun c => Attn.dat (rd (W7 m ρ)) c
  | ⟨4, _⟩ => fun c => Lin4.dat (rd (W9 m ρ)) c
abbrev 𝒱₀ : Variants := Variants.none
/-- No core waits for another: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0: entered with every unscoped buffer at `W1`, left with them at `W2`. Its windows' arrays are split out
    of the unscoped buffers and put back at their exit contents; the generator register passes through the invariant;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation (rd (W1 m ρ)) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (rd (W1 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (rd (W1 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (rd (W1 m ρ) c) (rd (W2 m ρ) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W3`, left with them at `W4`. Its windows' arrays are split out
    of the unscoped buffers and put back at their exit contents; the generator register passes through the invariant;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation (rd (W3 m ρ)) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (rd (W3 m ρ) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (rd (W3 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (rd (W3 m ρ) c) (rd (W4 m ρ) c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W5`, left with them at `W6`. Its windows' arrays are split out
    of the unscoped buffers and put back at their exit contents; the generator register passes through the invariant;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation (rd (W5 m ρ)) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (rd (W5 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (rd (W5 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (rd (W5 m ρ) c) (rd (W6 m ρ) c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3, the attention kernel: as the others, except that its invariant also carries the kernel's three scratch
    buffers (the running maximum, denominator and numerator) from one grid point to the next. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Attn.body_obligation (rd (W7 m ρ)) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (rd (W7 m ρ) c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (rd (W7 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (Attn.dat (rd (W7 m ρ)) c).Φ 0 from rfl]
    exact Attn.phi_in (rd (W7 m ρ)) c _
  hout c := by
    rw [show (pdats m ρ 3 c).Φ (Fin.last _) = (Attn.dat (rd (W7 m ρ)) c).Φ (Fin.last cfg3.N) from rfl]
    exact Attn.phi_out (rd (W7 m ρ)) c
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (rd (W7 m ρ) c) (rd (W8 m ρ) c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W9`, left with them at `W10`. Its windows' arrays are split out
    of the unscoped buffers and put back at their exit contents; the generator register passes through the invariant;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Lin4.body_obligation (rd (W9 m ρ)) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (rd (W9 m ρ) c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (rd (W9 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (rd (W9 m ρ) c) (rd (W10 m ρ) c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds the result array at the fold's last value and every argument array as launched. -/
theorem run : θ_run defs (onTc (τ := τ) (main (F := F))) ⟨m, fun _ => 0, ρ⟩ (fun r => ∀ c : Dev nD,
      r.2.mem ((c.tc : Thread nD τ).loc main_v24) = W11 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (StableHlo.after hostOps5 (W10 m ρ c)) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v24 (by decide)),
       (h c _ (mem_uc main_arg0 (by decide))).trans (W11_keep m ρ c main_arg0 (by decide) (by decide) (by decide) (by decide) (by decide) (by decide) (by decide) (by decide) (by decide) (by decide) (by decide)),
       (h c _ (mem_uc main_arg1 (by decide))).trans (W11_keep m ρ c main_arg1 (by decide) (by decide) (by decide) (by decide) (by decide) (by decide) (by decide) (by decide) (by decide) (by decide) (by decide)),
       (h c _ (mem_uc main_arg2 (by decide))).trans (W11_keep m ρ c main_arg2 (by decide) (by decide) (by decide) (by decide) (by decide) (by decide) (by decide) (by decide) (by decide) (by decide) (by decide)),
       (h c _ (mem_uc main_arg3 (by decide))).trans (W11_keep m ρ c main_arg3 (by decide) (by decide) (by decide) (by decide) (by decide) (by decide) (by decide) (by decide) (by decide) (by decide) (by decide)),
       (h c _ (mem_uc main_arg4 (by decide))).trans (W11_keep m ρ c main_arg4 (by decide) (by decide) (by decide) (by decide) (by decide) (by decide) (by decide) (by decide) (by decide) (by decide) (by decide)),
       (h c _ (mem_uc main_arg5 (by decide))).trans (W11_keep m ρ c main_arg5 (by decide) (by decide) (by decide) (by decide) (by decide) (by decide) (by decide) (by decide) (by decide) (by decide) (by decide)),
       (h c _ (mem_uc main_arg6 (by decide))).trans (W11_keep m ρ c main_arg6 (by decide) (by decide) (by decide) (by decide) (by decide) (by decide) (by decide) (by decide) (by decide) (by decide) (by decide)),
       (h c _ (mem_uc main_arg7 (by decide))).trans (W11_keep m ρ c main_arg7 (by decide) (by decide) (by decide) (by decide) (by decide) (by decide) (by decide) (by decide) (by decide) (by decide) (by decide)),
       (h c _ (mem_uc main_arg8 (by decide))).trans (W11_keep m ρ c main_arg8 (by decide) (by decide) (by decide) (by decide) (by decide) (by decide) (by decide) (by decide) (by decide) (by decide) (by decide)),
       (h c _ (mem_uc main_arg9 (by decide))).trans (W11_keep m ρ c main_arg9 (by decide) (by decide) (by decide) (by decide) (by decide) (by decide) (by decide) (by decide) (by decide) (by decide) (by decide)),
       (h c _ (mem_uc main_arg10 (by decide))).trans (W11_keep m ρ c main_arg10 (by decide) (by decide) (by decide) (by decide) (by decide) (by decide) (by decide) (by decide) (by decide) (by decide) (by decide))⟩)

end Cert.KernelIdeal.Run

end
-- ==== Proof.BitsLin0.lean ====
import proofs.«147348_j2388001816882_2_alg».proof.Proof.Gen.Kernel.Launch
import proofs.«147348_j2388001816882_2_alg».proof.Proof.Gen.Kernel.Skeleton
import proofs.«147348_j2388001816882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 0: one grid point's work, and the pipeline's proof data

The projection `y = x · W + b` runs over a grid of 8 points. At point `t` the body sees a
512 × 1024 block of `x` (rows `512·t … 512·t + 511`), the whole weight matrix `W` and the bias
row `b` (both brought in once, at the first point, and left in place afterwards), and writes one
512 × 1024 block of `y`. This file states what the body leaves in the output block as a function
`out3` of the three input blocks, proves the body's separation-logic triple against it, and packs
the result as the pipeline's proof data over ARBITRARY entry contents `V` of the core's buffers. -/

set_option maxRecDepth 16384

noncomputable section

namespace Cert.Kernel.Lin0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` window's staging buffer holds its block at every point: it is fetched at every point, and a
    buffer the body only reads keeps its block. Stated for any proof data whose array is `V`'s and whose
    body leaves the block in place. -/
theorem before_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window is fetched at the first point only; at a later point its block index has not moved,
    so the buffer still holds the block of that point (which is the whole matrix at every point). -/
theorem before_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias window: as the weight window. -/
theorem before_2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rx : Rect S512x1024 := Rect.unit (s := S512x1024) ![0, 0] S512x1024.size inb_S512x1024_S512x1024_0_0
abbrev rw' : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0

/-! ## What the body leaves in the output block -/

/-- The output block after the body, from the three input blocks: the one store's payload
    (`x · W + b` in the payload's roundings) laid over the whole block. -/
def out3 (x0 : Vec F S512x1024 .f32) (x1 : Vec F S1024x1024 .f32) (x2 : Vec F S1x1024 .f32) : Vec F S512x1024 .bf16 :=
  View.canon [⟨rx, k0_pay1 (View.ld x0 rx) (View.ld x1 rw') (View.ld x2 rb)⟩]

/-- The one store is the whole block, so it covers every index of it. -/
theorem cover3 (p0 : Vec F S512x1024 .bf16) (y : S512x1024.Idx) :
    ∃ pc ∈ ([⟨rx, p0⟩] : List (View.Piece (Elt F) S512x1024 .bf16)), y ∈ pc.1.set :=
  View.cover_of_tiled [⟨rx, p0⟩] S512x1024.size (by rfl) y

/-! ## The body's triple -/

set_option maxHeartbeats 1000000 in
/-- The body on whole staging memrefs — the three inputs at contents `x0 x1 x2`, the output at anything —
    runs to the continuation with the inputs as they were and the output at `out3 x0 x1 x2`: three loads,
    a dead load of the output, one store of the payload. -/
theorem sound_kernel (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data on core `c`: the arrays as the region finds them; after the body at point `t` each
    input's buffer at its block and the output's at `out3` of the three input blocks; the invariant is
    "the scoped rest and the generator register are untouched"; nothing owed; full shares. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 (iblk V c 0 t) (iblk V c 1 t) (iblk V c 2 t) := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the body's triple applies; the
    invariant and the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Lin0

end
-- ==== Proof.BitsLin1.lean ====
import proofs.«147348_j2388001816882_2_alg».proof.Proof.Gen.Kernel.Launch
import proofs.«147348_j2388001816882_2_alg».proof.Proof.Gen.Kernel.Skeleton
import proofs.«147348_j2388001816882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 1: one grid point's work, and the pipeline's proof data

The projection `y = x · W + b` runs over a grid of 8 points. At point `t` the body sees a
512 × 1024 block of `x` (rows `512·t … 512·t + 511`), the whole weight matrix `W` and the bias
row `b` (both brought in once, at the first point, and left in place afterwards), and writes one
512 × 1024 block of `y`. This file states what the body leaves in the output block as a function
`out3` of the three input blocks, proves the body's separation-logic triple against it, and packs
the result as the pipeline's proof data over ARBITRARY entry contents `V` of the core's buffers. -/

set_option maxRecDepth 16384

noncomputable section

namespace Cert.Kernel.Lin1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The `x` window's staging buffer holds its block at every point: it is fetched at every point, and a
    buffer the body only reads keeps its block. Stated for any proof data whose array is `V`'s and whose
    body leaves the block in place. -/
theorem before_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window is fetched at the first point only; at a later point its block index has not moved,
    so the buffer still holds the block of that point (which is the whole matrix at every point). -/
theorem before_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias window: as the weight window. -/
theorem before_2_of {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rx : Rect S512x1024 := Rect.unit (s := S512x1024) ![0, 0] S512x1024.size inb_S512x1024_S512x1024_0_0
abbrev rw' : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0

/-! ## What the body leaves in the output block -/

/-- The output block after the body, from the three input blocks: the one store's payload
    (`x · W + b` in the payload's roundings) laid over the whole block. -/
def out3 (x0 : Vec F S512x1024 .f32) (x1 : Vec F S1024x1024 .f32) (x2 : Vec F S1x1024 .f32) : Vec F S512x1024 .bf16 :=
  View.canon [⟨rx, k1_pay1 (View.ld x0 rx) (View.ld x1 rw') (View.ld x2 rb)⟩]

/-- The one store is the whole block, so it covers every index of it. -/
theorem cover3 (p0 : Vec F S512x1024 .bf16) (y : S512x1024.Idx) :
    ∃ pc ∈ ([⟨rx, p0⟩] : List (View.Piece (Elt F) S512x1024 .bf16)), y ∈ pc.1.set :=
  View.cover_of_tiled [⟨rx, p0⟩] S512x1024.size (by rfl) y

/-! ## The body's triple -/

set_option maxHeartbeats 1000000 in
/-- The body on whole staging memrefs — the three inputs at contents `x0 x1 x2`, the output at anything —
    runs to the continuation with the inputs as they were and the output at `out3 x0 x1 x2`: three loads,
    a dead load of the output, one store of the payload. -/
theorem sound_kernel (c : Dev nD) (E : Set ℕ) (i : grid1.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data on core `c`: the arrays as the region finds them; after the body at point `t` each
    input's buffer at its block and the output's at `out3` of the three input blocks; the invariant is
    "the scoped rest and the generator register are untouched"; nothing owed; full shares. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out3 (iblk V c 0 t) (iblk V c 1 t) (iblk V c 2 t) := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so the body's triple applies; the
    invariant and the core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Lin1

end
-- ==== Proof.BitsLin2.lean ====
import proofs.«147348_j2388001816882_2_alg».proof.Proof.Gen.Kernel.Launch
import proofs.«147348_j2388001816882_2_alg».proof.Proof.Gen.Kernel.Skeleton
import proofs.«147348_j2388001816882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 2: one grid point's work, and the pipeline's proof data

The projection `y = x · W + b` runs over a grid of 8 points. At point `t` the body sees a
512 × 1024 block of `x` (rows `512·t … 512·t + 511`), the whole weight matrix `W` and the bias
row `b` (both brought in once, at the first point, and left in place afterwards), and writes one
512 × 1024 block of `y`. This file states what the body leaves in the output block as a function
`out3` of the three input blocks, proves the body's separation-logic triple against it, and packs
the result as the pipeline's proof data over ARBITRARY entry contents `V` of the core's buffers. -/

set_option maxRecDepth 16384

noncomputable section

namespace Cert.Kernel.Lin2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The `x` window's staging buffer holds its block at every point: it is fetched at every point, and a
    buffer the body only reads keeps its block. Stated for any proof data whose array is `V`'s and whose
    body leaves the block in place. -/
theorem before_0_of {c : Dev nD} (dat : Dat τ (Elt F) Unit ℕ (Pipeline.UD sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window is fetched at the first point only; at a later point its block index has not moved,
    so the buffer still holds the block of that point (which is the whole matrix at every point). -/
theorem before_1_of {c : Dev nD} (dat : Dat τ (Elt F) Unit ℕ (Pipeline.UD sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias window: as the weight window. -/
theorem before_2_of {c : Dev nD} (dat : Dat τ (Elt F) Unit ℕ (Pipeline.UD sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rx : Rect S512x1024 := Rect.unit (s := S512x1024) ![0, 0] S512x1024.size inb_S512x1024_S512x1024_0_0
abbrev rw' : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0

/-! ## What the body leaves in the output block -/

/-- The output block after the body, from the three input blocks: the one store's payload
    (`x · W + b` in the payload's roundings) laid over the whole block. -/
def out3 (x0 : Vec F S512x1024 .f32) (x1 : Vec F S1024x1024 .f32) (x2 : Vec F S1x1024 .f32) : Vec F S512x1024 .bf16 :=
  View.canon [⟨rx, k2_pay1 (View.ld x0 rx) (View.ld x1 rw') (View.ld x2 rb)⟩]

/-- The one store is the whole block, so it covers every index of it. -/
theorem cover3 (p0 : Vec F S512x1024 .bf16) (y : S512x1024.Idx) :
    ∃ pc ∈ ([⟨rx, p0⟩] : List (View.Piece (Elt F) S512x1024 .bf16)), y ∈ pc.1.set :=
  View.cover_of_tiled [⟨rx, p0⟩] S512x1024.size (by rfl) y

/-! ## The body's triple -/

set_option maxHeartbeats 1000000 in
/-- The body on whole staging memrefs — the three inputs at contents `x0 x1 x2`, the output at anything —
    runs to the continuation with the inputs as they were and the output at `out3 x0 x1 x2`: three loads,
    a dead load of the output, one store of the payload. -/
theorem sound_kernel (c : Dev nD) (E : Set ℕ) (i : grid2.Coords)
    (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data on core `c`: the arrays as the region finds them; after the body at point `t` each
    input's buffer at its block and the output's at `out3` of the three input blocks; the invariant is
    "the scoped rest and the generator register are untouched"; nothing owed; full shares. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec2 c
  q _ := fullShare
  owed _ := 0

/-- The proof data's arrays are the region-entry contents. -/
theorem A_eq (c : Dev nD) (w : Fin cfg2.W) : (dat V c).A w = V c (Pipeline.arrRef spec2 w) := by
  dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out3 (iblk V c 0 t) (iblk V c 1 t) (iblk V c 2 t) := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so the body's triple applies; the
    invariant and the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Lin2

end
-- ==== Proof.BitsLin4.lean ====
import proofs.«147348_j2388001816882_2_alg».proof.Proof.Gen.Kernel.Launch
import proofs.«147348_j2388001816882_2_alg».proof.Proof.Gen.Kernel.Skeleton
import proofs.«147348_j2388001816882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 4: one grid point's work, and the pipeline's proof data

The projection `y = x · W + b` runs over a grid of 8 points. At point `t` the body sees a
512 × 1024 block of `x` (rows `512·t … 512·t + 511`), the whole weight matrix `W` and the bias
row `b` (both brought in once, at the first point, and left in place afterwards), and writes one
512 × 1024 block of `y`. This file states what the body leaves in the output block as a function
`out3` of the three input blocks, proves the body's separation-logic triple against it, and packs
the result as the pipeline's proof data over ARBITRARY entry contents `V` of the core's buffers. -/

set_option maxRecDepth 16384

noncomputable section

namespace Cert.Kernel.Lin4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The `x` window's staging buffer holds its block at every point: it is fetched at every point, and a
    buffer the body only reads keeps its block. Stated for any proof data whose array is `V`'s and whose
    body leaves the block in place. -/
theorem before_0_of {c : Dev nD} (dat : Dat τ (Elt F) Unit ℕ (Pipeline.UD sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window is fetched at the first point only; at a later point its block index has not moved,
    so the buffer still holds the block of that point (which is the whole matrix at every point). -/
theorem before_1_of {c : Dev nD} (dat : Dat τ (Elt F) Unit ℕ (Pipeline.UD sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias window: as the weight window. -/
theorem before_2_of {c : Dev nD} (dat : Dat τ (Elt F) Unit ℕ (Pipeline.UD sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rx : Rect S512x1024 := Rect.unit (s := S512x1024) ![0, 0] S512x1024.size inb_S512x1024_S512x1024_0_0
abbrev rw' : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0

/-! ## What the body leaves in the output block -/

/-- The output block after the body, from the three input blocks: the one store's payload
    (`x · W + b` in the payload's roundings) laid over the whole block. -/
def out3 (x0 : Vec F S512x1024 .bf16) (x1 : Vec F S1024x1024 .f32) (x2 : Vec F S1x1024 .f32) : Vec F S512x1024 .f32 :=
  View.canon [⟨rx, k4_pay1 (View.ld x0 rx) (View.ld x1 rw') (View.ld x2 rb)⟩]

/-- The one store is the whole block, so it covers every index of it. -/
theorem cover3 (p0 : Vec F S512x1024 .f32) (y : S512x1024.Idx) :
    ∃ pc ∈ ([⟨rx, p0⟩] : List (View.Piece (Elt F) S512x1024 .f32)), y ∈ pc.1.set :=
  View.cover_of_tiled [⟨rx, p0⟩] S512x1024.size (by rfl) y

/-! ## The body's triple -/

set_option maxHeartbeats 1000000 in
/-- The body on whole staging memrefs — the three inputs at contents `x0 x1 x2`, the output at anything —
    runs to the continuation with the inputs as they were and the output at `out3 x0 x1 x2`: three loads,
    a dead load of the output, one store of the payload. -/
theorem sound_kernel (c : Dev nD) (E : Set ℕ) (i : grid4.Coords)
    (arg1 : Memref sig .tc .vmem S512x1024 .bf16) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data on core `c`: the arrays as the region finds them; after the body at point `t` each
    input's buffer at its block and the output's at `out3` of the three input blocks; the invariant is
    "the scoped rest and the generator register are untouched"; nothing owed; full shares. -/
def dat (c : Dev nD) : Dat τ (Elt F) Unit ℕ (Pipeline.UD sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec4 c
  q _ := fullShare
  owed _ := 0

/-- The proof data's arrays are the region-entry contents. -/
theorem A_eq (c : Dev nD) (w : Fin cfg4.W) : (dat V c).A w = V c (Pipeline.arrRef spec4 w) := by
  dsimp only [dat]

/-- What the body leaves, window by window. -/
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = out3 (iblk V c 0 t) (iblk V c 1 t) (iblk V c 2 t) := by dsimp only [dat]

/-- Each input's current staging buffer holds its block at every point, fetched there or not. -/
theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d
theorem before_2 (c : Dev nD) (t : Fin cfg4.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d)))

/-- and what it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t))

/-- The body at any point: the inputs' memrefs hold their blocks, so the body's triple applies; the
    invariant and the core's debts pass through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid4.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W4, bigSep_W4]
  exact sound_body V c t

end Cert.Kernel.Lin4

end
-- ==== Proof.BitsAttnDefs.lean ====
import proofs.«147348_j2388001816882_2_alg».proof.Proof.Gen.Kernel.Launch
import proofs.«147348_j2388001816882_2_alg».proof.Proof.Gen.Kernel.Skeleton
import proofs.«147348_j2388001816882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions of the attention body, in closed form over the grid -/

/-- The first conditional (reset of the running maximum, denominator and numerator): the key-tile coordinate is zero. -/
abbrev cond0 (i : grid3.Coords) : Prop := (Scalar.cmpi .ne (Scalar.extui (Scalar.cmpi .eq (BitVec.ofNat 32 (i 2).val) 0#32)) 0#32) = 1#1
/-- The second conditional (normalise and store the output block): the key-tile coordinate is the last one. -/
abbrev cond1 (i : grid3.Coords) : Prop := k3_cond2 i = 1#1

/-- The reset happens exactly at the points whose position is a multiple of 8 (key tile 0). -/
theorem hcond0 : ∀ t : Fin cfg3.N, cond0 (grid3.coords t) ↔ t.val % 8 = 0 :=
  (by decide +kernel : ∀ t : Fin grid3.N, cond0 (grid3.coords t) ↔ t.val % 8 = 0)
/-- The output is stored exactly at the points whose position is 7 modulo 8 (key tile 7). -/
theorem hcond1 : ∀ t : Fin cfg3.N, cond1 (grid3.coords t) ↔ t.val % 8 = 7 :=
  (by decide +kernel : ∀ t : Fin grid3.N, cond1 (grid3.coords t) ↔ t.val % 8 = 7)

/-- Where the output is not stored, its window is idle, -/
theorem idleAt3 : ∀ t : Fin cfg3.N, ¬cond1 (grid3.coords t) → cfg3.idle 3 (grid3.coords t) = true := by decide +kernel
/-- and not written back; -/
theorem noFlush3 : ∀ t : Fin cfg3.N, ¬cond1 (grid3.coords t) → (cfg3.win 3).flush t = false := by decide +kernel
/-- where it is stored, the window is live. -/
theorem liveAt3 : ∀ t : Fin cfg3.N, cond1 (grid3.coords t) → cfg3.idle 3 (grid3.coords t) = false := by decide +kernel

/-! ## The carried state and one point's effect on it -/

/-- The three scratch buffers the body carries from one key tile to the next: the running row maximum, the running
    denominator and the running (unnormalised) numerator of the softmax-weighted sum. -/
structure Scr (F : FTy → Type) where
  m : Vec F S2x2048 .f32
  l : Vec F S2x2048 .f32
  acc : Vec F S2x2048x64 .f32

/-- The state the first key tile starts from: maximum −∞, denominator 0, numerator 0. -/
def Scr.init : Scr F := ⟨k3_pay4, k3_pay5, k3_pay6⟩

/-- The online-softmax update of one key tile, from the state it starts at: the new maximum, the rescaled denominator
    plus this tile's exponentials, the rescaled numerator plus this tile's weighted values. -/
def upd (s : Scr F) (q : Vec F S2x2048x64 .bf16) (k v : Vec F S2x256x64 .bf16) : Scr F :=
  ⟨k3_pay2 (k3_pay8 q k s.m), k3_pay11 q k s.m s.l, k3_pay1 (k3_pay12 q k s.m v) (k3_pay13 q k s.m) s.acc⟩

/-- One grid point's effect on the carried state: at key tile 0 the state is first reset (whatever it was), then updated. -/
def step (s : Scr F) (ki0 : Bool) (q : Vec F S2x2048x64 .bf16) (k v : Vec F S2x256x64 .bf16) : Scr F :=
  upd (match ki0 with | true => Scr.init | false => s) q k v

theorem step_true (s : Scr F) (q : Vec F S2x2048x64 .bf16) (k v : Vec F S2x256x64 .bf16) : step s true q k v = upd Scr.init q k v := rfl
theorem step_false (s : Scr F) (q : Vec F S2x2048x64 .bf16) (k v : Vec F S2x256x64 .bf16) : step s false q k v = upd s q k v := rfl

/-- The whole-block rectangles every load and store of the body goes through. -/
abbrev rQ : Rect S2x2048x64 := Rect.unit (s := S2x2048x64) ![0, 0, 0] S2x2048x64.size inb_S2x2048x64_S2x2048x64_0_0_0
abbrev rK : Rect S2x256x64 := Rect.unit (s := S2x256x64) ![0, 0, 0] S2x256x64.size inb_S2x256x64_S2x256x64_0_0_0
abbrev rM : Rect S2x2048 := Rect.unit (s := S2x2048) ![0, 0] S2x2048.size inb_S2x2048_S2x2048_0_0

/-! ## Whole-block loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

section Whole
variable {sg : RefSig} {κ : Kind} {sp : Space} {S : Shape} {e : EltTy}

/-- A store through the whole-block rectangle, made last, leaves its payload in the buffer whatever was stored or
    held before. -/
theorem read_store_whole (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A whole-block load after a whole-block store reads the stored payload. -/
theorem readCov_store_whole (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A whole-block load of a whole buffer reads its contents. -/
theorem readAt_whole {m : Memref sg κ sp S e} (hm : m.IsWhole) {off : Fin S.rank → Nat} (h : off = fun _ => 0)
    (inb : ∀ a, off a + S.size a ≤ S.size a) (x : S.Idx → Elt F e) :
    m.view.readAt (Elt F) (Rect.unit off S.size inb).toLoadRect (hm.unread x) = x := by
  rw [View.readAt_eq_ld, hm.read_unread, View.ld_unit_zero h]

end Whole

end Cert.Kernel.Attn

end
-- ==== Proof.BitsAttnRunA.lean ====
import proofs.«147348_j2388001816882_2_alg».proof.Proof.BitsAttnDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE FIRST KEY TILE: whatever the three scratch buffers held, the body first overwrites them with the initial state
    (maximum −∞, denominator 0, numerator 0) and then updates that with this tile; the output's buffer is not touched. -/
theorem runA (c : Dev nD) (i : grid3.Coords) (arg3 : Memref sig .tc .vmem S2x2048x64 .bf16) (harg3 : arg3.IsWhole) (arg4 : Memref sig .tc .vmem S2x256x64 .bf16) (harg4 : arg4.IsWhole) (arg5 : Memref sig .tc .vmem S2x256x64 .bf16) (harg5 : arg5.IsWhole) (arg6 : Memref sig .tc .vmem S2x2048x64 .bf16) (harg6 : arg6.IsWhole) (arg7 : Memref sig .tc .vmem S2x2048 .f32) (harg7 : arg7.IsWhole) (arg8 : Memref sig .tc .vmem S2x2048 .f32) (harg8 : arg8.IsWhole) (arg9 : Memref sig .tc .vmem S2x2048x64 .f32) (harg9 : arg9.IsWhole) (hc0 : cond0 i) (hc1 : ¬cond1 i)
    (q : Vec F S2x2048x64 .bf16) (k v : Vec F S2x256x64 .bf16) (xo : Vec F S2x2048x64 .bf16) (E : Set ℕ) (K : PUnit → sProp 𝕄) :
    iprop(owns (c : Thread nD τ) arg3 fullShare q
        ∗ owns (c : Thread nD τ) arg4 fullShare k
        ∗ owns (c : Thread nD τ) arg5 fullShare v
        ∗ owns (c : Thread nD τ) arg6 fullShare xo
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg3 fullShare q
            ∗ owns (c : Thread nD τ) arg4 fullShare k
            ∗ owns (c : Thread nD τ) arg5 fullShare v
            ∗ owns (c : Thread nD τ) arg6 fullShare xo
            ∗ owns (c : Thread nD τ) arg7 fullShare (k3_pay2 (k3_pay8 q k k3_pay4))
            ∗ owns (c : Thread nD τ) arg8 fullShare (k3_pay11 q k k3_pay4 k3_pay5)
            ∗ owns (c : Thread nD τ) arg9 fullShare (k3_pay1 (k3_pay12 q k k3_pay4 v) (k3_pay13 q k k3_pay4) k3_pay6)) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  isplitl [H8]
  · iexists _; isplitr; swap; · iexact H8
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  iexists _; isplitr; swap; · iexact H9
  ipureintro
  sl_unfold_run_names
  rw [read_store_whole _ _ hz3]
  try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])

end Cert.Kernel.Attn

end
-- ==== Proof.BitsAttnRunB.lean ====
import proofs.«147348_j2388001816882_2_alg».proof.Proof.BitsAttnRunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE MIDDLE KEY TILES (neither the first nor the last): from the query, key and value blocks, the output's buffer at
    anything stated and the carried state `m`, `l`, `acc`, the body runs to the blocks and the output's buffer as they were
    and the carried state updated: the new maximum, the rescaled denominator plus this tile's exponentials, the rescaled
    numerator plus this tile's weighted values. Every load and store is of a whole buffer. -/
theorem runB (c : Dev nD) (i : grid3.Coords) (arg3 : Memref sig .tc .vmem S2x2048x64 .bf16) (harg3 : arg3.IsWhole) (arg4 : Memref sig .tc .vmem S2x256x64 .bf16) (harg4 : arg4.IsWhole) (arg5 : Memref sig .tc .vmem S2x256x64 .bf16) (harg5 : arg5.IsWhole) (arg6 : Memref sig .tc .vmem S2x2048x64 .bf16) (harg6 : arg6.IsWhole) (arg7 : Memref sig .tc .vmem S2x2048 .f32) (harg7 : arg7.IsWhole) (arg8 : Memref sig .tc .vmem S2x2048 .f32) (harg8 : arg8.IsWhole) (arg9 : Memref sig .tc .vmem S2x2048x64 .f32) (harg9 : arg9.IsWhole) (hc0 : ¬cond0 i) (hc1 : ¬cond1 i)
    (q : Vec F S2x2048x64 .bf16) (k v : Vec F S2x256x64 .bf16) (xo : Vec F S2x2048x64 .bf16) (m l : Vec F S2x2048 .f32) (acc : Vec F S2x2048x64 .f32) (E : Set ℕ) (K : PUnit → sProp 𝕄) :
    iprop(owns (c : Thread nD τ) arg3 fullShare q
        ∗ owns (c : Thread nD τ) arg4 fullShare k
        ∗ owns (c : Thread nD τ) arg5 fullShare v
        ∗ owns (c : Thread nD τ) arg6 fullShare xo
        ∗ owns (c : Thread nD τ) arg7 fullShare m
        ∗ owns (c : Thread nD τ) arg8 fullShare l
        ∗ owns (c : Thread nD τ) arg9 fullShare acc
        ∗ (iprop(owns (c : Thread nD τ) arg3 fullShare q
            ∗ owns (c : Thread nD τ) arg4 fullShare k
            ∗ owns (c : Thread nD τ) arg5 fullShare v
            ∗ owns (c : Thread nD τ) arg6 fullShare xo
            ∗ owns (c : Thread nD τ) arg7 fullShare (k3_pay2 (k3_pay8 q k m))
            ∗ owns (c : Thread nD τ) arg8 fullShare (k3_pay11 q k m l)
            ∗ owns (c : Thread nD τ) arg9 fullShare (k3_pay1 (k3_pay12 q k m v) (k3_pay13 q k m) acc)) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  isplitl [H8]
  · iexists _; isplitr; swap; · iexact H8
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  iexists _; isplitr; swap; · iexact H9
  ipureintro
  sl_unfold_run_names
  rw [read_store_whole _ _ hz3]
  try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])

end Cert.Kernel.Attn

end
-- ==== Proof.BitsAttnRunC.lean ====
import proofs.«147348_j2388001816882_2_alg».proof.Proof.BitsAttnRunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE LAST KEY TILE: the carried state is updated as at a middle tile, and then the output's buffer, whatever it
    held, is overwritten with the updated numerator divided by the updated denominator, rounded to bf16. -/
theorem runC (c : Dev nD) (i : grid3.Coords) (arg3 : Memref sig .tc .vmem S2x2048x64 .bf16) (harg3 : arg3.IsWhole) (arg4 : Memref sig .tc .vmem S2x256x64 .bf16) (harg4 : arg4.IsWhole) (arg5 : Memref sig .tc .vmem S2x256x64 .bf16) (harg5 : arg5.IsWhole) (arg6 : Memref sig .tc .vmem S2x2048x64 .bf16) (harg6 : arg6.IsWhole) (arg7 : Memref sig .tc .vmem S2x2048 .f32) (harg7 : arg7.IsWhole) (arg8 : Memref sig .tc .vmem S2x2048 .f32) (harg8 : arg8.IsWhole) (arg9 : Memref sig .tc .vmem S2x2048x64 .f32) (harg9 : arg9.IsWhole) (hc0 : ¬cond0 i) (hc1 : cond1 i)
    (q : Vec F S2x2048x64 .bf16) (k v : Vec F S2x256x64 .bf16) (m l : Vec F S2x2048 .f32) (acc : Vec F S2x2048x64 .f32) (E : Set ℕ) (K : PUnit → sProp 𝕄) :
    iprop(owns (c : Thread nD τ) arg3 fullShare q
        ∗ owns (c : Thread nD τ) arg4 fullShare k
        ∗ owns (c : Thread nD τ) arg5 fullShare v
        ∗ (∃ d, owns (c : Thread nD τ) arg6 fullShare d)
        ∗ owns (c : Thread nD τ) arg7 fullShare m
        ∗ owns (c : Thread nD τ) arg8 fullShare l
        ∗ owns (c : Thread nD τ) arg9 fullShare acc
        ∗ (iprop(owns (c : Thread nD τ) arg3 fullShare q
            ∗ owns (c : Thread nD τ) arg4 fullShare k
            ∗ owns (c : Thread nD τ) arg5 fullShare v
            ∗ owns (c : Thread nD τ) arg6 fullShare (k3_pay3 (k3_pay1 (k3_pay12 q k m v) (k3_pay13 q k m) acc) (k3_pay11 q k m l))
            ∗ owns (c : Thread nD τ) arg7 fullShare (k3_pay2 (k3_pay8 q k m))
            ∗ owns (c : Thread nD τ) arg8 fullShare (k3_pay11 q k m l)
            ∗ owns (c : Thread nD τ) arg9 fullShare (k3_pay1 (k3_pay12 q k m v) (k3_pay13 q k m) acc)) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  simp only [k3_part1_eq_skeleton]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    rw [read_store_whole _ _ hz3]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  isplitl [H7]
  · iexists _; isplitr; swap; · iexact H7
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  isplitl [H8]
  · iexists _; isplitr; swap; · iexact H8
    ipureintro
    sl_unfold_run_names
    rw [read_store_whole _ _ hz2]
    try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])
  iexists _; isplitr; swap; · iexact H9
  ipureintro
  sl_unfold_run_names
  rw [read_store_whole _ _ hz3]
  try (simp only [readAt_whole harg3 hz3, readAt_whole harg4 hz3, readAt_whole harg5 hz3, readAt_whole harg6 hz3, readAt_whole harg7 hz2, readAt_whole harg8 hz2, readAt_whole harg9 hz3, readCov_store_whole (S := S2x2048) _ hz2, readCov_store_whole (S := S2x2048x64) _ hz3])

end Cert.Kernel.Attn

end
-- ==== Proof.BitsAttn.lean ====
import proofs.«147348_j2388001816882_2_alg».proof.Proof.BitsAttnRunC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The carried state and the output block, point by point -/

/-- The carried state after the first `n` points: each point's `step` over its query, key and value blocks; the points
    whose position is a multiple of 8 (key tile 0) reset first, so what stands at `n = 0` is never read. -/
def scrAt (c : Dev nD) : ℕ → Scr F
  | 0 => Scr.init
  | n + 1 => if h : n < cfg3.N then
      step (scrAt c n) (decide (n % 8 = 0)) (iblk V c 0 ⟨n, h⟩) (iblk V c 1 ⟨n, h⟩) (iblk V c 2 ⟨n, h⟩)
    else scrAt c n

theorem scrAt_succ (c : Dev nD) (t : Fin cfg3.N) :
    scrAt V c (t.val + 1) = step (scrAt V c t.val) (decide (t.val % 8 = 0)) (iblk V c 0 t) (iblk V c 1 t) (iblk V c 2 t) := by
  show (if h : t.val < cfg3.N then _ else _) = _
  rw [dif_pos t.isLt]

/-- The output staging block after point `t`: the numerator over the denominator of the state that point leaves, rounded
    to bf16 — what the body stores at key tile 7 (elsewhere the window is idle and this is not consulted). -/
def outAt (c : Dev nD) (t : Fin cfg3.N) : Vec F S2x2048x64 .bf16 :=
  k3_pay3 (scrAt V c (t.val + 1)).acc (scrAt V c (t.val + 1)).l

/-! ## The proof data -/

/-- The three scratch operands, whole scoped buffers of the kernel's own. -/
abbrev scM0 : Memref sig .tc .vmem S2x2048 .f32 := Memref.whole cc3_scratch0
abbrev scM1 : Memref sig .tc .vmem S2x2048 .f32 := Memref.whole cc3_scratch1
abbrev scM2 : Memref sig .tc .vmem S2x2048x64 .f32 := Memref.whole cc3_scratch2

/-- The invariant before position `n`: the three scratch buffers at the carried state (before the first point: at
    anything), every other scoped buffer unopened, the generator register at some state. -/
def Phi (c : Dev nD) (n : ℕ) : sProp 𝕄 :=
  iprop(∃ (dm dl : Vec F S2x2048 .f32) (dacc : Vec F S2x2048x64 .f32), ⌜n ≠ 0 → (⟨dm, dl, dacc⟩ : Scr F) = scrAt V c n⌝
    ∗ iprop(owns (c : Thread nD τ) scM0 fullShare dm ∗ owns (c : Thread nD τ) scM1 fullShare dl ∗ owns (c : Thread nD τ) scM2 fullShare dacc)
    ∗ Pipeline.scopedRestBut (Ix := Unit) (Name := ℕ) (U := Pipeline.UD sig nD τ) (Lvl := ℕ) (Val := Elt F) spec3 c [cc3_scratch0, cc3_scratch1, cc3_scratch2]
    ∗ (∃ r, prngReg c r))

/-- The proof data of the attention pipeline on core `c`. -/
def dat (c : Dev nD) : Dat τ (Elt F) Unit ℕ (Pipeline.UD sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t
  Φ t := Phi V c t.val
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = outAt V c t := by dsimp only [dat]

/-- Each input's current staging buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- Each window's current staging memref at point `t`, as the pipeline passes it, and its wholeness. -/
abbrev ms0 (t : Fin cfg3.N) : Memref sig .tc .vmem S2x2048x64 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2x256x64 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S2x256x64 .bf16 := win3_2.stage (cfg3.slots t 2)
abbrev hs2 (t : Fin cfg3.N) : (ms2 t).IsWhole := hstage3_2 ((cfg3.slots t 2).cast nbuf3_2)
abbrev ms3 (t : Fin cfg3.N) : Memref sig .tc .vmem S2x2048x64 .bf16 := win3_3.stage (cfg3.slots t 3)
abbrev hs3 (t : Fin cfg3.N) : (ms3 t).IsWhole := hstage3_3 ((cfg3.slots t 3).cast nbuf3_3)

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin cfg3.N) : (dat V c).leavesExact 0 t = owns (c : Thread nD τ) (ms0 t) fullShare (iblk V c 0 t) := by
  unfold Dat.leavesExact; rw [show cfg3.idle 0 (cfg3.grid.coords t) = false from rfl, after_0]
theorem leaves_1 (c : Dev nD) (t : Fin cfg3.N) : (dat V c).leavesExact 1 t = owns (c : Thread nD τ) (ms1 t) fullShare (iblk V c 1 t) := by
  unfold Dat.leavesExact; rw [show cfg3.idle 1 (cfg3.grid.coords t) = false from rfl, after_1]
theorem leaves_2 (c : Dev nD) (t : Fin cfg3.N) : (dat V c).leavesExact 2 t = owns (c : Thread nD τ) (ms2 t) fullShare (iblk V c 2 t) := by
  unfold Dat.leavesExact; rw [show cfg3.idle 2 (cfg3.grid.coords t) = false from rfl, after_2]

set_option maxHeartbeats 4000000 in
/-- The body at any point. The inputs' memrefs hold their blocks; the position modulo 8 says which of the three control
    cases the point is in, and that case's triple applies: the invariant hands the body the carried state (at key tile 0,
    anything: it is overwritten) and takes back that point's `step` of it; away from key tile 7 the output's buffer goes
    back untouched, at key tile 7 it holds the normalised block. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, leaves_0, leaves_1, leaves_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  by_cases h0 : t.val % 8 = 0
  · have h1 : ¬t.val % 8 = 7 := by omega
    rw [Dat.leavesExact_idle (dat V c) 3 t (idleAt3 t (fun h => h1 ((hcond1 t).mp h))) (noFlush3 t (fun h => h1 ((hcond1 t).mp h)))]
    iintro ⟨⟨%dm, %dl, %dacc, -, ⟨HS0, HS1, HS2⟩, Hrest, Hg⟩, Ho, ⟨%d0, H0⟩, ⟨%d1, H1⟩, ⟨%d2, H2⟩, ⟨%d3, H3⟩⟩
    iapply (runA c (grid3.coords t) _ _ _ _ _ _ _ _ _ _ _ _ _ _ ((hcond0 t).mpr h0) (fun h => h1 ((hcond1 t).mp h))
      (iblk V c 0 t) (iblk V c 1 t) (iblk V c 2 t) _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, HS0, HS1, HS2⟩
    isplitl [HS0 HS1 HS2 Hrest Hg]
    · iexists _, _, _
      isplitr
      · ipureintro; intro _
        rw [scrAt_succ, decide_eq_true h0, step_true]
      isplitl [HS0 HS1 HS2]
      · isplitl [HS0]; · iexact HS0
        isplitl [HS1]; · iexact HS1
        iexact HS2
      isplitl [Hrest]; · iexact Hrest
      iexact Hg
    isplitl [Ho]; · iexact Ho
    isplitl [H0]; · iexact H0
    isplitl [H1]; · iexact H1
    isplitl [H2]; · iexact H2
    iexists _; iexact H3
  · have ht0 : t.val ≠ 0 := fun h => h0 (by rw [h])
    by_cases h1 : t.val % 8 = 7
    · rw [show (dat V c).leavesExact 3 t = owns (c : Thread nD τ) (ms3 t) fullShare ((dat V c).after 3 t) from by
        unfold Dat.leavesExact; rw [liveAt3 t ((hcond1 t).mpr h1)], after_3]
      iintro ⟨⟨%dm, %dl, %dacc, %hs, ⟨HS0, HS1, HS2⟩, Hrest, Hg⟩, Ho, ⟨%d0, H0⟩, ⟨%d1, H1⟩, ⟨%d2, H2⟩, ⟨%d3, H3⟩⟩
      have hs' := hs ht0
      have hnext : scrAt V c (t.val + 1) = upd ⟨dm, dl, dacc⟩ (iblk V c 0 t) (iblk V c 1 t) (iblk V c 2 t) := by
        rw [scrAt_succ, decide_eq_false h0, step_false, ← hs']
      unfold outAt
      rw [hnext]
      iapply (runC c (grid3.coords t) _ _ _ _ _ _ _ _ _ _ _ _ _ _ (fun h => h0 ((hcond0 t).mp h)) ((hcond1 t).mpr h1)
        (iblk V c 0 t) (iblk V c 1 t) (iblk V c 2 t) dm dl dacc Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hrest Hg]
      · iexists _, _, _
        isplitr
        · ipureintro; intro _; rfl
        isplitl [HS0 HS1 HS2]
        · isplitl [HS0]; · iexact HS0
          isplitl [HS1]; · iexact HS1
          iexact HS2
        isplitl [Hrest]; · iexact Hrest
        iexact Hg
      isplitl [Ho]; · iexact Ho
      isplitl [H0]; · iexact H0
      isplitl [H1]; · iexact H1
      isplitl [H2]; · iexact H2
      iexact H3
    · rw [Dat.leavesExact_idle (dat V c) 3 t (idleAt3 t (fun h => h1 ((hcond1 t).mp h))) (noFlush3 t (fun h => h1 ((hcond1 t).mp h)))]
      iintro ⟨⟨%dm, %dl, %dacc, %hs, ⟨HS0, HS1, HS2⟩, Hrest, Hg⟩, Ho, ⟨%d0, H0⟩, ⟨%d1, H1⟩, ⟨%d2, H2⟩, ⟨%d3, H3⟩⟩
      have hs' := hs ht0
      have hnext : scrAt V c (t.val + 1) = upd ⟨dm, dl, dacc⟩ (iblk V c 0 t) (iblk V c 1 t) (iblk V c 2 t) := by
        rw [scrAt_succ, decide_eq_false h0, step_false, ← hs']
      iapply (runB c (grid3.coords t) _ _ _ _ _ _ _ _ _ _ _ _ _ _ (fun h => h0 ((hcond0 t).mp h)) (fun h => h1 ((hcond1 t).mp h))
        (iblk V c 0 t) (iblk V c 1 t) (iblk V c 2 t) _ dm dl dacc Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hrest Hg]
      · iexists _, _, _
        isplitr
        · ipureintro; intro _; exact hnext.symm
        isplitl [HS0 HS1 HS2]
        · isplitl [HS0]; · iexact HS0
          isplitl [HS1]; · iexact HS1
          iexact HS2
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-! ## Into and out of the invariant -/

/-- What the launch hands the region — the generator register, anything `P` beside it (the prefetched tables: none
    here), and the scoped buffers no window stages — gives the invariant before the first point: the three scratch
    buffers are split out of the scoped rest, at whatever they hold. -/
theorem phi_in (c : Dev nD) (P : sProp 𝕄) :
    iprop((∃ r, prngReg c r) ∗ P ∗ Pipeline.scopedRest (Ix := Unit) (Name := ℕ) (U := Pipeline.UD sig nD τ) (Lvl := ℕ) (Val := Elt F) spec3 c) ⊢ (dat V c).Φ 0 := by
  rw [show (dat V c).Φ 0 = Phi V c 0 from rfl, scopedRest3_split]
  unfold Phi
  simp only [scM0, scM1, scM2, owns_whole]
  iintro ⟨Hg, -, ⟨⟨%f0, H0⟩, ⟨%f1, H1⟩, ⟨%f2, H2⟩⟩, Hrest⟩
  iexists f0, f1, f2
  isplitr; · ipureintro; intro h; exact absurd rfl h
  isplitl [H0 H1 H2]
  · isplitl [H0]; · iexact H0
    isplitl [H1]; · iexact H1
    iexact H2
  isplitl [Hrest]; · iexact Hrest
  iexact Hg

/-- After the last point the invariant gives back the generator register, no semaphore of the kernel's own, and the
    scoped rest: what the scratch buffers hold is forgotten. -/
theorem phi_out (c : Dev nD) :
    (dat V c).Φ (Fin.last cfg3.N)
      ⊢ iprop((∃ r, prngReg c r) ∗ Pipeline.ownSems0 (Ix := Unit) (Name := ℕ) (U := Pipeline.UD sig nD τ) (Lvl := ℕ) (Val := Elt F) (τ := τ) (K := PEmpty) (fun k => k.elim) c
          ∗ Pipeline.scopedRest (Ix := Unit) (Name := ℕ) (U := Pipeline.UD sig nD τ) (Lvl := ℕ) (Val := Elt F) spec3 c) := by
  rw [Pipeline.ownSems0_none, show (dat V c).Φ (Fin.last cfg3.N) = Phi V c (Fin.last cfg3.N).val from rfl, scopedRest3_split]
  unfold Phi
  simp only [scM0, scM1, scM2, owns_whole]
  iintro ⟨%dm, %dl, %dacc, -, ⟨H0, H1, H2⟩, Hrest, Hg⟩
  isplitl [Hg]; · iexact Hg
  isplitr; · iempintro
  isplitl [H0 H1 H2]
  · isplitl [H0]; · iexists _; iexact H0
    isplitl [H1]; · iexists _; iexact H1
    iexists _; iexact H2
  iexact Hrest

/-! ## The output block of a (batch·head) pair, as eight steps over its key tiles -/

/-- The grid point of pair `g` at key tile `j`. -/
def pt (g : Fin 16) (j : Fin 8) : Fin cfg3.N :=
  ⟨8 * g.val + j.val, by show 8 * g.val + j.val < grid3.N; rw [N_3]; omega⟩

/-- The carried state of pair `g` after its first `n` key tiles: `step` over the pair's blocks tile by tile, the first
    with the reset. -/
def tiles (c : Dev nD) (g : Fin 16) : (n : ℕ) → n ≤ 8 → Scr F
  | 0, _ => Scr.init
  | n + 1, h => step (tiles c g n (Nat.le_of_succ_le h)) (decide (n = 0))
      (iblk V c 0 (pt g ⟨n, h⟩)) (iblk V c 1 (pt g ⟨n, h⟩)) (iblk V c 2 (pt g ⟨n, h⟩))

theorem scrAt_succ' (c : Dev nD) (n : ℕ) (h : n < cfg3.N) :
    scrAt V c (n + 1) = step (scrAt V c n) (decide (n % 8 = 0)) (iblk V c 0 ⟨n, h⟩) (iblk V c 1 ⟨n, h⟩) (iblk V c 2 ⟨n, h⟩) :=
  scrAt_succ V c ⟨n, h⟩

/-- The running state at position `8·g + n`, `1 ≤ n ≤ 8`, is the pair's own state after `n` tiles: the reset at the
    pair's first tile cuts it off from everything before. -/
theorem scrAt_tiles (c : Dev nD) (g : Fin 16) : ∀ (n : ℕ) (h : n + 1 ≤ 8), scrAt V c (8 * g.val + (n + 1)) = tiles V c g (n + 1) h
  | 0, h => by
    have hlt : 8 * g.val + 0 < cfg3.N := (pt g ⟨0, h⟩).isLt
    show scrAt V c ((8 * g.val + 0) + 1) = _
    rw [scrAt_succ' V c _ hlt, decide_eq_true (by omega : (8 * g.val + 0) % 8 = 0), step_true]
    rfl
  | n + 1, h => by
    have hlt : 8 * g.val + (n + 1) < cfg3.N := (pt g ⟨n + 1, h⟩).isLt
    show scrAt V c ((8 * g.val + (n + 1)) + 1) = _
    rw [scrAt_succ' V c _ hlt, decide_eq_false (by omega : ¬(8 * g.val + (n + 1)) % 8 = 0), step_false,
      scrAt_tiles c g n (Nat.le_of_succ_le h)]
    rfl

/-- WHAT THE PIPELINE WRITES BACK for pair `g` (at its last key tile, position `8·g + 7`): the numerator over the
    denominator, rounded to bf16, of the state after the pair's eight tiles. -/
theorem out_at_last (c : Dev nD) (g : Fin 16) :
    (dat V c).after 3 (pt g 7) = k3_pay3 (tiles V c g 8 (Nat.le_refl 8)).acc (tiles V c g 8 (Nat.le_refl 8)).l := by
  rw [after_3]; unfold outAt
  rw [show (pt g 7).val + 1 = 8 * g.val + (7 + 1) from rfl, scrAt_tiles V c g 7 (Nat.le_refl 8)]

end Cert.Kernel.Attn

end
-- ==== Proof.BitsRun.lean ====
import proofs.«147348_j2388001816882_2_alg».proof.Proof.BitsLin0
import proofs.«147348_j2388001816882_2_alg».proof.Proof.BitsLin1
import proofs.«147348_j2388001816882_2_alg».proof.Proof.BitsLin2
import proofs.«147348_j2388001816882_2_alg».proof.Proof.BitsLin4
import proofs.«147348_j2388001816882_2_alg».proof.Proof.BitsAttn
import proofs.«147348_j2388001816882_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-
  The run of the whole program, region by region. @main is six stretches of host operations (reshapes and
  transposes: the head split and merge) around five kernel regions: three projections, the attention kernel, the output
  projection. The contents of every unscoped buffer are followed through the eleven items as a fold from the launch
  memory: a host stretch applies its operations; a region replaces its output array by what its write-backs leave and
  keeps everything else. The launch theorem for a program of several regions then gives: every weakly fair execution
  terminates, nothing faults, and the final memory holds that fold's last value — in particular the result array and,
  unchanged, every argument.
-/
namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A valuation of the buffers read at the TensorCore's references. -/
abbrev rd (W : Dev nD → Valuation τ sig (Elt F)) : (c : Dev nD) → (b : Ref sig .tc) → Buf (Elt F) ((c : Thread nD τ).loc b) :=
  fun c b => W c b

/-! ## The buffers' contents at each boundary -/

/-- At launch. -/
abbrev W0 : Dev nD → Valuation τ sig (Elt F) := fun c b => (s₀ m ρ).mem ((c : Dev nD), b)
/-- After the first host stretch (the three inputs flattened to [4096,1024], the query bias as a row). -/
abbrev W1 : Dev nD → Valuation τ sig (Elt F) := fun c => StableHlo.after hostOps0 (W0 m ρ c)

/-- After region 0: its windows' arrays at what its write-backs leave, every other buffer as the region found it. -/
def W2 (c : Dev nD) : Valuation τ sig (Elt F) :=
  Pipeline.withArrays spec0 c (W1 m ρ c) fun w => (Lin0.dat (rd (W1 m ρ)) c).arrAt w cfg0.N
theorem W2_arr (c : Dev nD) (w : Fin cfg0.W) :
    W2 m ρ c (Proc.devRef .tc (Pipeline.arrRef spec0 w)) = (Lin0.dat (rd (W1 m ρ)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (Lin0.dat (rd (W1 m ρ)) c).arrAt w cfg0.N = rd (W2 m ρ) c (Pipeline.arrRef spec0 w) :=
  (W2_arr m ρ c w).symm
theorem hrest0 (c : Dev nD) : ∀ b, b ∉ Finset.univ.image (Pipeline.arrRef spec0) → rd (W2 m ρ) c b = rd (W1 m ρ) c b :=
  fun b hb => W2_of_ne m ρ c b fun w e => hb (Finset.mem_image.mpr ⟨w, Finset.mem_univ _, e⟩)
/-- A reference other than the region's output array holds after the region what it held before: an input window's array
    is read, never written back; any other buffer bypasses the region. -/
theorem W2_keep (c : Dev nD) (r : Ref sig .tc) (hr : r ≠ main_v4) :
    W2 m ρ c (Proc.devRef .tc r) = W1 m ρ c (Proc.devRef .tc r) := by
  by_cases h : ∃ w, Pipeline.arrRef spec0 w = r
  · obtain ⟨w, rfl⟩ := h
    match w, hr with
    | ⟨0, _⟩, _ => exact (W2_arr m ρ c 0).trans (((Lin0.dat (rd (W1 m ρ)) c).arrAt_in 0 rfl _).trans (Lin0.A_eq (rd (W1 m ρ)) c 0))
    | ⟨1, _⟩, _ => exact (W2_arr m ρ c 1).trans (((Lin0.dat (rd (W1 m ρ)) c).arrAt_in 1 rfl _).trans (Lin0.A_eq (rd (W1 m ρ)) c 1))
    | ⟨2, _⟩, _ => exact (W2_arr m ρ c 2).trans (((Lin0.dat (rd (W1 m ρ)) c).arrAt_in 2 rfl _).trans (Lin0.A_eq (rd (W1 m ρ)) c 2))
    | ⟨3, _⟩, hr => exact absurd rfl hr
  · exact W2_of_ne m ρ c r fun w e => h ⟨w, e⟩

abbrev W3 : Dev nD → Valuation τ sig (Elt F) := fun c => StableHlo.after hostOps1 (W2 m ρ c)

/-- After region 1: its windows' arrays at what its write-backs leave, every other buffer as the region found it. -/
def W4 (c : Dev nD) : Valuation τ sig (Elt F) :=
  Pipeline.withArrays spec1 c (W3 m ρ c) fun w => (Lin1.dat (rd (W3 m ρ)) c).arrAt w cfg1.N
theorem W4_arr (c : Dev nD) (w : Fin cfg1.W) :
    W4 m ρ c (Proc.devRef .tc (Pipeline.arrRef spec1 w)) = (Lin1.dat (rd (W3 m ρ)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (Lin1.dat (rd (W3 m ρ)) c).arrAt w cfg1.N = rd (W4 m ρ) c (Pipeline.arrRef spec1 w) :=
  (W4_arr m ρ c w).symm
theorem hrest1 (c : Dev nD) : ∀ b, b ∉ Finset.univ.image (Pipeline.arrRef spec1) → rd (W4 m ρ) c b = rd (W3 m ρ) c b :=
  fun b hb => W4_of_ne m ρ c b fun w e => hb (Finset.mem_image.mpr ⟨w, Finset.mem_univ _, e⟩)
/-- A reference other than the region's output array holds after the region what it held before: an input window's array
    is read, never written back; any other buffer bypasses the region. -/
theorem W4_keep (c : Dev nD) (r : Ref sig .tc) (hr : r ≠ main_v6) :
    W4 m ρ c (Proc.devRef .tc r) = W3 m ρ c (Proc.devRef .tc r) := by
  by_cases h : ∃ w, Pipeline.arrRef spec1 w = r
  · obtain ⟨w, rfl⟩ := h
    match w, hr with
    | ⟨0, _⟩, _ => exact (W4_arr m ρ c 0).trans (((Lin1.dat (rd (W3 m ρ)) c).arrAt_in 0 rfl _).trans (Lin1.A_eq (rd (W3 m ρ)) c 0))
    | ⟨1, _⟩, _ => exact (W4_arr m ρ c 1).trans (((Lin1.dat (rd (W3 m ρ)) c).arrAt_in 1 rfl _).trans (Lin1.A_eq (rd (W3 m ρ)) c 1))
    | ⟨2, _⟩, _ => exact (W4_arr m ρ c 2).trans (((Lin1.dat (rd (W3 m ρ)) c).arrAt_in 2 rfl _).trans (Lin1.A_eq (rd (W3 m ρ)) c 2))
    | ⟨3, _⟩, hr => exact absurd rfl hr
  · exact W4_of_ne m ρ c r fun w e => h ⟨w, e⟩

abbrev W5 : Dev nD → Valuation τ sig (Elt F) := fun c => StableHlo.after hostOps2 (W4 m ρ c)

/-- After region 2: its windows' arrays at what its write-backs leave, every other buffer as the region found it. -/
def W6 (c : Dev nD) : Valuation τ sig (Elt F) :=
  Pipeline.withArrays spec2 c (W5 m ρ c) fun w => (Lin2.dat (rd (W5 m ρ)) c).arrAt w cfg2.N
theorem W6_arr (c : Dev nD) (w : Fin cfg2.W) :
    W6 m ρ c (Proc.devRef .tc (Pipeline.arrRef spec2 w)) = (Lin2.dat (rd (W5 m ρ)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (Lin2.dat (rd (W5 m ρ)) c).arrAt w cfg2.N = rd (W6 m ρ) c (Pipeline.arrRef spec2 w) :=
  (W6_arr m ρ c w).symm
theorem hrest2 (c : Dev nD) : ∀ b, b ∉ Finset.univ.image (Pipeline.arrRef spec2) → rd (W6 m ρ) c b = rd (W5 m ρ) c b :=
  fun b hb => W6_of_ne m ρ c b fun w e => hb (Finset.mem_image.mpr ⟨w, Finset.mem_univ _, e⟩)
/-- A reference other than the region's output array holds after the region what it held before: an input window's array
    is read, never written back; any other buffer bypasses the region. -/
theorem W6_keep (c : Dev nD) (r : Ref sig .tc) (hr : r ≠ main_v8) :
    W6 m ρ c (Proc.devRef .tc r) = W5 m ρ c (Proc.devRef .tc r) := by
  by_cases h : ∃ w, Pipeline.arrRef spec2 w = r
  · obtain ⟨w, rfl⟩ := h
    match w, hr with
    | ⟨0, _⟩, _ => exact (W6_arr m ρ c 0).trans (((Lin2.dat (rd (W5 m ρ)) c).arrAt_in 0 rfl _).trans (Lin2.A_eq (rd (W5 m ρ)) c 0))
    | ⟨1, _⟩, _ => exact (W6_arr m ρ c 1).trans (((Lin2.dat (rd (W5 m ρ)) c).arrAt_in 1 rfl _).trans (Lin2.A_eq (rd (W5 m ρ)) c 1))
    | ⟨2, _⟩, _ => exact (W6_arr m ρ c 2).trans (((Lin2.dat (rd (W5 m ρ)) c).arrAt_in 2 rfl _).trans (Lin2.A_eq (rd (W5 m ρ)) c 2))
    | ⟨3, _⟩, hr => exact absurd rfl hr
  · exact W6_of_ne m ρ c r fun w e => h ⟨w, e⟩

/-- After the head split of the three projections. -/
abbrev W7 : Dev nD → Valuation τ sig (Elt F) := fun c => StableHlo.after hostOps3 (W6 m ρ c)

/-- After region 3: its windows' arrays at what its write-backs leave, every other buffer as the region found it. -/
def W8 (c : Dev nD) : Valuation τ sig (Elt F) :=
  Pipeline.withArrays spec3 c (W7 m ρ c) fun w => (Attn.dat (rd (W7 m ρ)) c).arrAt w cfg3.N
theorem W8_arr (c : Dev nD) (w : Fin cfg3.W) :
    W8 m ρ c (Proc.devRef .tc (Pipeline.arrRef spec3 w)) = (Attn.dat (rd (W7 m ρ)) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem hF3 (c : Dev nD) (w : Fin cfg3.W) : (Attn.dat (rd (W7 m ρ)) c).arrAt w cfg3.N = rd (W8 m ρ) c (Pipeline.arrRef spec3 w) :=
  (W8_arr m ρ c w).symm
theorem hrest3 (c : Dev nD) : ∀ b, b ∉ Finset.univ.image (Pipeline.arrRef spec3) → rd (W8 m ρ) c b = rd (W7 m ρ) c b :=
  fun b hb => W8_of_ne m ρ c b fun w e => hb (Finset.mem_image.mpr ⟨w, Finset.mem_univ _, e⟩)
/-- A reference other than the region's output array holds after the region what it held before: an input window's array
    is read, never written back; any other buffer bypasses the region. -/
theorem W8_keep (c : Dev nD) (r : Ref sig .tc) (hr : r ≠ main_v18) :
    W8 m ρ c (Proc.devRef .tc r) = W7 m ρ c (Proc.devRef .tc r) := by
  by_cases h : ∃ w, Pipeline.arrRef spec3 w = r
  · obtain ⟨w, rfl⟩ := h
    match w, hr with
    | ⟨0, _⟩, _ => exact (W8_arr m ρ c 0).trans (((Attn.dat (rd (W7 m ρ)) c).arrAt_in 0 rfl _).trans (Attn.A_eq (rd (W7 m ρ)) c 0))
    | ⟨1, _⟩, _ => exact (W8_arr m ρ c 1).trans (((Attn.dat (rd (W7 m ρ)) c).arrAt_in 1 rfl _).trans (Attn.A_eq (rd (W7 m ρ)) c 1))
    | ⟨2, _⟩, _ => exact (W8_arr m ρ c 2).trans (((Attn.dat (rd (W7 m ρ)) c).arrAt_in 2 rfl _).trans (Attn.A_eq (rd (W7 m ρ)) c 2))
    | ⟨3, _⟩, hr => exact absurd rfl hr
  · exact W8_of_ne m ρ c r fun w e => h ⟨w, e⟩

/-- After the head merge. -/
abbrev W9 : Dev nD → Valuation τ sig (Elt F) := fun c => StableHlo.after hostOps4 (W8 m ρ c)

/-- After region 4: its windows' arrays at what its write-backs leave, every other buffer as the region found it. -/
def W10 (c : Dev nD) : Valuation τ sig (Elt F) :=
  Pipeline.withArrays spec4 c (W9 m ρ c) fun w => (Lin4.dat (rd (W9 m ρ)) c).arrAt w cfg4.N
theorem W10_arr (c : Dev nD) (w : Fin cfg4.W) :
    W10 m ρ c (Proc.devRef .tc (Pipeline.arrRef spec4 w)) = (Lin4.dat (rd (W9 m ρ)) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
theorem hF4 (c : Dev nD) (w : Fin cfg4.W) : (Lin4.dat (rd (W9 m ρ)) c).arrAt w cfg4.N = rd (W10 m ρ) c (Pipeline.arrRef spec4 w) :=
  (W10_arr m ρ c w).symm
theorem hrest4 (c : Dev nD) : ∀ b, b ∉ Finset.univ.image (Pipeline.arrRef spec4) → rd (W10 m ρ) c b = rd (W9 m ρ) c b :=
  fun b hb => W10_of_ne m ρ c b fun w e => hb (Finset.mem_image.mpr ⟨w, Finset.mem_univ _, e⟩)
/-- A reference other than the region's output array holds after the region what it held before: an input window's array
    is read, never written back; any other buffer bypasses the region. -/
theorem W10_keep (c : Dev nD) (r : Ref sig .tc) (hr : r ≠ main_v23) :
    W10 m ρ c (Proc.devRef .tc r) = W9 m ρ c (Proc.devRef .tc r) := by
  by_cases h : ∃ w, Pipeline.arrRef spec4 w = r
  · obtain ⟨w, rfl⟩ := h
    match w, hr with
    | ⟨0, _⟩, _ => exact (W10_arr m ρ c 0).trans (((Lin4.dat (rd (W9 m ρ)) c).arrAt_in 0 rfl _).trans (Lin4.A_eq (rd (W9 m ρ)) c 0))
    | ⟨1, _⟩, _ => exact (W10_arr m ρ c 1).trans (((Lin4.dat (rd (W9 m ρ)) c).arrAt_in 1 rfl _).trans (Lin4.A_eq (rd (W9 m ρ)) c 1))
    | ⟨2, _⟩, _ => exact (W10_arr m ρ c 2).trans (((Lin4.dat (rd (W9 m ρ)) c).arrAt_in 2 rfl _).trans (Lin4.A_eq (rd (W9 m ρ)) c 2))
    | ⟨3, _⟩, hr => exact absurd rfl hr
  · exact W10_of_ne m ρ c r fun w e => h ⟨w, e⟩

/-- After the last reshape: the result. -/
abbrev W11 : Dev nD → Valuation τ sig (Elt F) := fun c => StableHlo.after hostOps5 (W10 m ρ c)

/-- A reference a host stretch does not write holds after it what it held before. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
theorem W9_keep (c : Dev nD) (r : Ref sig .tc) (h : r ∉ hostOps4_W) : W9 m ρ c (Proc.devRef .tc r) = W8 m ρ c (Proc.devRef .tc r) :=
  StableHlo.after_of_writes_sub hostOps4 _ hostOps4_writes h
theorem W11_step (c : Dev nD) (r : Ref sig .tc) (h : r ∉ hostOps5_W) : W11 m ρ c (Proc.devRef .tc r) = W10 m ρ c (Proc.devRef .tc r) :=
  StableHlo.after_of_writes_sub hostOps5 _ hostOps5_writes h

/-- A reference that no host stretch writes and that is no region's output array ends holding its launch contents. -/
theorem W11_keep (c : Dev nD) (r : Ref sig .tc) (h0 : r ∉ hostOps0_W) (h1 : r ∉ hostOps1_W) (h2 : r ∉ hostOps2_W)
    (h3 : r ∉ hostOps3_W) (h4 : r ∉ hostOps4_W) (h5 : r ∉ hostOps5_W)
    (o0 : r ≠ main_v4) (o1 : r ≠ main_v6) (o2 : r ≠ main_v8) (o3 : r ≠ main_v18) (o4 : r ≠ main_v23) :
    W11 m ρ c (Proc.devRef .tc r) = m ((c : Thread nD τ).loc r) :=
  calc W11 m ρ c (Proc.devRef .tc r)
    _ = W10 m ρ c (Proc.devRef .tc r) := StableHlo.after_of_writes_sub hostOps5 _ hostOps5_writes h5
    _ = W9 m ρ c (Proc.devRef .tc r) := W10_keep m ρ c r o4
    _ = W8 m ρ c (Proc.devRef .tc r) := StableHlo.after_of_writes_sub hostOps4 _ hostOps4_writes h4
    _ = W7 m ρ c (Proc.devRef .tc r) := W8_keep m ρ c r o3
    _ = W6 m ρ c (Proc.devRef .tc r) := StableHlo.after_of_writes_sub hostOps3 _ hostOps3_writes h3
    _ = W5 m ρ c (Proc.devRef .tc r) := W6_keep m ρ c r o2
    _ = W4 m ρ c (Proc.devRef .tc r) := StableHlo.after_of_writes_sub hostOps2 _ hostOps2_writes h2
    _ = W3 m ρ c (Proc.devRef .tc r) := W4_keep m ρ c r o1
    _ = W2 m ρ c (Proc.devRef .tc r) := StableHlo.after_of_writes_sub hostOps1 _ hostOps1_writes h1
    _ = W1 m ρ c (Proc.devRef .tc r) := W2_keep m ρ c r o0
    _ = W0 m ρ c (Proc.devRef .tc r) := StableHlo.after_of_writes_sub hostOps0 _ hostOps0_writes h0
    _ = m ((c : Thread nD τ).loc r) := rfl

/-! ## The proof data family and the thread state -/

/-- No pallas_call of this program has a prefetched table. -/
abbrev adm : (p : Fin 5) → (pcfgs (F := F) p).Adm := fun p => (cfgs p).toPCfg_adm
/-- Every pipeline's proof data, each at the contents its region is entered with. -/
def pdats : (p : Fin 5) → (c : Dev nD) → Dat τ (Elt F) Unit ℕ (Pipeline.UD sig nD τ) ℕ (Pipeline.pin (pcfgs (F := F)) adm p) c
  | ⟨0, _⟩ => fun c => Lin0.dat (rd (W1 m ρ)) c
  | ⟨1, _⟩ => fun c => Lin1.dat (rd (W3 m ρ)) c
  | ⟨2, _⟩ => fun c => Lin2.dat (rd (W5 m ρ)) c
  | ⟨3, _⟩ => fun c => Attn.dat (rd (W7 m ρ)) c
  | ⟨4, _⟩ => fun c => Lin4.dat (rd (W9 m ρ)) c
abbrev 𝒱₀ : Variants := Variants.none
/-- No core waits for another: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0: entered with every unscoped buffer at `W1`, left with them at `W2`. Its windows' arrays are split out
    of the unscoped buffers and put back at their exit contents; the generator register passes through the invariant;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation (rd (W1 m ρ)) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (rd (W1 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (rd (W1 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (rd (W1 m ρ) c) (rd (W2 m ρ) c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W3`, left with them at `W4`. Its windows' arrays are split out
    of the unscoped buffers and put back at their exit contents; the generator register passes through the invariant;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation (rd (W3 m ρ)) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (rd (W3 m ρ) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (rd (W3 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (rd (W3 m ρ) c) (rd (W4 m ρ) c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W5`, left with them at `W6`. Its windows' arrays are split out
    of the unscoped buffers and put back at their exit contents; the generator register passes through the invariant;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation (rd (W5 m ρ)) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (rd (W5 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (rd (W5 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (rd (W5 m ρ) c) (rd (W6 m ρ) c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3, the attention kernel: as the others, except that its invariant also carries the kernel's three scratch
    buffers (the running maximum, denominator and numerator) from one grid point to the next. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Attn.body_obligation (rd (W7 m ρ)) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (rd (W7 m ρ) c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (rd (W7 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (Attn.dat (rd (W7 m ρ)) c).Φ 0 from rfl]
    exact Attn.phi_in (rd (W7 m ρ)) c _
  hout c := by
    rw [show (pdats m ρ 3 c).Φ (Fin.last _) = (Attn.dat (rd (W7 m ρ)) c).Φ (Fin.last cfg3.N) from rfl]
    exact Attn.phi_out (rd (W7 m ρ)) c
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (rd (W7 m ρ) c) (rd (W8 m ρ) c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W9`, left with them at `W10`. Its windows' arrays are split out
    of the unscoped buffers and put back at their exit contents; the generator register passes through the invariant;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Lin4.body_obligation (rd (W9 m ρ)) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (rd (W9 m ρ) c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (rd (W9 m ρ) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (rd (W9 m ρ) c) (rd (W10 m ρ) c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds the result array at the fold's last value and every argument array as launched. -/
theorem run : θ_run defs (onTc (τ := τ) (main (F := F))) ⟨m, fun _ => 0, ρ⟩ (fun r => ∀ c : Dev nD,
      r.2.mem ((c.tc : Thread nD τ).loc main_v24) = W11 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (StableHlo.after hostOps5 (W10 m ρ c)) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v24 (by decide)),
       (h c _ (mem_uc main_arg0 (by decide))).trans (W11_keep m ρ c main_arg0 (by decide) (by decide) (by decide) (by decide) (by decide) (by decide) (by decide) (by decide) (by decide) (by decide) (by decide)),
       (h c _ (mem_uc main_arg1 (by decide))).trans (W11_keep m ρ c main_arg1 (by decide) (by decide) (by decide) (by decide) (by decide) (by decide) (by decide) (by decide) (by decide) (by decide) (by decide)),
       (h c _ (mem_uc main_arg2 (by decide))).trans (W11_keep m ρ c main_arg2 (by decide) (by decide) (by decide) (by decide) (by decide) (by decide) (by decide) (by decide) (by decide) (by decide) (by decide)),
       (h c _ (mem_uc main_arg3 (by decide))).trans (W11_keep m ρ c main_arg3 (by decide) (by decide) (by decide) (by decide) (by decide) (by decide) (by decide) (by decide) (by decide) (by decide) (by decide)),
       (h c _ (mem_uc main_arg4 (by decide))).trans (W11_keep m ρ c main_arg4 (by decide) (by decide) (by decide) (by decide) (by decide) (by decide) (by decide) (by decide) (by decide) (by decide) (by decide)),
       (h c _ (mem_uc main_arg5 (by decide))).trans (W11_keep m ρ c main_arg5 (by decide) (by decide) (by decide) (by decide) (by decide) (by decide) (by decide) (by decide) (by decide) (by decide) (by decide)),
       (h c _ (mem_uc main_arg6 (by decide))).trans (W11_keep m ρ c main_arg6 (by decide) (by decide) (by decide) (by decide) (by decide) (by decide) (by decide) (by decide) (by decide) (by decide) (by decide)),
       (h c _ (mem_uc main_arg7 (by decide))).trans (W11_keep m ρ c main_arg7 (by decide) (by decide) (by decide) (by decide) (by decide) (by decide) (by decide) (by decide) (by decide) (by decide) (by decide)),
       (h c _ (mem_uc main_arg8 (by decide))).trans (W11_keep m ρ c main_arg8 (by decide) (by decide) (by decide) (by decide) (by decide) (by decide) (by decide) (by decide) (by decide) (by decide) (by decide)),
       (h c _ (mem_uc main_arg9 (by decide))).trans (W11_keep m ρ c main_arg9 (by decide) (by decide) (by decide) (by decide) (by decide) (by decide) (by decide) (by decide) (by decide) (by decide) (by decide)),
       (h c _ (mem_uc main_arg10 (by decide))).trans (W11_keep m ρ c main_arg10 (by decide) (by decide) (by decide) (by decide) (by decide) (by decide) (by decide) (by decide) (by decide) (by decide) (by decide))⟩)

end Cert.Kernel.Run

end
-- ==== Proof.Spec.lean ====
/-
  Multi-head attention, as one function of its eleven argument arrays on the extended reals.

  Batch 2, sequence 2048, model width 1024 = 16 heads of width 64. With
    proj x W b  = x · W + b                                  (over the model axis),
    heads y     = the model axis of y split as (head, lane),
    scores q k  = (q · kᵀ over the lane axis) · 1/8,
    weights s   = the row softmax of s: exp (s − m) / ∑ exp (s − m), m the row's maximum taken from −∞,
    attend p v  = p · v                                      (over the key axis),
    merge o     = (head, lane) joined back into the model axis,
  the result is
    proj (merge (attend (weights (scores (heads Q) (heads K))) (heads V))) Wo bo,
    Q = proj queries Wq bq,  K = proj keys Wk bk,  V = proj values Wv bv.

  Every stage is stated twice: `stageAt`, a function of the coordinates (literal `Fin` types), and `stage`, the array
  read at an index through its coordinates; `stage_ix` (by `rfl`) reads the array at an index built from coordinates.
  The two float words that occur — the scale 1/8 and the maximum's starting value −∞ — are kept as words.
-/
import Idealize.ShloMosaic.PureOps.Ideal
import Idealize.ShloMosaic.Lib.ValueIdx

noncomputable section

namespace Cert.Spec

open Idealize.ShloMosaic Idealize.ShloMosaic.ValueIdx
open scoped BigOperators

/-- [2, 2048, 1024]: (batch, position, model). -/
abbrev Act : Type := (⟨3, ![2, 2048, 1024]⟩ : Shape).Idx → EReal
/-- [1024, 1024]: a projection's weights, (model in, model out). -/
abbrev Wt : Type := (⟨2, ![1024, 1024]⟩ : Shape).Idx → EReal
/-- [1024]: a projection's bias. -/
abbrev Bias : Type := (⟨1, ![1024]⟩ : Shape).Idx → EReal
/-- [2, 16, 2048, 64]: (batch, head, position, lane). -/
abbrev Hd : Type := (⟨4, ![2, 16, 2048, 64]⟩ : Shape).Idx → EReal
/-- [2, 16, 2048, 2048]: (batch, head, query position, key position). -/
abbrev Sc : Type := (⟨4, ![2, 16, 2048, 2048]⟩ : Shape).Idx → EReal
/-- [2, 16, 2048]: (batch, head, query position). -/
abbrev Row : Type := (⟨3, ![2, 16, 2048]⟩ : Shape).Idx → EReal

/-- The scale 1/8 = 1/√64, as its f32 word. -/
abbrev scale : EReal := Ideal.ofBits .f32 0x3E000000#32
/-- −∞, as its f32 word: where a row's maximum starts. -/
abbrev negInf : EReal := Ideal.ofBits .f32 0xFF800000#32

/-! ## A linear projection with bias -/

def projAt (x : Act) (w : Wt) (b : Bias) (n : Fin 2) (t : Fin 2048) (j : Fin 1024) : EReal :=
  (∑ c : Fin 1024, x (ix3 n t c) * w (ix2 c j)) + b (ix1 j)

def proj (x : Act) (w : Wt) (b : Bias) : Act := fun i => projAt x w b (i 0) (i 1) (i 2)

theorem proj_ix (x : Act) (w : Wt) (b : Bias) (n : Fin 2) (t : Fin 2048) (j : Fin 1024) :
    proj x w b (ix3 n t j) = projAt x w b n t j := rfl

/-! ## Splitting the model axis into heads, and joining it back -/

/-- Lane `e` of head `h` is model coordinate `64 h + e`. -/
def laneOf (h : Fin 16) (e : Fin 64) : Fin 1024 := ⟨64 * h.val + e.val, by have := h.isLt; have := e.isLt; omega⟩

def headsAt (y : Act) (n : Fin 2) (h : Fin 16) (t : Fin 2048) (e : Fin 64) : EReal :=
  y (ix3 n t (laneOf h e))

def heads (y : Act) : Hd := fun i => headsAt y (i 0) (i 1) (i 2) (i 3)

theorem heads_ix (y : Act) (n : Fin 2) (h : Fin 16) (t : Fin 2048) (e : Fin 64) :
    heads y (ix4 n h t e) = headsAt y n h t e := rfl

/-- The head of model coordinate `j`. -/
def headOf (j : Fin 1024) : Fin 16 := ⟨j.val / 64, by have := j.isLt; omega⟩
/-- The lane of model coordinate `j` inside its head. -/
def lanePart (j : Fin 1024) : Fin 64 := ⟨j.val % 64, Nat.mod_lt _ (by decide)⟩

def mergeAt (o : Hd) (n : Fin 2) (t : Fin 2048) (j : Fin 1024) : EReal :=
  o (ix4 n (headOf j) t (lanePart j))

def merge (o : Hd) : Act := fun i => mergeAt o (i 0) (i 1) (i 2)

theorem merge_ix (o : Hd) (n : Fin 2) (t : Fin 2048) (j : Fin 1024) :
    merge o (ix3 n t j) = mergeAt o n t j := rfl

/-! ## Scaled scores -/

def scoresAt (q k : Hd) (n : Fin 2) (h : Fin 16) (t s : Fin 2048) : EReal :=
  (∑ e : Fin 64, q (ix4 n h t e) * k (ix4 n h s e)) * scale

def scores (q k : Hd) : Sc := fun i => scoresAt q k (i 0) (i 1) (i 2) (i 3)

theorem scores_ix (q k : Hd) (n : Fin 2) (h : Fin 16) (t s : Fin 2048) :
    scores q k (ix4 n h t s) = scoresAt q k n h t s := rfl

/-! ## The row softmax -/

/-- A row's maximum: the maximum of −∞ with the fold of `max` over the row's 2048 entries from −∞. -/
def rowMaxAt (s : Sc) (n : Fin 2) (h : Fin 16) (t : Fin 2048) : EReal :=
  max negInf ((Finset.univ : Finset (Fin 2048)).fold max negInf (fun s' : Fin 2048 => s (ix4 n h t s')))

def rowMax (s : Sc) : Row := fun i => rowMaxAt s (i 0) (i 1) (i 2)

theorem rowMax_ix (s : Sc) (n : Fin 2) (h : Fin 16) (t : Fin 2048) :
    rowMax s (ix3 n h t) = rowMaxAt s n h t := rfl

/-- The unnormalized weight exp (s − the row's maximum). -/
def expAt (s : Sc) (n : Fin 2) (h : Fin 16) (t s' : Fin 2048) : EReal :=
  Ideal.exp (s (ix4 n h t s') - rowMaxAt s n h t)

/-- The row's normalizer ∑ exp (s − the row's maximum). -/
def rowSumAt (s : Sc) (n : Fin 2) (h : Fin 16) (t : Fin 2048) : EReal :=
  ∑ s' : Fin 2048, expAt s n h t s'

def weightsAt (s : Sc) (n : Fin 2) (h : Fin 16) (t s' : Fin 2048) : EReal :=
  Ideal.div (expAt s n h t s') (rowSumAt s n h t)

def weights (s : Sc) : Sc := fun i => weightsAt s (i 0) (i 1) (i 2) (i 3)

theorem weights_ix (s : Sc) (n : Fin 2) (h : Fin 16) (t s' : Fin 2048) :
    weights s (ix4 n h t s') = weightsAt s n h t s' := rfl

/-! ## The weighted sum of the values -/

def attendAt (p : Sc) (v : Hd) (n : Fin 2) (h : Fin 16) (t : Fin 2048) (e : Fin 64) : EReal :=
  ∑ s : Fin 2048, p (ix4 n h t s) * v (ix4 n h s e)

def attend (p : Sc) (v : Hd) : Hd := fun i => attendAt p v (i 0) (i 1) (i 2) (i 3)

theorem attend_ix (p : Sc) (v : Hd) (n : Fin 2) (h : Fin 16) (t : Fin 2048) (e : Fin 64) :
    attend p v (ix4 n h t e) = attendAt p v n h t e := rfl

/-! ## The whole -/

/-- Multi-head attention of (queries, keys, values) with the four projections (Wq, bq), (Wk, bk), (Wv, bv), (Wo, bo);
    the arguments in the program's order. -/
def G (queries keys values : Act) (Wq : Wt) (bq : Bias) (Wk : Wt) (bk : Bias) (Wv : Wt) (bv : Bias) (Wo : Wt) (bo : Bias) : Act :=
  proj (merge (attend (weights (scores (heads (proj queries Wq bq)) (heads (proj keys Wk bk)))) (heads (proj values Wv bv)))) Wo bo

end Cert.Spec

end
-- ==== Proof.RefValue.lean ====
/-
  The reference program's result is the specification `Cert.Spec.G` of its eleven arguments.

  The reference computes, in this order: the three projections with bias; each reshaped to [2, 2048, 16, 64] and
  transposed to [2, 16, 2048, 64] (the model axis split into heads); the scaled scores; the row maximum from −∞; the
  exponentials of the differences, their row sums from 0, the quotients; the product with the values; the transpose and
  reshape back to [2, 2048, 1024]; the output projection with bias. One lemma per stage: each reads the stage's array
  at an index built from coordinates and identifies the operand indices with coordinate indices.
-/
import proofs.«147348_j2388001816882_2_alg».proof.Proof.Gen.ReferenceIdeal.Read
import proofs.«147348_j2388001816882_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- [2, 2048, 1024] arrays of ideal values. -/
abbrev A : Type := (⟨S2x2048x1024, .f32⟩ : BufTy).Contents (Elt Ideal)
/-- [1024, 1024] arrays of ideal values. -/
abbrev W : Type := (⟨S1024x1024, .f32⟩ : BufTy).Contents (Elt Ideal)
/-- [1024] arrays of ideal values. -/
abbrev B : Type := (⟨S1024, .f32⟩ : BufTy).Contents (Elt Ideal)

/-! ## A projection with bias -/

theorem proj_eq (x : A) (w : W) (b : B) : val_main_v3 (F := Ideal) x w b = Cert.Spec.proj x w b := by
  funext i
  obtain ⟨n, t, j, rfl⟩ : ∃ (n : Fin 2) (t : Fin 2048) (j : Fin 1024), i = ix3 n t j := ⟨i 0, i 1, i 2, eq_ix3 i⟩
  rw [val_main_v3_apply, val_main_v0_apply, val_main_v2_apply, val_main_v1_apply, Cert.Spec.proj_ix]
  have e1 : ∀ k : Fin 1024, lidx_main_v0 (ix3 n t j) k = ix3 n t k := fun k => funext fun a => Fin.ext (by
    match a with | ⟨0, _⟩ => rfl | ⟨1, _⟩ => rfl | ⟨2, _⟩ => rfl)
  have e2 : ∀ k : Fin 1024, ridx_main_v0 (ix3 n t j) k = ix2 k j := fun k => funext fun a => Fin.ext (by
    match a with | ⟨0, _⟩ => rfl | ⟨1, _⟩ => rfl)
  have e3 : idx_main_v1 (idx_main_v2 (ix3 n t j)) = ix1 j := funext fun a => Fin.ext (by
    match a with | ⟨0, _⟩ => rfl)
  simp only [e1, e2, e3, Ideal.addf_def]
  rfl

/-- The keys' projection is the same operations as the queries'. -/
theorem v9_eq (x : A) (w : W) (b : B) : val_main_v9 (F := Ideal) x w b = val_main_v3 (F := Ideal) x w b := rfl
/-- The values' projection is the same operations as the queries'. -/
theorem v15_eq (x : A) (w : W) (b : B) : val_main_v15 (F := Ideal) x w b = val_main_v3 (F := Ideal) x w b := rfl

/-! ## The split into heads -/

theorem heads_eq (x : A) (w : W) (b : B) :
    val_main_v5 (F := Ideal) x w b = Cert.Spec.heads (val_main_v3 (F := Ideal) x w b) := by
  funext i
  obtain ⟨n, h, t, e, rfl⟩ : ∃ (n : Fin 2) (h : Fin 16) (t : Fin 2048) (e : Fin 64), i = ix4 n h t e :=
    ⟨i 0, i 1, i 2, i 3, eq_ix4 i⟩
  rw [val_main_v5_apply, val_main_v4_apply, Cert.Spec.heads_ix]
  have hn := n.isLt; have hh := h.isLt; have ht := t.isLt; have he := e.isLt
  have e1 : idx_main_v4 (idx_main_v5 (ix4 n h t e)) = ix3 n t (Cert.Spec.laneOf h e) := funext fun a => Fin.ext (by
    match a with
    | ⟨0, _⟩ => show (((n.val * 2048 + t.val) * 16 + h.val) * 64 + e.val) / 2097152 = n.val; omega
    | ⟨1, _⟩ => show (((n.val * 2048 + t.val) * 16 + h.val) * 64 + e.val) / 1024 % 2048 = t.val; omega
    | ⟨2, _⟩ => show (((n.val * 2048 + t.val) * 16 + h.val) * 64 + e.val) % 1024 = 64 * h.val + e.val; omega)
  rw [e1]
  rfl

theorem v11_eq (x : A) (w : W) (b : B) : val_main_v11 (F := Ideal) x w b = val_main_v5 (F := Ideal) x w b := rfl
theorem v17_eq (x : A) (w : W) (b : B) : val_main_v17 (F := Ideal) x w b = val_main_v5 (F := Ideal) x w b := rfl

/-! ## The scaled scores -/

theorem scores_eq (x0 x1 : A) (x3 : W) (x4 : B) (x5 : W) (x6 : B) :
    val_main_v20 (F := Ideal) x0 x1 x3 x4 x5 x6
      = Cert.Spec.scores (val_main_v5 (F := Ideal) x0 x3 x4) (val_main_v11 (F := Ideal) x1 x5 x6) := by
  funext i
  obtain ⟨n, h, t, s, rfl⟩ : ∃ (n : Fin 2) (h : Fin 16) (t s : Fin 2048), i = ix4 n h t s :=
    ⟨i 0, i 1, i 2, i 3, eq_ix4 i⟩
  rw [val_main_v20_apply, val_main_v18_apply, val_main_v19_apply, val_main_cst_apply, Cert.Spec.scores_ix]
  have e1 : ∀ k : Fin 64, lidx_main_v18 (ix4 n h t s) k = ix4 n h t k := fun k => funext fun a => Fin.ext (by
    match a with | ⟨0, _⟩ => rfl | ⟨1, _⟩ => rfl | ⟨2, _⟩ => rfl | ⟨3, _⟩ => rfl)
  have e2 : ∀ k : Fin 64, ridx_main_v18 (ix4 n h t s) k = ix4 n h s k := fun k => funext fun a => Fin.ext (by
    match a with | ⟨0, _⟩ => rfl | ⟨1, _⟩ => rfl | ⟨2, _⟩ => rfl | ⟨3, _⟩ => rfl)
  simp only [e1, e2, Ideal.mulf_def, Ideal.ofBits_def]
  rfl

/-! ## The row maximum -/

/-- The reduction over the key axis drops coordinate 3. -/
theorem red3 : S2x16x2048x2048.Reduces [3] S2x16x2048 := by decide

/-- The reduced index (n, h, t) with key coordinate `k` put back is (n, h, t, k). -/
theorem lift_ix4 (n : Fin 2) (h : Fin 16) (t : Fin 2048) (k : Fin (S2x16x2048x2048.size 3)) :
    red3.lift (ix3 n h t) k = ix4 n h t (⟨k.val, k.isLt⟩ : Fin 2048) := by
  funext c; apply Fin.ext
  fin_cases c <;> rfl

/-- The reference's row maximum — the reduce with a maximum body from the −∞ word, then the maximum with the −∞ splat —
    of any score array is the specification's. -/
theorem rowMax_gen (y : FVec Ideal S2x16x2048x2048 .f32) :
    maximumf (F := Ideal) (s := S2x16x2048) (φ := .f32) (val_main_v22 (F := Ideal))
        (Host.reduce FloatOps.maximumf y (val_main_cst_0 (F := Ideal)) reducesTo_S2x16x2048x2048_S2x16x2048_d3 h_S_)
      = Cert.Spec.rowMax y := by
  funext i
  obtain ⟨n, h, t, rfl⟩ : ∃ (n : Fin 2) (h : Fin 16) (t : Fin 2048), i = ix3 n h t := ⟨i 0, i 1, i 2, eq_ix3 i⟩
  rw [maximumf_apply, val_main_v22_apply, val_main_cst_1_apply, Cert.Spec.rowMax_ix]
  have key := Host.reduce_eq_fold_single (FloatOps.maximumf (F := Ideal) (φ := .f32)) y (val_main_cst_0 (F := Ideal))
    reducesTo_S2x16x2048x2048_S2x16x2048_d3 red3 h_S_ (ix3 n h t)
  have hf : (y ∘ red3.lift (ix3 n h t)) = fun k : Fin 2048 => y (ix4 n h t k) :=
    funext fun k => congrArg y (lift_ix4 n h t k)
  rw [hf] at key
  exact congrArg (max (Ideal.ofBits .f32 0xFF800000#32)) key

theorem rowMax_eq (x0 x1 : A) (x3 : W) (x4 : B) (x5 : W) (x6 : B) :
    val_main_v23 (F := Ideal) x0 x1 x3 x4 x5 x6 = Cert.Spec.rowMax (val_main_v20 (F := Ideal) x0 x1 x3 x4 x5 x6) := by
  unfold val_main_v23 val_main_v21
  exact rowMax_gen _

/-! ## The softmax weights -/

theorem weights_eq (x0 x1 : A) (x3 : W) (x4 : B) (x5 : W) (x6 : B) :
    val_main_v31 (F := Ideal) x0 x1 x3 x4 x5 x6 = Cert.Spec.weights (val_main_v20 (F := Ideal) x0 x1 x3 x4 x5 x6) := by
  funext i
  obtain ⟨n, h, t, s, rfl⟩ : ∃ (n : Fin 2) (h : Fin 16) (t s : Fin 2048), i = ix4 n h t s :=
    ⟨i 0, i 1, i 2, i 3, eq_ix4 i⟩
  have ea : ∀ s : Fin 2048, idx_main_v24 (idx_main_v25 (ix4 n h t s)) = ix3 n h t := fun s => funext fun a => Fin.ext (by
    match a with | ⟨0, _⟩ => rfl | ⟨1, _⟩ => rfl | ⟨2, _⟩ => rfl)
  have eb : idx_main_v29 (idx_main_v30 (ix4 n h t s)) = ix3 n h t := funext fun a => Fin.ext (by
    match a with | ⟨0, _⟩ => rfl | ⟨1, _⟩ => rfl | ⟨2, _⟩ => rfl)
  have ec : ∀ k : Fin 2048, idx_main_v28 (ix3 n h t) k = ix4 n h t k := fun k => funext fun a => Fin.ext (by
    match a with | ⟨0, _⟩ => rfl | ⟨1, _⟩ => rfl | ⟨2, _⟩ => rfl | ⟨3, _⟩ => rfl)
  rw [val_main_v31_apply, val_main_v30_apply, val_main_v29_apply, eb, val_main_v28_apply, val_main_cst_2_apply,
    Cert.Spec.weights_ix]
  simp only [ec, val_main_v27_apply, val_main_v26_apply, val_main_v25_apply, val_main_v24_apply, ea, rowMax_eq,
    Cert.Spec.rowMax_ix, Ideal.hostDivf_def, Ideal.hostUnary_exp_def, Ideal.subf_def, Ideal.ofBits_def,
    Ideal.ofBits_zero_f32, zero_add]
  rfl

/-! ## The weighted sum of the values -/

theorem attend_eq (x0 x1 x2 : A) (x3 : W) (x4 : B) (x5 : W) (x6 : B) (x7 : W) (x8 : B) :
    val_main_v32 (F := Ideal) x0 x1 x2 x3 x4 x5 x6 x7 x8
      = Cert.Spec.attend (val_main_v31 (F := Ideal) x0 x1 x3 x4 x5 x6) (val_main_v17 (F := Ideal) x2 x7 x8) := by
  funext i
  obtain ⟨n, h, t, e, rfl⟩ : ∃ (n : Fin 2) (h : Fin 16) (t : Fin 2048) (e : Fin 64), i = ix4 n h t e :=
    ⟨i 0, i 1, i 2, i 3, eq_ix4 i⟩
  rw [val_main_v32_apply, Cert.Spec.attend_ix]
  have e1 : ∀ k : Fin 2048, lidx_main_v32 (ix4 n h t e) k = ix4 n h t k := fun k => funext fun a => Fin.ext (by
    match a with | ⟨0, _⟩ => rfl | ⟨1, _⟩ => rfl | ⟨2, _⟩ => rfl | ⟨3, _⟩ => rfl)
  have e2 : ∀ k : Fin 2048, ridx_main_v32 (ix4 n h t e) k = ix4 n h k e := fun k => funext fun a => Fin.ext (by
    match a with | ⟨0, _⟩ => rfl | ⟨1, _⟩ => rfl | ⟨2, _⟩ => rfl | ⟨3, _⟩ => rfl)
  simp only [e1, e2]
  rfl

/-! ## Joining the heads -/

theorem merge_eq (x0 x1 x2 : A) (x3 : W) (x4 : B) (x5 : W) (x6 : B) (x7 : W) (x8 : B) :
    val_main_v34 (F := Ideal) x0 x1 x2 x3 x4 x5 x6 x7 x8
      = Cert.Spec.merge (val_main_v32 (F := Ideal) x0 x1 x2 x3 x4 x5 x6 x7 x8) := by
  funext i
  obtain ⟨n, t, j, rfl⟩ : ∃ (n : Fin 2) (t : Fin 2048) (j : Fin 1024), i = ix3 n t j := ⟨i 0, i 1, i 2, eq_ix3 i⟩
  rw [val_main_v34_apply, val_main_v33_apply, Cert.Spec.merge_ix]
  have hn := n.isLt; have ht := t.isLt; have hj := j.isLt
  have e1 : idx_main_v33 (idx_main_v34 (ix3 n t j)) = ix4 n (Cert.Spec.headOf j) t (Cert.Spec.lanePart j) :=
    funext fun a => Fin.ext (by
      match a with
      | ⟨0, _⟩ => show ((n.val * 2048 + t.val) * 1024 + j.val) / 2097152 = n.val; omega
      | ⟨1, _⟩ => show ((n.val * 2048 + t.val) * 1024 + j.val) / 64 % 16 = j.val / 64; omega
      | ⟨2, _⟩ => show ((n.val * 2048 + t.val) * 1024 + j.val) / 1024 % 2048 = t.val; omega
      | ⟨3, _⟩ => show ((n.val * 2048 + t.val) * 1024 + j.val) % 64 = j.val % 64; omega)
  rw [e1]
  rfl

/-! ## The output projection, and the whole -/

/-- The output projection is the same operations as the queries', of the joined heads. -/
theorem v38_eq (x0 x1 x2 : A) (x3 : W) (x4 : B) (x5 : W) (x6 : B) (x7 : W) (x8 : B) (x9 : W) (x10 : B) :
    val_main_v38 (F := Ideal) x0 x1 x2 x3 x4 x5 x6 x7 x8 x9 x10
      = val_main_v3 (F := Ideal) (val_main_v34 (F := Ideal) x0 x1 x2 x3 x4 x5 x6 x7 x8) x9 x10 := rfl

/-- The reference's last stage, as a function of the eleven argument arrays, is the specification. -/
theorem reference_is_G (x0 x1 x2 : A) (x3 : W) (x4 : B) (x5 : W) (x6 : B) (x7 : W) (x8 : B) (x9 : W) (x10 : B) :
    val_main_v38 (F := Ideal) x0 x1 x2 x3 x4 x5 x6 x7 x8 x9 x10 = Cert.Spec.G x0 x1 x2 x3 x4 x5 x6 x7 x8 x9 x10 := by
  simp only [v38_eq, merge_eq, attend_eq, weights_eq, scores_eq, v11_eq, v17_eq, heads_eq, v9_eq, v15_eq, proj_eq]
  rfl

/-- The term the reference's run ends at is the specification of the arguments' launch contents. -/
theorem res_is_G (m : (ℓ : Loc nD τ sig) → Buf (Elt Ideal) ℓ) (c : Dev nD) :
    Cert.ReferenceIdeal.Value.res_main_v38 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v38_eq m c).trans (reference_is_G _ _ _ _ _ _ _ _ _ _ _)

/-- Every weakly fair execution of the reference terminates with its result at the specification of the arguments'
    launch contents, the arguments unchanged: the generated run with its result term read as `Cert.Spec.G`. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38)
        = Cert.Spec.G (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (res_is_G m c), (h c).2⟩)
    (Cert.ReferenceIdeal.Value.run (F := Ideal) m ρ)

end Cert.ReferenceIdeal.RefValue

end
-- ==== Proof.IdealAttnValue.lean ====
import proofs.«147348_j2388001816882_2_alg».proof.Proof.IdealAttn
import Idealize.ShloMosaic.Lib.Pipeline.Value
import Idealize.ShloMosaic.Lib.ValueIdx

/-! # The attention region: from blocks to the array

The grid is 16 (batch·head) pairs × 8 key tiles, pair-major: point `8·g + j` is pair `g` at key tile `j`. The query and
output blocks of pair `g` are rows `2g, 2g + 1` of their [32, 2048, 64] arrays; the key and value blocks at tile `j` are
positions `256·j … 256·j + 255` of the same two rows. The output block is written back only at the pair's last key
tile, so the output array after the region is, at row `r`, the normalised state of pair `r / 2` after its eight tiles,
read at row `r % 2` of the block. -/

set_option maxRecDepth 16384

noncomputable section

namespace Cert.KernelIdeal.AttnValue

open Cert.KernelIdeal Cert.KernelIdeal.Gen
open Idealize.ShloMosaic Idealize.ShloMosaic.TcCoe Idealize.SL.Sem
open Idealize.ShloMosaic.Pipeline (Dat)
open Idealize.ShloMosaic.ValueIdx (ix3 eq_ix3)

variable {F : FTy → Type} [FloatOps F]

/-- The printed index maps over the grid: at point `t` every window is on pair `t / 8`; the key and value windows are
    on key tile `t % 8`; every other block index is 0. -/
theorem idx_facts : ∀ t : Fin cfg3.N,
    win3_0.index t (0 : Fin 3) = t.val / 8 ∧ win3_0.index t (1 : Fin 3) = 0 ∧ win3_0.index t (2 : Fin 3) = 0
    ∧ win3_1.index t (0 : Fin 3) = t.val / 8 ∧ win3_1.index t (1 : Fin 3) = t.val % 8 ∧ win3_1.index t (2 : Fin 3) = 0
    ∧ win3_2.index t (0 : Fin 3) = t.val / 8 ∧ win3_2.index t (1 : Fin 3) = t.val % 8 ∧ win3_2.index t (2 : Fin 3) = 0
    ∧ win3_3.index t (0 : Fin 3) = t.val / 8 ∧ win3_3.index t (1 : Fin 3) = 0 ∧ win3_3.index t (2 : Fin 3) = 0 :=
  (by decide +kernel : ∀ t : Fin grid3.N, _)

theorem pt_val (g : Fin 16) (j : Fin 8) : (Attn.pt g j).val = 8 * g.val + j.val := rfl

-- the core's buffer contents when the region is entered
variable (V : (c : Dev nD) → (b : Ref sig .tc) → Buf (Elt F) ((c : Thread nD τ).loc b))

/-! ## The input blocks at an index -/

/-- The query block of pair `g` (at any key tile): rows 2g, 2g + 1 of the query array. -/
theorem q_blk (c : Dev nD) (g : Fin 16) (ki : Fin 8) (b : Fin 2) (t : Fin 2048) (d : Fin 64) (h : 2 * g.val + b.val < 32) :
    Attn.iblk V c 0 (Attn.pt g ki) (ix3 b t d) = V c main_v11 (ix3 ⟨2 * g.val + b.val, h⟩ t d) := by
  obtain ⟨e0, e1, e2, -⟩ := idx_facts (Attn.pt g ki)
  have hp := pt_val g ki
  show V c main_v11 (((cfg3.win 0).blk (Attn.pt g ki)).view.emb (ix3 b t d)) = _
  have e : ((cfg3.win 0).blk (Attn.pt g ki)).view.emb (ix3 b t d) = ix3 ⟨2 * g.val + b.val, h⟩ t d := by
    funext a; apply Fin.ext
    match a with
    | ⟨0, _⟩ => show win3_0.index (Attn.pt g ki) (0 : Fin 3) * 2 + 1 * b.val = 2 * g.val + b.val; omega
    | ⟨1, _⟩ => show win3_0.index (Attn.pt g ki) (1 : Fin 3) * 2048 + 1 * t.val = t.val; omega
    | ⟨2, _⟩ => show win3_0.index (Attn.pt g ki) (2 : Fin 3) * 64 + 1 * d.val = d.val; omega
  rw [e]

/-- The key block of pair `g` at key tile `ki`: positions 256·ki … of rows 2g, 2g + 1 of the key array. -/
theorem k_blk (c : Dev nD) (g : Fin 16) (ki : Fin 8) (b : Fin 2) (κ : Fin 256) (d : Fin 64) (h : 2 * g.val + b.val < 32)
    (hκ : 256 * ki.val + κ.val < 2048) :
    Attn.iblk V c 1 (Attn.pt g ki) (ix3 b κ d) = V c main_v14 (ix3 ⟨2 * g.val + b.val, h⟩ ⟨256 * ki.val + κ.val, hκ⟩ d) := by
  obtain ⟨-, -, -, e3, e4, e5, -⟩ := idx_facts (Attn.pt g ki)
  have hp := pt_val g ki
  show V c main_v14 (((cfg3.win 1).blk (Attn.pt g ki)).view.emb (ix3 b κ d)) = _
  have e : ((cfg3.win 1).blk (Attn.pt g ki)).view.emb (ix3 b κ d) = ix3 ⟨2 * g.val + b.val, h⟩ ⟨256 * ki.val + κ.val, hκ⟩ d := by
    funext a; apply Fin.ext
    match a with
    | ⟨0, _⟩ => show win3_1.index (Attn.pt g ki) (0 : Fin 3) * 2 + 1 * b.val = 2 * g.val + b.val; omega
    | ⟨1, _⟩ => show win3_1.index (Attn.pt g ki) (1 : Fin 3) * 256 + 1 * κ.val = 256 * ki.val + κ.val; omega
    | ⟨2, _⟩ => show win3_1.index (Attn.pt g ki) (2 : Fin 3) * 64 + 1 * d.val = d.val; omega
  rw [e]

/-- The value block of pair `g` at key tile `ki`: as the key block, of the value array. -/
theorem v_blk (c : Dev nD) (g : Fin 16) (ki : Fin 8) (b : Fin 2) (κ : Fin 256) (d : Fin 64) (h : 2 * g.val + b.val < 32)
    (hκ : 256 * ki.val + κ.val < 2048) :
    Attn.iblk V c 2 (Attn.pt g ki) (ix3 b κ d) = V c main_v17 (ix3 ⟨2 * g.val + b.val, h⟩ ⟨256 * ki.val + κ.val, hκ⟩ d) := by
  obtain ⟨-, -, -, -, -, -, e6, e7, e8, -⟩ := idx_facts (Attn.pt g ki)
  have hp := pt_val g ki
  show V c main_v17 (((cfg3.win 2).blk (Attn.pt g ki)).view.emb (ix3 b κ d)) = _
  have e : ((cfg3.win 2).blk (Attn.pt g ki)).view.emb (ix3 b κ d) = ix3 ⟨2 * g.val + b.val, h⟩ ⟨256 * ki.val + κ.val, hκ⟩ d := by
    funext a; apply Fin.ext
    match a with
    | ⟨0, _⟩ => show win3_2.index (Attn.pt g ki) (0 : Fin 3) * 2 + 1 * b.val = 2 * g.val + b.val; omega
    | ⟨1, _⟩ => show win3_2.index (Attn.pt g ki) (1 : Fin 3) * 256 + 1 * κ.val = 256 * ki.val + κ.val; omega
    | ⟨2, _⟩ => show win3_2.index (Attn.pt g ki) (2 : Fin 3) * 64 + 1 * d.val = d.val; omega
  rw [e]

/-! ## The output array -/

/-- The pair of array row `r`, and the row's place inside the pair's block. -/
def pairOf (r : Fin 32) : Fin 16 := ⟨r.val / 2, by have := r.isLt; omega⟩
def inPair (r : Fin 32) : Fin 2 := ⟨r.val % 2, Nat.mod_lt _ (by decide)⟩

/-- The block pair `g` writes back: the numerator over the denominator of its state after eight key tiles. -/
def outBlock (c : Dev nD) (g : Fin 16) : Vec F S2x2048x64 .bf16 :=
  k3_pay3 (Attn.tiles V c g 8 (Nat.le_refl 8)).acc (Attn.tiles V c g 8 (Nat.le_refl 8)).l

/-- The output array as one function: row `r` is row `r % 2` of pair `r / 2`'s block. -/
def G (c : Dev nD) : S32x2048x64.Idx → Elt F .bf16 :=
  fun i => outBlock V c (pairOf (i 0)) (ix3 (n0 := 2) (n1 := 2048) (n2 := 64) (inPair (i 0)) (i 1) (i 2))

theorem G_apply (c : Dev nD) (i : S32x2048x64.Idx) :
    G V c i = k3_pay3 (Attn.tiles V c (pairOf (i 0)) 8 (Nat.le_refl 8)).acc (Attn.tiles V c (pairOf (i 0)) 8 (Nat.le_refl 8)).l
      (ix3 (n0 := 2) (n1 := 2048) (n2 := 64) (inPair (i 0)) (i 1) (i 2)) := rfl

/-- `G` at an array index that is index `y` of pair `g`'s block. -/
theorem G_at (c : Dev nD) (g : Fin 16) (i : S32x2048x64.Idx) (y : S2x2048x64.Idx)
    (h0 : (i 0).val = 2 * g.val + (y 0).val) (h1 : (i 1).val = (y 1).val) (h2 : (i 2).val = (y 2).val) :
    G V c i = outBlock V c g y := by
  have hy0 : (y 0).val < 2 := (y 0).isLt
  have hg : pairOf (i 0) = g := Fin.ext (by show (i 0).val / 2 = g.val; omega)
  have hb : inPair (i 0) = y 0 := Fin.ext (by show (i 0).val % 2 = (y 0).val; omega)
  have c1 : (i 1 : Fin 2048) = y 1 := Fin.ext h1
  have c2 : (i 2 : Fin 64) = y 2 := Fin.ext h2
  unfold G
  rw [hg, hb, c1, c2]
  exact congrArg (outBlock V c g) (eq_ix3 y).symm

/-- What a flushing point writes back is its block of `G`: the flushing points are the pairs' last key tiles. -/
theorem flushed_eq (c : Dev nD) (t : Fin cfg3.N) (hf : (cfg3.win 3).flush t = true) :
    (Attn.dat V c).flushed 3 t = ((cfg3.win 3).blk t).view.read (Elt F) (G V c) := by
  have h7 : t.val % 8 = 7 := (flush3_3 t).mp hf
  have hN : t.val < 128 := lt_of_lt_of_eq (show t.val < grid3.N from t.isLt) N_3
  obtain ⟨g, rfl⟩ : ∃ g : Fin 16, t = Attn.pt g 7 :=
    ⟨⟨t.val / 8, by omega⟩, Fin.ext (by show t.val = 8 * (t.val / 8) + 7; omega)⟩
  show (cfg3.win 3).cut (grid3.coords (Attn.pt g 7)) ((Attn.dat V c).after 3 (Attn.pt g 7)) = _
  rw [Attn.out_at_last]
  obtain ⟨-, -, -, -, -, -, -, -, -, e9, e10, e11⟩ := idx_facts (Attn.pt g 7)
  have hp := pt_val g 7
  funext y
  show outBlock V c g y = G V c (((cfg3.win 3).blk (Attn.pt g 7)).view.emb y)
  refine (G_at V c g (((cfg3.win 3).blk (Attn.pt g 7)).view.emb y) y ?_ ?_ ?_).symm
  · show win3_3.index (Attn.pt g 7) (0 : Fin 3) * 2 + 1 * (y 0).val = 2 * g.val + (y 0).val
    have : ((7 : Fin 8) : ℕ) = 7 := rfl
    omega
  · show win3_3.index (Attn.pt g 7) (1 : Fin 3) * 2048 + 1 * (y 1).val = (y 1).val; omega
  · show win3_3.index (Attn.pt g 7) (2 : Fin 3) * 64 + 1 * (y 2).val = (y 2).val; omega

/-- An index of the output array is in point `t`'s block iff each coordinate is in the block's range. -/
theorem mem_blk (t : Fin cfg3.N) (i : S32x2048x64.Idx) :
    i ∈ ((cfg3.win 3).blk t).view.set ↔ ∀ a : Fin 3, win3_3.index t a * S2x2048x64.size a ≤ (i a).val
      ∧ (i a).val < win3_3.index t a * S2x2048x64.size a + S2x2048x64.size a := by
  show i ∈ ((View.whole main_v18).slice (win3_3.rect t)).set ↔ _
  rw [View.set_slice_whole, Rect.mem_set_unit]
  exact Iff.rfl

/-- Row `r` of the output array is in the block written back at the last key tile of pair `r / 2`. -/
theorem cover (i : S32x2048x64.Idx) :
    ∃ t : Fin cfg3.N, (cfg3.win 3).flush t = true ∧ i ∈ ((cfg3.win 3).blk t).view.set := by
  have hi0 : (i 0).val < 32 := (i 0).isLt
  have hi1 : (i 1).val < 2048 := (i 1).isLt
  have hi2 : (i 2).val < 64 := (i 2).isLt
  have hp := pt_val (pairOf (i 0)) 7
  have hg : (pairOf (i 0)).val = (i 0).val / 2 := rfl
  have h77 : ((7 : Fin 8) : ℕ) = 7 := rfl
  obtain ⟨-, -, -, -, -, -, -, -, -, e9, e10, e11⟩ := idx_facts (Attn.pt (pairOf (i 0)) 7)
  refine ⟨Attn.pt (pairOf (i 0)) 7, (flush3_3 _).mpr (by omega), ?_⟩
  rw [mem_blk]
  intro a
  match a with
  | ⟨0, _⟩ => show win3_3.index (Attn.pt (pairOf (i 0)) 7) (0 : Fin 3) * 2 ≤ (i 0).val ∧ (i 0).val < win3_3.index (Attn.pt (pairOf (i 0)) 7) (0 : Fin 3) * 2 + 2; omega
  | ⟨1, _⟩ => show win3_3.index (Attn.pt (pairOf (i 0)) 7) (1 : Fin 3) * 2048 ≤ (i 1).val ∧ (i 1).val < win3_3.index (Attn.pt (pairOf (i 0)) 7) (1 : Fin 3) * 2048 + 2048; omega
  | ⟨2, _⟩ => show win3_3.index (Attn.pt (pairOf (i 0)) 7) (2 : Fin 3) * 64 ≤ (i 2).val ∧ (i 2).val < win3_3.index (Attn.pt (pairOf (i 0)) 7) (2 : Fin 3) * 64 + 64; omega

/-- THE ARRAY after the attention region: at every index, the normalised state of the index's pair after its eight key
    tiles. -/
theorem final3 (c : Dev nD) : (Attn.dat V c).arrAt 3 cfg3.N = G V c :=
  (Attn.dat V c).arrAt_eq_of_cover 3 (G V c) (fun t hf => flushed_eq V c t hf) cover

/-- The same, read at row 2g + b. -/
theorem final3_at (c : Dev nD) (g : Fin 16) (b : Fin 2) (t : Fin 2048) (e : Fin 64) (h : 2 * g.val + b.val < 32) :
    ((Attn.dat V c).arrAt 3 cfg3.N : S32x2048x64.Idx → Elt F .bf16) (ix3 ⟨2 * g.val + b.val, h⟩ t e)
      = k3_pay3 (Attn.tiles V c g 8 (Nat.le_refl 8)).acc (Attn.tiles V c g 8 (Nat.le_refl 8)).l (ix3 b t e) := by
  rw [final3]
  exact G_at V c g (ix3 ⟨2 * g.val + b.val, h⟩ t e) (ix3 b t e) rfl rfl rfl

end Cert.KernelIdeal.AttnValue

end
-- ==== Proof.LibOnlineSoftmax.lean ====
/-
  The online (tile by tile) evaluation of a softmax-weighted sum, on the extended reals.

  A row of scores is visited one tile of keys at a time. The state is a running maximum `M`, a running
  denominator `L` and a running numerator `A`; a tile with scores `s k` and values `v k` replaces them by
      M' = max M (max_k s k),   L' = e^(M − M')·L + Σ_k e^(s k − M'),   A' = e^(M − M')·A + Σ_k e^(s k − M')·v k,
  starting from `(−∞, 0, 0)`. For real scores and values, after at least one tile the state is
  `(M, Σ e^(s − M), Σ e^(s − M)·v)` over all keys seen so far, for SOME real `M`; so `A / L` is the softmax-weighted
  sum `Σ e^s·v / Σ e^s`, whatever `M` is: a weighted sum normalised by its own weights does not change when every
  weight is multiplied by the same positive number `e^(−M)`. The same holds for the one-pass form
  `Σ_k (e^(s k − M) / Σ_j e^(s j − M))·v k` at any real `M`. Hence the two agree.
-/
import Idealize.ShloMosaic.PureOps.Ideal

noncomputable section

namespace Cert.LibOnlineSoftmax

open Idealize.ShloMosaic

/-- The coercion of a finite real sum is the sum of the coercions. -/
theorem coe_sum {ι : Type} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The coercion of the larger of two real numbers is the larger of the coercions. -/
theorem coe_max (a b : ℝ) : ((max a b : ℝ) : EReal) = max (a : EReal) (b : EReal) :=
  EReal.coe_strictMono.monotone.map_max

variable {κ : Type} [Fintype κ]

/-- The maximum of real numbers taken from `−∞` or from a real number is again `−∞` or a real number, -/
theorem fold_max_botOrReal (t : Finset κ) (f : κ → ℝ) (a : EReal) (ha : a = ⊥ ∨ ∃ r : ℝ, a = r) :
    (t.fold max a (fun k => (f k : EReal)) = ⊥ ∧ t = ∅ ∧ a = ⊥) ∨ ∃ r : ℝ, t.fold max a (fun k => (f k : EReal)) = r := by
  classical
  refine Finset.induction_on t ?_ ?_
  · rcases ha with h | ⟨r, h⟩
    · left; exact ⟨by simp [h], rfl, h⟩
    · right; exact ⟨r, by simp [h]⟩
  · intro k t hk ih
    right
    rw [Finset.fold_insert hk]
    rcases ih with ⟨h, -, -⟩ | ⟨r, h⟩
    · exact ⟨f k, by rw [h]; simp⟩
    · exact ⟨max (f k) r, by rw [h, coe_max]⟩

/-- and over a nonempty family from `−∞` it is a real number. -/
theorem fold_max_real [Nonempty κ] (f : κ → ℝ) :
    ∃ r : ℝ, (Finset.univ : Finset κ).fold max (⊥ : EReal) (fun k => (f k : EReal)) = r := by
  rcases fold_max_botOrReal (Finset.univ : Finset κ) f ⊥ (Or.inl rfl) with ⟨-, h, -⟩ | h
  · exact absurd h (Finset.univ_nonempty.ne_empty)
  · exact h

/-- One tile's update of the running maximum, denominator and numerator. -/
def step (st : EReal × EReal × EReal) (s v : κ → EReal) : EReal × EReal × EReal :=
  (max st.1 ((Finset.univ : Finset κ).fold max ⊥ s),
   Ideal.exp (st.1 - max st.1 ((Finset.univ : Finset κ).fold max ⊥ s)) * st.2.1
     + ∑ k, Ideal.exp (s k - max st.1 ((Finset.univ : Finset κ).fold max ⊥ s)),
   Ideal.exp (st.1 - max st.1 ((Finset.univ : Finset κ).fold max ⊥ s)) * st.2.2
     + ∑ k, Ideal.exp (s k - max st.1 ((Finset.univ : Finset κ).fold max ⊥ s)) * v k)

/-- The weights' sum and the weighted sum of one tile, relative to a level `M`. -/
def den (M : ℝ) (s : κ → ℝ) : ℝ := ∑ k, Real.exp (s k - M)
def num (M : ℝ) (s v : κ → ℝ) : ℝ := ∑ k, Real.exp (s k - M) * v k

theorem den_shift (M M' : ℝ) (s : κ → ℝ) : Real.exp (M - M') * den M s = den M' s := by
  unfold den; rw [Finset.mul_sum]; refine Finset.sum_congr rfl fun k _ => ?_
  rw [← Real.exp_add]; congr 1; ring

theorem num_shift (M M' : ℝ) (s v : κ → ℝ) : Real.exp (M - M') * num M s v = num M' s v := by
  unfold num; rw [Finset.mul_sum]; refine Finset.sum_congr rfl fun k _ => ?_
  rw [← mul_assoc, ← Real.exp_add]; congr 2; ring

/-- The first tile: from `(−∞, 0, 0)` the state becomes `(M, den M, num M)` of that tile at a real level `M`. -/
theorem step_first [Nonempty κ] (s v : κ → ℝ) :
    ∃ M : ℝ, step ((⊥ : EReal), (0 : EReal), (0 : EReal)) (fun k => (s k : EReal)) (fun k => (v k : EReal))
      = ((M : EReal), ((den M s : ℝ) : EReal), ((num M s v : ℝ) : EReal)) := by
  obtain ⟨M, hM⟩ := fold_max_real s
  refine ⟨M, ?_⟩
  unfold step
  simp only [hM, bot_le, max_eq_right, EReal.bot_sub, Ideal.exp_bot, mul_zero, zero_add]
  refine Prod.ext rfl (Prod.ext ?_ ?_)
  · simp only [den, coe_sum]
    refine Finset.sum_congr rfl fun k _ => ?_
    rw [← EReal.coe_sub, Ideal.exp_coe]
  · simp only [num, coe_sum]
    refine Finset.sum_congr rfl fun k _ => ?_
    rw [← EReal.coe_sub, Ideal.exp_coe, EReal.coe_mul]

/-- A later tile: from real `(M, L, A)` the state becomes `(M', e^(M−M')·L + den M', e^(M−M')·A + num M')` at a real level `M'`. -/
theorem step_real [Nonempty κ] (M L A : ℝ) (s v : κ → ℝ) :
    ∃ M' : ℝ, step ((M : EReal), (L : EReal), (A : EReal)) (fun k => (s k : EReal)) (fun k => (v k : EReal))
      = ((M' : EReal), ((Real.exp (M - M') * L + den M' s : ℝ) : EReal), ((Real.exp (M - M') * A + num M' s v : ℝ) : EReal)) := by
  obtain ⟨R, hR⟩ := fold_max_real s
  refine ⟨max M R, ?_⟩
  unfold step
  simp only [hR, ← coe_max, ← EReal.coe_sub, Ideal.exp_coe]
  refine Prod.ext rfl (Prod.ext ?_ ?_)
  · simp only [den, EReal.coe_add, EReal.coe_mul, coe_sum]
  · simp only [num, EReal.coe_add, EReal.coe_mul, coe_sum]

/-- The state after the first `n` tiles. -/
def run (s v : ℕ → κ → ℝ) : ℕ → EReal × EReal × EReal
  | 0 => ((⊥ : EReal), (0 : EReal), (0 : EReal))
  | n + 1 => step (run s v n) (fun k => (s n k : EReal)) (fun k => (v n k : EReal))

/-- After at least one tile the state is, at some real level `M`, the weights' sum and the weighted sum over every key
    seen so far. -/
theorem run_succ [Nonempty κ] (s v : ℕ → κ → ℝ) (n : ℕ) :
    ∃ M : ℝ, run s v (n + 1)
      = ((M : EReal), ((∑ j ∈ Finset.range (n + 1), den M (s j) : ℝ) : EReal), ((∑ j ∈ Finset.range (n + 1), num M (s j) (v j) : ℝ) : EReal)) := by
  induction n with
  | zero =>
    obtain ⟨M, hM⟩ := step_first (s 0) (v 0)
    refine ⟨M, ?_⟩
    show step ((⊥ : EReal), (0 : EReal), (0 : EReal)) _ _ = _
    rw [hM, Nat.zero_add, Finset.sum_range_one, Finset.sum_range_one]
  | succ n ih =>
    obtain ⟨M, hM⟩ := ih
    obtain ⟨M', hM'⟩ := step_real M (∑ j ∈ Finset.range (n + 1), den M (s j)) (∑ j ∈ Finset.range (n + 1), num M (s j) (v j)) (s (n + 1)) (v (n + 1))
    refine ⟨M', ?_⟩
    rw [show run s v (n + 1 + 1) = step (run s v (n + 1)) (fun k => (s (n + 1) k : EReal)) (fun k => (v (n + 1) k : EReal)) from rfl, hM, hM']
    refine Prod.ext rfl (Prod.ext ?_ ?_)
    · show ((_ : ℝ) : EReal) = ((_ : ℝ) : EReal)
      rw [Finset.sum_range_succ _ (n + 1), Finset.mul_sum, Finset.sum_congr rfl fun j _ => den_shift M M' (s j)]
    · show ((_ : ℝ) : EReal) = ((_ : ℝ) : EReal)
      rw [Finset.sum_range_succ _ (n + 1), Finset.mul_sum, Finset.sum_congr rfl fun j _ => num_shift M M' (s j) (v j)]

/-! ## The quotient, and the one-pass form -/

/-- The quotient of two real numbers, the divisor not zero, on the extended reals. -/
theorem div_real (A L : ℝ) (hL : L ≠ 0) : Ideal.div (A : EReal) (L : EReal) = ((A / L : ℝ) : EReal) := by
  rw [Ideal.div_coe hL, ← EReal.coe_mul, mul_one_div]

theorem den_pos [Nonempty κ] (M : ℝ) (s : κ → ℝ) : 0 < den M s :=
  Finset.sum_pos (fun k _ => Real.exp_pos _) Finset.univ_nonempty

theorem sum_den_pos [Nonempty κ] (M : ℝ) (s : ℕ → κ → ℝ) (n : ℕ) : 0 < ∑ j ∈ Finset.range (n + 1), den M (s j) :=
  Finset.sum_pos (fun j _ => den_pos M (s j)) ⟨0, Finset.mem_range.mpr (Nat.succ_pos n)⟩

/-- A weighted sum normalised by its weights does not depend on the level the weights are taken at. -/
theorem ratio_shift [Nonempty κ] (M : ℝ) (s v : ℕ → κ → ℝ) (n : ℕ) :
    (∑ j ∈ Finset.range (n + 1), num M (s j) (v j)) / (∑ j ∈ Finset.range (n + 1), den M (s j))
      = (∑ j ∈ Finset.range (n + 1), num 0 (s j) (v j)) / (∑ j ∈ Finset.range (n + 1), den 0 (s j)) := by
  have hn : ∑ j ∈ Finset.range (n + 1), num M (s j) (v j) = Real.exp (0 - M) * ∑ j ∈ Finset.range (n + 1), num 0 (s j) (v j) := by
    rw [Finset.mul_sum]; exact Finset.sum_congr rfl fun j _ => (num_shift 0 M (s j) (v j)).symm
  have hd : ∑ j ∈ Finset.range (n + 1), den M (s j) = Real.exp (0 - M) * ∑ j ∈ Finset.range (n + 1), den 0 (s j) := by
    rw [Finset.mul_sum]; exact Finset.sum_congr rfl fun j _ => (den_shift 0 M (s j)).symm
  rw [hn, hd, mul_div_mul_left _ _ (Real.exp_pos _).ne']

/-- THE ONLINE FORM: after `n + 1` tiles the running numerator over the running denominator is the softmax-weighted sum
    of the values over every key seen. -/
theorem run_quotient [Nonempty κ] (s v : ℕ → κ → ℝ) (n : ℕ) :
    Ideal.div (run s v (n + 1)).2.2 (run s v (n + 1)).2.1
      = (((∑ j ∈ Finset.range (n + 1), num 0 (s j) (v j)) / (∑ j ∈ Finset.range (n + 1), den 0 (s j)) : ℝ) : EReal) := by
  obtain ⟨M, hM⟩ := run_succ s v n
  rw [hM]
  show Ideal.div ((_ : ℝ) : EReal) ((_ : ℝ) : EReal) = _
  rw [div_real _ _ (sum_den_pos M s n).ne', ratio_shift]

/-- THE ONE-PASS FORM: every weight `e^(s k − R)` (any real level `R`) divided by the weights' sum taken from zero, times the
    value, summed over the keys, is the same softmax-weighted sum. -/
theorem onepass {K : Type} [Fintype K] [Nonempty K] (S V : K → ℝ) (R : ℝ) :
    ∑ k, Ideal.div (Ideal.exp ((S k : EReal) - (R : EReal))) (0 + ∑ k', Ideal.exp ((S k' : EReal) - (R : EReal))) * (V k : EReal)
      = (((∑ k, Real.exp (S k) * V k) / (∑ k, Real.exp (S k)) : ℝ) : EReal) := by
  have hpos : 0 < ∑ k', Real.exp (S k' - R) := Finset.sum_pos (fun k _ => Real.exp_pos _) Finset.univ_nonempty
  have hden : (0 : EReal) + ∑ k', Ideal.exp ((S k' : EReal) - (R : EReal)) = ((∑ k', Real.exp (S k' - R) : ℝ) : EReal) := by
    rw [zero_add, coe_sum]; exact Finset.sum_congr rfl fun k _ => by rw [← EReal.coe_sub, Ideal.exp_coe]
  rw [hden]
  have hterm : ∀ k, Ideal.div (Ideal.exp ((S k : EReal) - (R : EReal))) ((∑ k', Real.exp (S k' - R) : ℝ) : EReal) * (V k : EReal)
      = ((Real.exp (S k - R) / (∑ k', Real.exp (S k' - R)) * V k : ℝ) : EReal) := fun k => by
    rw [← EReal.coe_sub, Ideal.exp_coe, div_real _ _ hpos.ne', ← EReal.coe_mul]
  rw [Finset.sum_congr rfl fun k _ => hterm k, ← coe_sum]
  congr 1
  have he : ∀ k, Real.exp (S k - R) = Real.exp (-R) * Real.exp (S k) := fun k => by rw [← Real.exp_add]; congr 1; ring
  simp only [he, ← Finset.mul_sum]
  rw [Finset.sum_div]
  refine Finset.sum_congr rfl fun k _ => ?_
  rw [mul_div_mul_left _ _ (Real.exp_pos _).ne']
  ring

/-- THE TWO AGREE. The keys `K` are laid out as `n + 1` tiles of `κ` (`e`); the online evaluation over the tiles of
    `S ∘ e`, `V ∘ e` gives what the one-pass form over `K` gives, at any real level. -/
theorem online_eq_onepass [Nonempty κ] {K : Type} [Fintype K] [Nonempty K] (n : ℕ) (e : Fin (n + 1) × κ ≃ K) (S V : K → ℝ) (R : ℝ)
    (s v : ℕ → κ → ℝ) (hs : ∀ (j : Fin (n + 1)) (k : κ), s j k = S (e (j, k))) (hv : ∀ (j : Fin (n + 1)) (k : κ), v j k = V (e (j, k))) :
    Ideal.div (run s v (n + 1)).2.2 (run s v (n + 1)).2.1
      = ∑ k, Ideal.div (Ideal.exp ((S k : EReal) - (R : EReal))) (0 + ∑ k', Ideal.exp ((S k' : EReal) - (R : EReal))) * (V k : EReal) := by
  rw [run_quotient, onepass]
  congr 2
  · rw [← e.sum_comp, Fintype.sum_prod_type, Finset.sum_range]
    refine Finset.sum_congr rfl fun j _ => ?_
    unfold num
    refine Finset.sum_congr rfl fun k _ => ?_
    rw [hs j k, hv j k, sub_zero]
  · rw [← e.sum_comp, Fintype.sum_prod_type, Finset.sum_range]
    refine Finset.sum_congr rfl fun j _ => ?_
    unfold den
    refine Finset.sum_congr rfl fun k _ => ?_
    rw [hs j k, sub_zero]

/-- THE FORM A TILED KERNEL MEETS. Any sequence of states that starts at `(−∞, 0, 0)` and advances by `step` over the
    `n + 1` tiles of the keys `K` (laid out by `e`) ends with numerator over denominator equal to the softmax-weighted
    sum in its one-pass form, the weights normalised by their plain sum, at any real level `R`. -/
theorem tiled_eq_onepass [Nonempty κ] {K : Type} [Fintype K] [Nonempty K] (n : ℕ) (e : Fin (n + 1) × κ ≃ K) (S V : K → ℝ) (R : ℝ)
    (st : ℕ → EReal × EReal × EReal) (h0 : st 0 = ((⊥ : EReal), (0 : EReal), (0 : EReal)))
    (hstep : ∀ (j : ℕ) (hj : j < n + 1), st (j + 1)
      = step (st j) (fun k => (S (e (⟨j, hj⟩, k)) : EReal)) (fun k => (V (e (⟨j, hj⟩, k)) : EReal))) :
    Ideal.div (st (n + 1)).2.2 (st (n + 1)).2.1
      = ∑ k, Ideal.div (Ideal.exp ((S k : EReal) - (R : EReal))) (∑ k', Ideal.exp ((S k' : EReal) - (R : EReal))) * (V k : EReal) := by
  let s : ℕ → κ → ℝ := fun j k => if hj : j < n + 1 then S (e (⟨j, hj⟩, k)) else 0
  let v : ℕ → κ → ℝ := fun j k => if hj : j < n + 1 then V (e (⟨j, hj⟩, k)) else 0
  have hrun : ∀ j, j ≤ n + 1 → st j = run s v j := by
    intro j
    induction j with
    | zero => intro _; exact h0
    | succ j ih =>
      intro hj
      have hj' : j < n + 1 := hj
      rw [hstep j hj', ih (Nat.le_of_lt hj')]
      show step (run s v j) _ _ = step (run s v j) (fun k => (s j k : EReal)) (fun k => (v j k : EReal))
      simp only [s, v, dif_pos hj']
  rw [hrun (n + 1) (Nat.le_refl _)]
  have h := online_eq_onepass n e S V R s v (fun j k => by simp only [s, dif_pos j.isLt]) (fun j k => by simp only [v, dif_pos j.isLt])
  rw [h]
  simp only [zero_add]

end Cert.LibOnlineSoftmax

end
-- ==== Proof.IdealAttnStep.lean ====
import proofs.«147348_j2388001816882_2_alg».proof.Proof.IdealAttnDefs
import proofs.«147348_j2388001816882_2_alg».proof.Proof.LibOnlineSoftmax
import Idealize.ShloMosaic.Lib.Pipeline.Value
import Idealize.ShloMosaic.Lib.ValueIdx
import Idealize.ShloMosaic.PureOps.Ideal.Laws

/-! # One key tile of the attention body, read element by element in exact arithmetic

For a batch-head `b` and a query row `t`, one key tile of 256 keys has the scaled scores
`s κ = (∑_d q[b,t,d] · k[b,κ,d]) · 1/8`. The body replaces the running maximum `M`, denominator `L` and
numerator row `A[·]` by
    M' = max M (max_κ s κ),  L' = e^(M − M')·L + ∑_κ e^(s κ − M'),  A'[e] = e^(M − M')·A[e] + ∑_κ e^(s κ − M')·v[b,κ,e].
In exact arithmetic every rounding is the identity, so each payload of the body, read at an index, is the corresponding
expression; the three components of the updated state are then the three components of one online-softmax step. -/

set_option maxRecDepth 16384

noncomputable section

namespace Cert.KernelIdeal.AttnStep

open Cert.KernelIdeal Cert.KernelIdeal.Gen
open Idealize.ShloMosaic Idealize.ShloMosaic.TcCoe Idealize.SL.Sem
open Idealize.ShloMosaic.ValueIdx (ix2 ix3)

/-! ## The two contractions' operand indices -/

-- scores: output (b, t, κ), position d ↦ left (b, t, d), right (b, κ, d)
theorem qk_lhs_0 (i : S2x2048x256.Idx) (q : dot_S2x2048x64_S2x256x64_S2x2048x256_2_2_1_1_0_0.contr.Idx) : (dot_S2x2048x64_S2x256x64_S2x2048x256_2_2_1_1_0_0.lhsIdx i q 0).val = (i 0).val := by
  unfold DotDims.lhsIdx
  rw [dif_pos (show (0 : Fin S2x2048x64.rank) ∈ dot_S2x2048x64_S2x256x64_S2x2048x256_2_2_1_1_0_0.lhsBatch by decide)]
  rfl
theorem qk_lhs_1 (i : S2x2048x256.Idx) (q : dot_S2x2048x64_S2x256x64_S2x2048x256_2_2_1_1_0_0.contr.Idx) : (dot_S2x2048x64_S2x256x64_S2x2048x256_2_2_1_1_0_0.lhsIdx i q 1).val = (i 1).val := by
  unfold DotDims.lhsIdx
  rw [dif_neg (show ¬(1 : Fin S2x2048x64.rank) ∈ dot_S2x2048x64_S2x256x64_S2x2048x256_2_2_1_1_0_0.lhsBatch by decide), dif_pos (show (1 : Fin S2x2048x64.rank) ∈ dot_S2x2048x64_S2x256x64_S2x2048x256_2_2_1_1_0_0.lhsNonContracting by decide)]
  rfl
theorem qk_lhs_2 (i : S2x2048x256.Idx) (q : dot_S2x2048x64_S2x256x64_S2x2048x256_2_2_1_1_0_0.contr.Idx) : (dot_S2x2048x64_S2x256x64_S2x2048x256_2_2_1_1_0_0.lhsIdx i q 2).val = (q ⟨0, by decide⟩).val :=
  dot_S2x2048x64_S2x256x64_S2x2048x256_2_2_1_1_0_0.lhsIdx_val_of_single rfl i q
theorem qk_rhs_0 (i : S2x2048x256.Idx) (q : dot_S2x2048x64_S2x256x64_S2x2048x256_2_2_1_1_0_0.contr.Idx) : (dot_S2x2048x64_S2x256x64_S2x2048x256_2_2_1_1_0_0.rhsIdx i q 0).val = (i 0).val := by
  unfold DotDims.rhsIdx
  rw [dif_pos (show (0 : Fin S2x256x64.rank) ∈ dot_S2x2048x64_S2x256x64_S2x2048x256_2_2_1_1_0_0.rhsBatch by decide)]
  rfl
theorem qk_rhs_1 (i : S2x2048x256.Idx) (q : dot_S2x2048x64_S2x256x64_S2x2048x256_2_2_1_1_0_0.contr.Idx) : (dot_S2x2048x64_S2x256x64_S2x2048x256_2_2_1_1_0_0.rhsIdx i q 1).val = (i 2).val := by
  unfold DotDims.rhsIdx
  rw [dif_neg (show ¬(1 : Fin S2x256x64.rank) ∈ dot_S2x2048x64_S2x256x64_S2x2048x256_2_2_1_1_0_0.rhsBatch by decide), dif_pos (show (1 : Fin S2x256x64.rank) ∈ dot_S2x2048x64_S2x256x64_S2x2048x256_2_2_1_1_0_0.rhsNonContracting by decide)]
  rfl
theorem qk_rhs_2 (i : S2x2048x256.Idx) (q : dot_S2x2048x64_S2x256x64_S2x2048x256_2_2_1_1_0_0.contr.Idx) : (dot_S2x2048x64_S2x256x64_S2x2048x256_2_2_1_1_0_0.rhsIdx i q 2).val = (q ⟨0, by decide⟩).val :=
  dot_S2x2048x64_S2x256x64_S2x2048x256_2_2_1_1_0_0.rhsIdx_val_of_single rfl i q

-- weighted values: output (b, t, e), position κ ↦ left (b, t, κ), right (b, κ, e)
theorem pv_lhs_0 (i : S2x2048x64.Idx) (q : dot_S2x2048x256_S2x256x64_S2x2048x64_2_1_1_2_0_0.contr.Idx) : (dot_S2x2048x256_S2x256x64_S2x2048x64_2_1_1_2_0_0.lhsIdx i q 0).val = (i 0).val := by
  unfold DotDims.lhsIdx
  rw [dif_pos (show (0 : Fin S2x2048x256.rank) ∈ dot_S2x2048x256_S2x256x64_S2x2048x64_2_1_1_2_0_0.lhsBatch by decide)]
  rfl
theorem pv_lhs_1 (i : S2x2048x64.Idx) (q : dot_S2x2048x256_S2x256x64_S2x2048x64_2_1_1_2_0_0.contr.Idx) : (dot_S2x2048x256_S2x256x64_S2x2048x64_2_1_1_2_0_0.lhsIdx i q 1).val = (i 1).val := by
  unfold DotDims.lhsIdx
  rw [dif_neg (show ¬(1 : Fin S2x2048x256.rank) ∈ dot_S2x2048x256_S2x256x64_S2x2048x64_2_1_1_2_0_0.lhsBatch by decide), dif_pos (show (1 : Fin S2x2048x256.rank) ∈ dot_S2x2048x256_S2x256x64_S2x2048x64_2_1_1_2_0_0.lhsNonContracting by decide)]
  rfl
theorem pv_lhs_2 (i : S2x2048x64.Idx) (q : dot_S2x2048x256_S2x256x64_S2x2048x64_2_1_1_2_0_0.contr.Idx) : (dot_S2x2048x256_S2x256x64_S2x2048x64_2_1_1_2_0_0.lhsIdx i q 2).val = (q ⟨0, by decide⟩).val :=
  dot_S2x2048x256_S2x256x64_S2x2048x64_2_1_1_2_0_0.lhsIdx_val_of_single rfl i q
theorem pv_rhs_0 (i : S2x2048x64.Idx) (q : dot_S2x2048x256_S2x256x64_S2x2048x64_2_1_1_2_0_0.contr.Idx) : (dot_S2x2048x256_S2x256x64_S2x2048x64_2_1_1_2_0_0.rhsIdx i q 0).val = (i 0).val := by
  unfold DotDims.rhsIdx
  rw [dif_pos (show (0 : Fin S2x256x64.rank) ∈ dot_S2x2048x256_S2x256x64_S2x2048x64_2_1_1_2_0_0.rhsBatch by decide)]
  rfl
theorem pv_rhs_1 (i : S2x2048x64.Idx) (q : dot_S2x2048x256_S2x256x64_S2x2048x64_2_1_1_2_0_0.contr.Idx) : (dot_S2x2048x256_S2x256x64_S2x2048x64_2_1_1_2_0_0.rhsIdx i q 1).val = (q ⟨0, by decide⟩).val :=
  dot_S2x2048x256_S2x256x64_S2x2048x64_2_1_1_2_0_0.rhsIdx_val_of_single rfl i q
theorem pv_rhs_2 (i : S2x2048x64.Idx) (q : dot_S2x2048x256_S2x256x64_S2x2048x64_2_1_1_2_0_0.contr.Idx) : (dot_S2x2048x256_S2x256x64_S2x2048x64_2_1_1_2_0_0.rhsIdx i q 2).val = (i 2).val := by
  unfold DotDims.rhsIdx
  rw [dif_neg (show ¬(2 : Fin S2x256x64.rank) ∈ dot_S2x2048x256_S2x256x64_S2x2048x64_2_1_1_2_0_0.rhsBatch by decide), dif_pos (show (2 : Fin S2x256x64.rank) ∈ dot_S2x2048x256_S2x256x64_S2x2048x64_2_1_1_2_0_0.rhsNonContracting by decide)]
  rfl

/-- The batched product q · kᵀ into a zero accumulator at (b, t, κ): row (b, t) of the left operand against row (b, κ)
    of the right one. -/
theorem qk_at {φ₁ φ₂ : FTy} (x : FVec Ideal S2x2048x64 φ₁) (y : FVec Ideal S2x256x64 φ₂) (b : Fin 2) (t : Fin 2048) (κ : Fin 256) :
    matmul dot_S2x2048x64_S2x256x64_S2x2048x256_2_2_1_1_0_0 none x y (constant (F := Ideal) S2x2048x256 .f32 0x00000000#32) (ix3 b t κ) = ∑ d : Fin 64, x (ix3 b t d) * y (ix3 b κ d) := by
  simp only [matmul]
  rw [Ideal.matmul_constant_zero_apply, ← Equiv.sum_comp (ValueIdx.contrEquiv1 dot_S2x2048x64_S2x256x64_S2x2048x256_2_2_1_1_0_0 64 rfl rfl).symm]
  refine Finset.sum_congr rfl fun d _ => ?_
  have hk := ValueIdx.contrEquiv1_symm_val dot_S2x2048x64_S2x256x64_S2x2048x256_2_2_1_1_0_0 64 rfl rfl d
  have el : dot_S2x2048x64_S2x256x64_S2x2048x256_2_2_1_1_0_0.lhsIdx (ix3 b t κ) ((ValueIdx.contrEquiv1 dot_S2x2048x64_S2x256x64_S2x2048x256_2_2_1_1_0_0 64 rfl rfl).symm d) = ix3 b t d := funext fun a => Fin.ext (by
    match a with
    | ⟨0, _⟩ => exact qk_lhs_0 _ _
    | ⟨1, _⟩ => exact qk_lhs_1 _ _
    | ⟨2, _⟩ => exact (qk_lhs_2 _ _).trans hk)
  have er : dot_S2x2048x64_S2x256x64_S2x2048x256_2_2_1_1_0_0.rhsIdx (ix3 b t κ) ((ValueIdx.contrEquiv1 dot_S2x2048x64_S2x256x64_S2x2048x256_2_2_1_1_0_0 64 rfl rfl).symm d) = ix3 b κ d := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-- The batched product p · v into a zero accumulator at (b, t, e): row (b, t) of the left operand against column (b, e)
    of the right one. -/
theorem pv_at {φ₁ φ₂ : FTy} (x : FVec Ideal S2x2048x256 φ₁) (y : FVec Ideal S2x256x64 φ₂) (b : Fin 2) (t : Fin 2048) (e : Fin 64) :
    matmul dot_S2x2048x256_S2x256x64_S2x2048x64_2_1_1_2_0_0 none x y (constant (F := Ideal) S2x2048x64 .f32 0x00000000#32) (ix3 b t e) = ∑ κ : Fin 256, x (ix3 b t κ) * y (ix3 b κ e) := by
  simp only [matmul]
  rw [Ideal.matmul_constant_zero_apply, ← Equiv.sum_comp (ValueIdx.contrEquiv1 dot_S2x2048x256_S2x256x64_S2x2048x64_2_1_1_2_0_0 256 rfl rfl).symm]
  refine Finset.sum_congr rfl fun κ _ => ?_
  have hk := ValueIdx.contrEquiv1_symm_val dot_S2x2048x256_S2x256x64_S2x2048x64_2_1_1_2_0_0 256 rfl rfl κ
  have el : dot_S2x2048x256_S2x256x64_S2x2048x64_2_1_1_2_0_0.lhsIdx (ix3 b t e) ((ValueIdx.contrEquiv1 dot_S2x2048x256_S2x256x64_S2x2048x64_2_1_1_2_0_0 256 rfl rfl).symm κ) = ix3 b t κ := funext fun a => Fin.ext (by
    match a with
    | ⟨0, _⟩ => exact pv_lhs_0 _ _
    | ⟨1, _⟩ => exact pv_lhs_1 _ _
    | ⟨2, _⟩ => exact (pv_lhs_2 _ _).trans hk)
  have er : dot_S2x2048x256_S2x256x64_S2x2048x64_2_1_1_2_0_0.rhsIdx (ix3 b t e) ((ValueIdx.contrEquiv1 dot_S2x2048x256_S2x256x64_S2x2048x64_2_1_1_2_0_0 256 rfl rfl).symm κ) = ix3 b κ e := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## Rows as columns, and columns broadcast along the last axis -/

/-- A [2, 2048] vector viewed as [2, 2048, 1], read at (b, t, 0). -/
theorem col_at (x : FVec Ideal S2x2048 .f32) (b : Fin 2) (t : Fin 2048) :
    shapeCast S2x2048x1 x shapeCasts_S2x2048_S2x2048x1 (ix3 b t 0) = x (ix2 b t) := by
  refine shapeCast_apply x _ _ _ ?_
  rw [Shape.rowMajor_val_two, Shape.rowMajor_val_three]
  show b.val * 2048 + t.val = (b.val * 2048 + t.val) * 1 + 0
  omega

/-- A [2, 2048, 1] column broadcast over 256 keys, read at (b, t, κ). -/
theorem bcast256_at (x : FVec Ideal S2x2048x1 .f32) (b : Fin 2) (t : Fin 2048) (κ : Fin 256) :
    broadcastTo S2x2048x256 x broadcasts_S2x2048x1_S2x2048x256 (ix3 b t κ) = x (ix3 b t 0) := by
  refine broadcastTo_apply _ broadcasts_S2x2048x1_S2x2048x256 (ix3 b t κ) (ix3 b t 0) (fun a => ?_)
  match a with
  | ⟨0, _⟩ => show b.val = if (2 : Nat) = 1 then 0 else _; rw [if_neg (by decide)]; rfl
  | ⟨1, _⟩ => show t.val = if (2048 : Nat) = 1 then 0 else _; rw [if_neg (by decide)]; rfl
  | ⟨2, _⟩ => show 0 = if (1 : Nat) = 1 then 0 else _; rw [if_pos rfl]

/-- A [2, 2048, 1] column broadcast over 64 lanes, read at (b, t, e). -/
theorem bcast64_at (x : FVec Ideal S2x2048x1 .f32) (b : Fin 2) (t : Fin 2048) (e : Fin 64) :
    broadcastTo S2x2048x64 x broadcasts_S2x2048x1_S2x2048x64 (ix3 b t e) = x (ix3 b t 0) := by
  refine broadcastTo_apply _ broadcasts_S2x2048x1_S2x2048x64 (ix3 b t e) (ix3 b t 0) (fun a => ?_)
  match a with
  | ⟨0, _⟩ => show b.val = if (2 : Nat) = 1 then 0 else _; rw [if_neg (by decide)]; rfl
  | ⟨1, _⟩ => show t.val = if (2048 : Nat) = 1 then 0 else _; rw [if_neg (by decide)]; rfl
  | ⟨2, _⟩ => show 0 = if (1 : Nat) = 1 then 0 else _; rw [if_pos rfl]

/-- The word 0xFF800000 is −∞. -/
theorem negInf_eq : FloatOps.ofBits (F := Ideal) .f32 0xFF800000#32 = (⊥ : EReal) := by
  simp [Ideal.ofBits, Ideal.ieee]

/-! ## The payloads at an index -/

/-- The scaled scores of query row (b, t) against the tile's 256 keys. -/
def scRow (q : Vec Ideal S2x2048x64 .bf16) (k : Vec Ideal S2x256x64 .bf16) (b : Fin 2) (t : Fin 2048) : Fin 256 → EReal :=
  fun κ => (∑ d : Fin 64, (q (ix3 b t d) : EReal) * k (ix3 b κ d)) * Ideal.ofBits .f32 0x3E000000#32

/-- The scaled scores. -/
theorem pay7_at (q : Vec Ideal S2x2048x64 .bf16) (k : Vec Ideal S2x256x64 .bf16) (b : Fin 2) (t : Fin 2048) (κ : Fin 256) :
    k3_pay7 (F := Ideal) q k (ix3 b t κ) = scRow q k b t κ := by
  unfold k3_pay7 scRow
  refine (ValueIdx.mulf_apply (s := S2x2048x256) (φ := .f32) _ _ (ix3 b t κ)).trans ?_
  refine congrArg₂ (· * ·) ?_ rfl
  refine (qk_at (φ₁ := .bf16) (φ₂ := .bf16) _ _ b t κ).trans ?_
  refine Finset.sum_congr rfl fun d _ => ?_
  exact congrArg₂ (· * ·) (congrFun (shapeCast_self q _) _) (congrFun (shapeCast_self k _) _)

/-- The new running maximum. -/
theorem pay8_at (q : Vec Ideal S2x2048x64 .bf16) (k : Vec Ideal S2x256x64 .bf16) (m : Vec Ideal S2x2048 .f32) (b : Fin 2) (t : Fin 2048) :
    k3_pay8 (F := Ideal) q k m (ix2 b t) = max (m (ix2 b t)) ((Finset.univ : Finset (Fin 256)).fold max ⊥ (scRow q k b t)) := by
  unfold k3_pay8
  refine (ValueIdx.maximumf_apply (s := S2x2048) (φ := .f32) _ _ (ix2 b t)).trans ?_
  refine congrArg (max (m (ix2 b t))) ?_
  refine (Ideal.multiReduction_maximumf_single (φ := .f32) (k3_pay7 (F := Ideal) q k) 0xFF800000#32 reduces_S2x2048x256_S2x2048 (.inl rfl) rfl (ix2 b t)).trans ?_
  have e2 : (k3_pay7 (F := Ideal) q k ∘ reduces_S2x2048x256_S2x2048.lift (ix2 b t)) = scRow q k b t := funext fun κ => by
    show k3_pay7 (F := Ideal) q k (reduces_S2x2048x256_S2x2048.lift (ix2 b t) κ) = _
    have e3 : reduces_S2x2048x256_S2x2048.lift (ix2 b t) κ = ix3 b t κ := funext fun a => Fin.ext (by
      match a with
      | ⟨0, _⟩ => rfl
      | ⟨1, _⟩ => rfl
      | ⟨2, _⟩ => rfl)
    rw [e3]; exact pay7_at q k b t κ
  rw [e2, negInf_eq]
  rfl

/-- The rescaling factor of the old state. -/
theorem pay9_at (q : Vec Ideal S2x2048x64 .bf16) (k : Vec Ideal S2x256x64 .bf16) (m : Vec Ideal S2x2048 .f32) (b : Fin 2) (t : Fin 2048) :
    k3_pay9 (F := Ideal) q k m (ix2 b t) = Ideal.exp (m (ix2 b t) - k3_pay8 (F := Ideal) q k m (ix2 b t)) := by
  unfold k3_pay9; rfl

/-- This tile's unnormalised weights. -/
theorem pay10_at (q : Vec Ideal S2x2048x64 .bf16) (k : Vec Ideal S2x256x64 .bf16) (m : Vec Ideal S2x2048 .f32) (b : Fin 2) (t : Fin 2048) (κ : Fin 256) :
    k3_pay10 (F := Ideal) q k m (ix3 b t κ) = Ideal.exp (scRow q k b t κ - k3_pay8 (F := Ideal) q k m (ix2 b t)) := by
  unfold k3_pay10
  show Ideal.exp (k3_pay7 (F := Ideal) q k (ix3 b t κ) - broadcastTo S2x2048x256 (shapeCast S2x2048x1 (k3_pay8 (F := Ideal) q k m) shapeCasts_S2x2048_S2x2048x1) broadcasts_S2x2048x1_S2x2048x256 (ix3 b t κ)) = _
  rw [pay7_at, bcast256_at, col_at]

/-- The new running denominator. -/
theorem pay11_at (q : Vec Ideal S2x2048x64 .bf16) (k : Vec Ideal S2x256x64 .bf16) (m l : Vec Ideal S2x2048 .f32) (b : Fin 2) (t : Fin 2048) :
    k3_pay11 (F := Ideal) q k m l (ix2 b t)
      = k3_pay9 (F := Ideal) q k m (ix2 b t) * l (ix2 b t) + ∑ κ : Fin 256, k3_pay10 (F := Ideal) q k m (ix3 b t κ) := by
  unfold k3_pay11
  refine (congrFun (shapeCast_self _ _) _).trans ?_
  refine (ValueIdx.addf_apply (s := S2x2048) (φ := .f32) _ _ (ix2 b t)).trans ?_
  refine congrArg₂ (· + ·) rfl ?_
  refine (Ideal.multiReduction_add_single (φ := .f32) (k3_pay10 (F := Ideal) q k m) 0x00000000#32 reduces_S2x2048x256_S2x2048 (.inl rfl) rfl (ix2 b t)).trans ?_
  refine Finset.sum_congr rfl fun κ _ => ?_
  have e3 : reduces_S2x2048x256_S2x2048.lift (ix2 b t) κ = ix3 b t κ := funext fun a => Fin.ext (by
    match a with
    | ⟨0, _⟩ => rfl
    | ⟨1, _⟩ => rfl
    | ⟨2, _⟩ => rfl)
  rw [e3]
  rfl

/-- This tile's weighted values. -/
theorem pay12_at (q : Vec Ideal S2x2048x64 .bf16) (k : Vec Ideal S2x256x64 .bf16) (m : Vec Ideal S2x2048 .f32) (v : Vec Ideal S2x256x64 .bf16)
    (b : Fin 2) (t : Fin 2048) (e : Fin 64) :
    k3_pay12 (F := Ideal) q k m v (ix3 b t e) = ∑ κ : Fin 256, k3_pay10 (F := Ideal) q k m (ix3 b t κ) * v (ix3 b κ e) := by
  unfold k3_pay12
  refine (pv_at (φ₁ := .bf16) (φ₂ := .bf16) _ _ b t e).trans ?_
  refine Finset.sum_congr rfl fun κ _ => ?_
  exact congrArg₂ (· * ·) rfl (congrFun (shapeCast_self v _) _)

/-- The rescaling factor as a column. -/
theorem pay13_at (q : Vec Ideal S2x2048x64 .bf16) (k : Vec Ideal S2x256x64 .bf16) (m : Vec Ideal S2x2048 .f32) (b : Fin 2) (t : Fin 2048) :
    k3_pay13 (F := Ideal) q k m (ix3 b t 0) = k3_pay9 (F := Ideal) q k m (ix2 b t) := by
  unfold k3_pay13
  exact col_at _ b t

/-- The new running numerator from the rescaling column, the old numerator and this tile's weighted values. -/
theorem pay1_at (p12 : FVec Ideal S2x2048x64 .f32) (p13 : FVec Ideal S2x2048x1 .f32) (acc : Vec Ideal S2x2048x64 .f32)
    (b : Fin 2) (t : Fin 2048) (e : Fin 64) :
    k3_pay1 (F := Ideal) p12 p13 acc (ix3 b t e) = p13 (ix3 b t 0) * acc (ix3 b t e) + p12 (ix3 b t e) := by
  unfold k3_pay1
  refine (congrFun (shapeCast_self _ _) _).trans ?_
  show broadcastTo S2x2048x64 p13 broadcasts_S2x2048x1_S2x2048x64 (ix3 b t e) * acc (ix3 b t e) + p12 (ix3 b t e) = _
  rw [bcast64_at]

/-- The maximum is stored as it is. -/
theorem pay2_eq (x : FVec Ideal S2x2048 .f32) : k3_pay2 (F := Ideal) x = x := by
  unfold k3_pay2; exact shapeCast_self x _

/-- The normalised output: the numerator over the denominator. -/
theorem pay3_at (acc : Vec Ideal S2x2048x64 .f32) (l : Vec Ideal S2x2048 .f32) (b : Fin 2) (t : Fin 2048) (e : Fin 64) :
    k3_pay3 (F := Ideal) acc l (ix3 b t e) = Ideal.div (acc (ix3 b t e)) (l (ix2 b t)) := by
  unfold k3_pay3
  show Ideal.div (acc (ix3 b t e)) (broadcastTo S2x2048x64 (shapeCast S2x2048x1 l shapeCasts_S2x2048_S2x2048x1) broadcasts_S2x2048x1_S2x2048x64 (ix3 b t e)) = _
  rw [bcast64_at, col_at]

/-! ## The state before the first tile -/

theorem init_m (b : Fin 2) (t : Fin 2048) : (Attn.Scr.init (F := Ideal)).m (ix2 b t) = (⊥ : EReal) := by
  show k3_pay4 (F := Ideal) (ix2 b t) = _
  unfold k3_pay4
  exact (congrFun (shapeCast_self _ _) _).trans negInf_eq
theorem init_l (b : Fin 2) (t : Fin 2048) : (Attn.Scr.init (F := Ideal)).l (ix2 b t) = (0 : EReal) := by
  show k3_pay5 (F := Ideal) (ix2 b t) = _
  unfold k3_pay5
  exact (congrFun (shapeCast_self _ _) _).trans Ideal.ofBits_zero_f32
theorem init_acc (b : Fin 2) (t : Fin 2048) (e : Fin 64) : (Attn.Scr.init (F := Ideal)).acc (ix3 b t e) = (0 : EReal) := by
  show k3_pay6 (F := Ideal) (ix3 b t e) = _
  unfold k3_pay6
  exact (congrFun (shapeCast_self _ _) _).trans Ideal.ofBits_zero_f32

/-- Read at (b, t, e), the starting state is (−∞, 0, 0). -/
theorem init_at (b : Fin 2) (t : Fin 2048) (e : Fin 64) :
    ((Attn.Scr.init (F := Ideal)).m (ix2 b t), (Attn.Scr.init (F := Ideal)).l (ix2 b t), (Attn.Scr.init (F := Ideal)).acc (ix3 b t e))
      = ((⊥ : EReal), (0 : EReal), (0 : EReal)) := by
  rw [init_m, init_l, init_acc]

/-! ## One tile's update is one online-softmax step -/

variable (s : Attn.Scr Ideal) (q : Vec Ideal S2x2048x64 .bf16) (k v : Vec Ideal S2x256x64 .bf16) (b : Fin 2) (t : Fin 2048) (e : Fin 64)

theorem upd_m :
    (Attn.upd (F := Ideal) s q k v).m (ix2 b t)
      = (LibOnlineSoftmax.step (s.m (ix2 b t), s.l (ix2 b t), s.acc (ix3 b t e)) (scRow q k b t) (fun κ => v (ix3 b κ e))).1 := by
  show k3_pay2 (F := Ideal) (k3_pay8 (F := Ideal) q k s.m) (ix2 b t) = _
  rw [pay2_eq, pay8_at]
  rfl

theorem upd_l :
    (Attn.upd (F := Ideal) s q k v).l (ix2 b t)
      = (LibOnlineSoftmax.step (s.m (ix2 b t), s.l (ix2 b t), s.acc (ix3 b t e)) (scRow q k b t) (fun κ => v (ix3 b κ e))).2.1 := by
  show k3_pay11 (F := Ideal) q k s.m s.l (ix2 b t) = _
  rw [pay11_at, pay9_at, pay8_at]
  unfold LibOnlineSoftmax.step
  refine congrArg₂ (· + ·) rfl (Finset.sum_congr rfl fun κ _ => ?_)
  rw [pay10_at, pay8_at]

theorem upd_acc :
    (Attn.upd (F := Ideal) s q k v).acc (ix3 b t e)
      = (LibOnlineSoftmax.step (s.m (ix2 b t), s.l (ix2 b t), s.acc (ix3 b t e)) (scRow q k b t) (fun κ => v (ix3 b κ e))).2.2 := by
  show k3_pay1 (F := Ideal) (k3_pay12 (F := Ideal) q k s.m v) (k3_pay13 (F := Ideal) q k s.m) s.acc (ix3 b t e) = _
  rw [pay1_at, pay13_at, pay9_at, pay12_at, pay8_at]
  unfold LibOnlineSoftmax.step
  refine congrArg₂ (· + ·) rfl (Finset.sum_congr rfl fun κ _ => ?_)
  rw [pay10_at, pay8_at]

end Cert.KernelIdeal.AttnStep

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.SpecReal.lean ====
/-
  Real-valuedness through the first stages of the specification: projections of real arrays by real weights and
  biases are real, so are their head splits and the scaled scores. (The softmax's algebra — a real number minus itself,
  the exponential of a difference — holds for real numbers and can fail at an infinity.)
-/
import proofs.«147348_j2388001816882_2_alg».proof.Proof.Spec
import proofs.«147348_j2388001816882_2_alg».proof.Proof.LibRealValued

noncomputable section

namespace Cert.Spec

open Idealize.ShloMosaic Idealize.ShloMosaic.ValueIdx Cert.RealValued
open scoped BigOperators

/-- The scale 1/8 is a real number: its exponent field is not all ones. -/
theorem scale_real : IsReal scale := ieee_isReal 8 23 (0x3E000000#32 : BitVec 32) (by decide)

theorem projAt_real (x : Act) (w : Wt) (b : Bias) (hx : ∀ i, IsReal (x i)) (hw : ∀ i, IsReal (w i))
    (hb : ∀ i, IsReal (b i)) (n : Fin 2) (t : Fin 2048) (j : Fin 1024) : IsReal (projAt x w b n t j) :=
  (isReal_sum _ _ fun c _ => (hx _).mul (hw _)).add (hb _)

/-- A projection of a real array by real weights and a real bias is real. -/
theorem proj_real (x : Act) (w : Wt) (b : Bias) (hx : ∀ i, IsReal (x i)) (hw : ∀ i, IsReal (w i))
    (hb : ∀ i, IsReal (b i)) : ∀ i, IsReal (proj x w b i) :=
  fun i => projAt_real x w b hx hw hb (i 0) (i 1) (i 2)

theorem headsAt_real (y : Act) (hy : ∀ i, IsReal (y i)) (n : Fin 2) (h : Fin 16) (t : Fin 2048) (e : Fin 64) :
    IsReal (headsAt y n h t e) := hy _

/-- The head split of a real array is real. -/
theorem heads_real (y : Act) (hy : ∀ i, IsReal (y i)) : ∀ i, IsReal (heads y i) :=
  fun i => headsAt_real y hy (i 0) (i 1) (i 2) (i 3)

theorem scoresAt_real (q k : Hd) (hq : ∀ i, IsReal (q i)) (hk : ∀ i, IsReal (k i)) (n : Fin 2) (h : Fin 16)
    (t s : Fin 2048) : IsReal (scoresAt q k n h t s) :=
  (isReal_sum _ _ fun e _ => (hq _).mul (hk _)).mul scale_real

/-- The scaled scores of real queries and keys are real. -/
theorem scores_real (q k : Hd) (hq : ∀ i, IsReal (q i)) (hk : ∀ i, IsReal (k i)) : ∀ i, IsReal (scores q k i) :=
  fun i => scoresAt_real q k hq hk (i 0) (i 1) (i 2) (i 3)

end Cert.Spec

end
-- ==== Proof.IdealAttnMath.lean ====
import proofs.«147348_j2388001816882_2_alg».proof.Proof.IdealAttn
import proofs.«147348_j2388001816882_2_alg».proof.Proof.IdealAttnStep
import proofs.«147348_j2388001816882_2_alg».proof.Proof.LibOnlineSoftmax
import proofs.«147348_j2388001816882_2_alg».proof.Proof.LibRealValued
import proofs.«147348_j2388001816882_2_alg».proof.Proof.Spec
import proofs.«147348_j2388001816882_2_alg».proof.Proof.SpecReal

/-
  One (batch, head) pair's output row, from the kernel's eight key tiles to the specification.

  At a fixed query row and output lane the kernel's carried state (running maximum, denominator, numerator) is a triple of
  extended reals that starts at (−∞, 0, 0) and advances, key tile by key tile, by the online-softmax step over the tile's
  256 scaled scores and 256 values. When the query, key and value entries are real numbers the scores are real, so after
  the eight tiles numerator / denominator is the softmax-weighted sum of the 2048 values — the specification's
  `attend (weights (scores q k)) v` at that row and lane.
-/

set_option maxRecDepth 16384

noncomputable section

namespace Cert.KernelIdeal.AttnMath

open Cert.KernelIdeal Cert.KernelIdeal.Gen
open Idealize.ShloMosaic Idealize.ShloMosaic.TcCoe
open Idealize.ShloMosaic.ValueIdx
open Cert.RealValued (IsReal)

/-- Key position `256·j + κ` of tile `j`, entry `κ`. -/
def keyOf (j : Fin 8) (κ : Fin 256) : Fin 2048 := ⟨256 * j.val + κ.val, by have := j.isLt; have := κ.isLt; omega⟩

/-- The 2048 keys as 8 tiles of 256. -/
def keyEquiv : Fin (7 + 1) × Fin 256 ≃ Fin 2048 where
  toFun p := keyOf p.1 p.2
  invFun s := (⟨s.val / 256, by have := s.isLt; omega⟩, ⟨s.val % 256, Nat.mod_lt _ (by decide)⟩)
  left_inv p := by
    obtain ⟨⟨j, hj⟩, ⟨κ, hκ⟩⟩ := p
    simp only [keyOf, Prod.mk.injEq, Fin.mk.injEq]
    constructor <;> omega
  right_inv s := by
    apply Fin.ext
    simp only [keyOf]
    omega

variable (V : (c : Dev nD) → (b : Ref sig .tc) → Buf (Elt Ideal) ((c : Thread nD τ).loc b))

/-- The pair's state after `j` tiles read at row `(b, t)` and lane `e`. -/
def stAt (c : Dev nD) (g : Fin 16) (b : Fin 2) (t : Fin 2048) (e : Fin 64) (j : ℕ) : EReal × EReal × EReal :=
  if hj : j ≤ 8 then
    ((Attn.tiles V c g j hj).m (ix2 b t), (Attn.tiles V c g j hj).l (ix2 b t), (Attn.tiles V c g j hj).acc (ix3 b t e))
  else ((⊥ : EReal), (0 : EReal), (0 : EReal))

theorem stAt_zero (c : Dev nD) (g : Fin 16) (b : Fin 2) (t : Fin 2048) (e : Fin 64) :
    stAt V c g b t e 0 = ((⊥ : EReal), (0 : EReal), (0 : EReal)) := by
  unfold stAt
  rw [dif_pos (Nat.zero_le 8)]
  exact AttnStep.init_at b t e

/-- One tile advances the state by the online-softmax step over the tile's scaled scores and values. -/
theorem stAt_succ (c : Dev nD) (g : Fin 16) (b : Fin 2) (t : Fin 2048) (e : Fin 64) (j : ℕ) (hj : j < 8) :
    stAt V c g b t e (j + 1)
      = LibOnlineSoftmax.step (stAt V c g b t e j)
          (AttnStep.scRow (Attn.iblk V c 0 (Attn.pt g ⟨j, hj⟩)) (Attn.iblk V c 1 (Attn.pt g ⟨j, hj⟩)) b t)
          (fun κ => Attn.iblk V c 2 (Attn.pt g ⟨j, hj⟩) (ix3 b κ e)) := by
  unfold stAt
  rw [dif_pos (Nat.succ_le_of_lt hj), dif_pos (Nat.le_of_lt hj)]
  show ((Attn.step _ _ _ _ _).m _, (Attn.step _ _ _ _ _).l _, (Attn.step _ _ _ _ _).acc _) = _
  cases j with
  | zero =>
    rw [show decide (0 = 0) = true from rfl, Attn.step_true]
    refine Prod.ext ?_ (Prod.ext ?_ ?_)
    · exact AttnStep.upd_m _ _ _ _ b t e
    · exact AttnStep.upd_l _ _ _ _ b t e
    · exact AttnStep.upd_acc _ _ _ _ b t e
  | succ j =>
    rw [show decide (j + 1 = 0) = false from rfl, Attn.step_false]
    refine Prod.ext ?_ (Prod.ext ?_ ?_)
    · exact AttnStep.upd_m _ _ _ _ b t e
    · exact AttnStep.upd_l _ _ _ _ b t e
    · exact AttnStep.upd_acc _ _ _ _ b t e

/-- THE PAIR'S OUTPUT AT A ROW AND LANE. If the pair's query, key and value blocks are the rows of real-valued head arrays
    `Qh`, `Kh`, `Vh` at (batch `n`, head `h`), then after the eight tiles numerator over denominator is the specification's
    attention output there. -/
theorem tiles_quotient (c : Dev nD) (g : Fin 16) (b : Fin 2) (t : Fin 2048) (e : Fin 64)
    (Qh Kh Vh : Cert.Spec.Hd) (n : Fin 2) (h : Fin 16)
    (hq : ∀ (j : Fin 8) (d : Fin 64), Attn.iblk V c 0 (Attn.pt g j) (ix3 b t d) = Qh (ix4 n h t d))
    (hk : ∀ (j : Fin 8) (κ : Fin 256) (d : Fin 64), Attn.iblk V c 1 (Attn.pt g j) (ix3 b κ d) = Kh (ix4 n h (keyOf j κ) d))
    (hv : ∀ (j : Fin 8) (κ : Fin 256), Attn.iblk V c 2 (Attn.pt g j) (ix3 b κ e) = Vh (ix4 n h (keyOf j κ) e))
    (hQ : ∀ i, IsReal (Qh i)) (hK : ∀ i, IsReal (Kh i)) (hV : ∀ i, IsReal (Vh i)) :
    Ideal.div ((Attn.tiles V c g 8 (Nat.le_refl 8)).acc (ix3 b t e)) ((Attn.tiles V c g 8 (Nat.le_refl 8)).l (ix2 b t))
      = Cert.Spec.attendAt (Cert.Spec.weights (Cert.Spec.scores Qh Kh)) Vh n h t e := by
  -- the scores and the values of the row are real numbers
  have hscale : IsReal Cert.Spec.scale := Cert.Spec.scale_real
  have hS : ∀ s : Fin 2048, IsReal (Cert.Spec.scoresAt Qh Kh n h t s) := fun s =>
    IsReal.mul (Cert.RealValued.isReal_sum _ _ fun d _ => IsReal.mul (hQ _) (hK _)) hscale
  choose S hSe using hS
  choose Vr hVe using fun s : Fin 2048 => hV (ix4 n h s e)
  -- the row's maximum is a real number
  obtain ⟨R, hR⟩ : ∃ R : ℝ, Cert.Spec.rowMaxAt (Cert.Spec.scores Qh Kh) n h t = (R : EReal) := by
    obtain ⟨R, hR⟩ := LibOnlineSoftmax.fold_max_real (κ := Fin 2048) S
    refine ⟨R, ?_⟩
    unfold Cert.Spec.rowMaxAt
    have hbot : Cert.Spec.negInf = (⊥ : EReal) := by simp [Cert.Spec.negInf, Ideal.ofBits, Ideal.ieee]
    rw [hbot, show (fun s' : Fin 2048 => Cert.Spec.scores Qh Kh (ix4 n h t s')) = fun s' => ((S s' : ℝ) : EReal) from
      funext fun s' => (Cert.Spec.scores_ix Qh Kh n h t s').trans (hSe s'), hR]
    exact max_eq_right bot_le
  -- the kernel's state sequence meets the tiled form
  have key := LibOnlineSoftmax.tiled_eq_onepass (κ := Fin 256) 7 keyEquiv S Vr R (stAt V c g b t e) (stAt_zero V c g b t e)
    (fun j hj => by
      rw [stAt_succ V c g b t e j hj]
      congr 1
      · funext κ
        unfold AttnStep.scRow
        rw [← hSe (keyEquiv (⟨j, hj⟩, κ))]
        unfold Cert.Spec.scoresAt
        congr 1
        refine Finset.sum_congr rfl fun d _ => ?_
        rw [hq ⟨j, hj⟩ d, hk ⟨j, hj⟩ κ d]
        rfl
      · funext κ
        rw [hv ⟨j, hj⟩ κ, ← hVe (keyEquiv (⟨j, hj⟩, κ))]
        rfl)
  have h8 : stAt V c g b t e (7 + 1) = ((Attn.tiles V c g 8 (Nat.le_refl 8)).m (ix2 b t), (Attn.tiles V c g 8 (Nat.le_refl 8)).l (ix2 b t), (Attn.tiles V c g 8 (Nat.le_refl 8)).acc (ix3 b t e)) := by
    unfold stAt; rw [dif_pos (Nat.le_refl 8)]
  rw [h8] at key
  rw [key]
  -- and the one-pass form is the specification's
  unfold Cert.Spec.attendAt
  refine Finset.sum_congr rfl fun s _ => ?_
  rw [Cert.Spec.weights_ix]
  unfold Cert.Spec.weightsAt Cert.Spec.rowSumAt Cert.Spec.expAt
  simp only [Cert.Spec.scores_ix, hSe, hVe, hR]

end Cert.KernelIdeal.AttnMath

end
-- ==== Proof.IdealLinValue.lean ====
import proofs.«147348_j2388001816882_2_alg».proof.Proof.IdealLin0
import proofs.«147348_j2388001816882_2_alg».proof.Proof.IdealLin1
import proofs.«147348_j2388001816882_2_alg».proof.Proof.IdealLin2
import proofs.«147348_j2388001816882_2_alg».proof.Proof.IdealLin4
import Idealize.ShloMosaic.Lib.Pipeline.Value
import Idealize.ShloMosaic.Lib.ValueIdx
import Idealize.ShloMosaic.PureOps.Ideal.Laws

/-! # The linear projections as functions of whole arrays, in exact arithmetic

In exact (extended-real) arithmetic every rounding of the body is the identity, so the block a grid
point writes is the matrix product of its block of rows with the weight matrix, plus the bias row.
Block row `r` of point `t` is array row `512·t + r`, the eight blocks tile the 4096 rows, and the
array after the region is therefore `x · W + b` as one function of the entry contents. -/

set_option maxRecDepth 16384

noncomputable section

namespace Cert.KernelIdeal.LinValue

open Cert.KernelIdeal Cert.KernelIdeal.Gen
open Idealize.ShloMosaic Idealize.ShloMosaic.TcCoe Idealize.SL.Sem
open Idealize.ShloMosaic.Pipeline (Dat)
open Idealize.ShloMosaic.ValueIdx (ix2 eq_ix2)

/-! ## The contraction's operand indices: output (r, j), position k ↦ left (r, k), right (k, j) -/

theorem lhs_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product into a zero accumulator, read at (r, j): row r of the left operand against
    column j of the right one. -/
theorem matmul_at {φ₁ φ₂ : FTy} (a : FVec Ideal S512x1024 φ₁) (b : FVec Ideal S1024x1024 φ₂) (r : Fin 512) (j : Fin 1024) :
    matmul dot_S512x1024_S1024x1024_S512x1024_1_0_0_1_n_n none a b (constant (F := Ideal) S512x1024 .f32 0x00000000#32) (ix2 r j) = ∑ k : Fin 1024, a (ix2 r k) * b (ix2 k j) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r j) ((ValueIdx.contrEquiv1 dot_S512x1024_S1024x1024_S512x1024_1_0_0_1_n_n 1024 rfl rfl).symm k) = ix2 r k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 r j) ((ValueIdx.contrEquiv1 dot_S512x1024_S1024x1024_S512x1024_1_0_0_1_n_n 1024 rfl rfl).symm k) = ix2 k j := funext fun a => Fin.ext (by
    match a with
    | ⟨0, _⟩ => exact (rhs_0 _ _).trans hk
    | ⟨1, _⟩ => exact rhs_1 _ _)
  rw [el, er]

/-- The bias row broadcast down the block, read at (r, j): the bias at column j. -/
theorem bias_at (x2 : Vec Ideal S1x1024 .f32) (r : Fin 512) (j : Fin 1024) :
    broadcastTo S512x1024 (shapeCast S1x1024 x2 shapeCasts_S1x1024_S1x1024) broadcasts_S1x1024_S512x1024 (ix2 r j) = x2 (ix2 0 j) := by
  refine (broadcastTo_apply _ broadcasts_S1x1024_S512x1024 (ix2 r j) (ix2 0 j) (fun a => ?_)).trans (congrFun (shapeCast_self x2 _) _)
  match a with
  | ⟨0, _⟩ => show 0 = if (1 : Nat) = 1 then 0 else _; rw [if_pos rfl]
  | ⟨1, _⟩ => show j.val = if (1024 : Nat) = 1 then 0 else _; rw [if_neg (by decide)]; rfl

/-- Projection 0's payload at (r, j), in exact arithmetic: the roundings drop out. -/
theorem pay0_at (x0 : Vec Ideal S512x1024 .f32) (x1 : Vec Ideal S1024x1024 .f32) (x2 : Vec Ideal S1x1024 .f32) (r : Fin 512) (j : Fin 1024) :
    k0_pay1 (F := Ideal) x0 x1 x2 (ix2 r j) = (∑ k : Fin 1024, (x0 (ix2 r k) : EReal) * x1 (ix2 k j)) + x2 (ix2 0 j) := by
  unfold k0_pay1
  refine (ValueIdx.truncf_apply (s := S512x1024) (φ := .f32) (ψ := .bf16) _ bitsLt_bf16_f32 (ix2 r j)).trans ?_
  refine (ValueIdx.addf_apply (s := S512x1024) (φ := .f32) _ _ (ix2 r j)).trans ?_
  refine congrArg₂ (· + ·) ?_ (bias_at x2 r j)
  refine (matmul_at (φ₁ := .bf16) (φ₂ := .bf16) _ _ r j).trans ?_
  refine Finset.sum_congr rfl fun k _ => ?_
  exact congrArg₂ (· * ·) (congrFun (shapeCast_self x0 _) _) rfl

/-- Projection 1's payload at (r, j), in exact arithmetic: the roundings drop out. -/
theorem pay1_at (x0 : Vec Ideal S512x1024 .f32) (x1 : Vec Ideal S1024x1024 .f32) (x2 : Vec Ideal S1x1024 .f32) (r : Fin 512) (j : Fin 1024) :
    k1_pay1 (F := Ideal) x0 x1 x2 (ix2 r j) = (∑ k : Fin 1024, (x0 (ix2 r k) : EReal) * x1 (ix2 k j)) + x2 (ix2 0 j) := by
  unfold k1_pay1
  refine (ValueIdx.truncf_apply (s := S512x1024) (φ := .f32) (ψ := .bf16) _ bitsLt_bf16_f32 (ix2 r j)).trans ?_
  refine (ValueIdx.addf_apply (s := S512x1024) (φ := .f32) _ _ (ix2 r j)).trans ?_
  refine congrArg₂ (· + ·) ?_ (bias_at x2 r j)
  refine (matmul_at (φ₁ := .bf16) (φ₂ := .bf16) _ _ r j).trans ?_
  refine Finset.sum_congr rfl fun k _ => ?_
  exact congrArg₂ (· * ·) (congrFun (shapeCast_self x0 _) _) rfl

/-- Projection 2's payload at (r, j), in exact arithmetic: the roundings drop out. -/
theorem pay2_at (x0 : Vec Ideal S512x1024 .f32) (x1 : Vec Ideal S1024x1024 .f32) (x2 : Vec Ideal S1x1024 .f32) (r : Fin 512) (j : Fin 1024) :
    k2_pay1 (F := Ideal) x0 x1 x2 (ix2 r j) = (∑ k : Fin 1024, (x0 (ix2 r k) : EReal) * x1 (ix2 k j)) + x2 (ix2 0 j) := by
  unfold k2_pay1
  refine (ValueIdx.truncf_apply (s := S512x1024) (φ := .f32) (ψ := .bf16) _ bitsLt_bf16_f32 (ix2 r j)).trans ?_
  refine (ValueIdx.addf_apply (s := S512x1024) (φ := .f32) _ _ (ix2 r j)).trans ?_
  refine congrArg₂ (· + ·) ?_ (bias_at x2 r j)
  refine (matmul_at (φ₁ := .bf16) (φ₂ := .bf16) _ _ r j).trans ?_
  refine Finset.sum_congr rfl fun k _ => ?_
  exact congrArg₂ (· * ·) (congrFun (shapeCast_self x0 _) _) rfl

/-- Projection 4's payload at (r, j), in exact arithmetic: the roundings drop out. -/
theorem pay4_at (x0 : Vec Ideal S512x1024 .bf16) (x1 : Vec Ideal S1024x1024 .f32) (x2 : Vec Ideal S1x1024 .f32) (r : Fin 512) (j : Fin 1024) :
    k4_pay1 (F := Ideal) x0 x1 x2 (ix2 r j) = (∑ k : Fin 1024, (x0 (ix2 r k) : EReal) * x1 (ix2 k j)) + x2 (ix2 0 j) := by
  unfold k4_pay1
  refine (ValueIdx.addf_apply (s := S512x1024) (φ := .f32) _ _ (ix2 r j)).trans ?_
  refine congrArg₂ (· + ·) ?_ (bias_at x2 r j)
  refine (matmul_at (φ₁ := .bf16) (φ₂ := .bf16) _ _ r j).trans ?_
  refine Finset.sum_congr rfl fun k _ => ?_
  exact congrArg₂ (· * ·) (congrFun (shapeCast_self x0 _) _) rfl

/-! ## The projection as one function of whole arrays -/

/-- `x · W + b` at row `i 0` and column `i 1`. -/
def G (X : S4096x1024.Idx → EReal) (W : S1024x1024.Idx → EReal) (B : S1x1024.Idx → EReal) : S4096x1024.Idx → EReal :=
  fun i => (∑ k : Fin 1024, X (ix2 (n0 := 4096) (n1 := 1024) (i 0) k) * W (ix2 (n0 := 1024) (n1 := 1024) k (i 1)))
    + B (ix2 (n0 := 1) (n1 := 1024) 0 (i 1))

theorem G_apply (X : S4096x1024.Idx → EReal) (W : S1024x1024.Idx → EReal) (B : S1x1024.Idx → EReal) (i : S4096x1024.Idx) :
    G X W B i = (∑ k : Fin 1024, X (ix2 (n0 := 4096) (n1 := 1024) (i 0) k) * W (ix2 (n0 := 1024) (n1 := 1024) k (i 1)))
      + B (ix2 (n0 := 1) (n1 := 1024) 0 (i 1)) := rfl

theorem hz : (![0, 0] : Fin 2 → Nat) = fun _ => 0 := funext fun a => by fin_cases a <;> rfl

-- the core's buffer contents when a region is entered: the parameter every region's value is stated at
variable (V : (c : Dev nD) → (b : Ref sig .tc) → Buf (Elt Ideal) ((c : Thread nD τ).loc b))

/-! ## Projection 0: from blocks to the array -/

/-- A block's payload is the block of `G`: when the `x` block holds rows `512·q …` of `X` and the weight and
    bias blocks hold all of `W` and `B`, the payload at block index `y` is `G X W B` at row `512·q + y 0`,
    column `y 1`. -/
theorem block_value0 (X : S4096x1024.Idx → EReal) (W : S1024x1024.Idx → EReal) (B : S1x1024.Idx → EReal) (q : ℕ)
    (x0 : Vec Ideal S512x1024 .f32) (x1 : Vec Ideal S1024x1024 .f32) (x2 : Vec Ideal S1x1024 .f32)
    (h0 : ∀ (y' : S512x1024.Idx) (i' : S4096x1024.Idx), (i' 0).val = q * 512 + (y' 0).val → (i' 1).val = (y' 1).val → x0 y' = X i')
    (h1 : ∀ y', x1 y' = W y') (h2 : ∀ y', x2 y' = B y')
    (y : S512x1024.Idx) (i : S4096x1024.Idx) (hi0 : (i 0).val = q * 512 + (y 0).val) (hi1 : (i 1).val = (y 1).val) :
    k0_pay1 (F := Ideal) x0 x1 x2 y = G X W B i := by
  rw [eq_ix2 y]
  refine (pay0_at x0 x1 x2 (y 0) (y 1)).trans ?_
  have c1 : (y 1 : Fin 1024) = i 1 := Fin.ext hi1.symm
  rw [G_apply, ← c1]
  refine congrArg₂ (· + ·) (Finset.sum_congr rfl fun k _ => congrArg₂ (· * ·) ?_ (h1 _)) (h2 _)
  exact h0 _ _ hi0 rfl

/-- The printed index maps over the grid: the `x` and output blocks are block `t` of the rows, the weight and the
    bias are block 0 at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G` of the arrays as the region finds them. -/
theorem flushed0_eq (c : Dev nD) (t : Fin cfg0.N) :
    (Lin0.dat (F := Ideal) V c).flushed 3 t
      = ((cfg0.win 3).blk t).view.read (Elt Ideal) (G (V c main_v0) (V c main_arg3) (V c main_v3)) := by
  show (cfg0.win 3).cut (grid0.coords t) ((Lin0.dat (F := Ideal) V c).after 3 t) = _
  rw [Lin0.after_3]
  unfold Lin0.out3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts0 t
  funext y
  show k0_pay1 (F := Ideal) (Lin0.iblk V c 0 t) (Lin0.iblk V c 1 t) (Lin0.iblk V c 2 t) y
    = G (V c main_v0) (V c main_arg3) (V c main_v3) (((cfg0.win 3).blk t).view.emb y)
  refine block_value0 (V c main_v0) (V c main_arg3) (V c main_v3) t.val (Lin0.iblk V c 0 t) (Lin0.iblk V c 1 t) (Lin0.iblk V c 2 t)
    ?_ ?_ ?_ y (((cfg0.win 3).blk t).view.emb y) ?_ ?_
  · intro y' i' a0 a1
    show V c main_v0 (((cfg0.win 0).blk t).view.emb y') = V c main_v0 i'
    have e : ((cfg0.win 0).blk t).view.emb y' = i' := by
      funext a; apply Fin.ext
      match a with
      | ⟨0, _⟩ => show win0_0.index t (0 : Fin 2) * 512 + 1 * (y' 0).val = (i' 0).val; omega
      | ⟨1, _⟩ => show win0_0.index t (1 : Fin 2) * 1024 + 1 * (y' 1).val = (i' 1).val; omega
    rw [e]
  · intro y'
    show V c main_arg3 (((cfg0.win 1).blk t).view.emb y') = V c main_arg3 y'
    have e : ((cfg0.win 1).blk t).view.emb y' = y' := by
      funext a; apply Fin.ext
      match a with
      | ⟨0, _⟩ => show win0_1.index t (0 : Fin 2) * 1024 + 1 * (y' 0).val = (y' 0).val; omega
      | ⟨1, _⟩ => show win0_1.index t (1 : Fin 2) * 1024 + 1 * (y' 1).val = (y' 1).val; omega
    rw [e]
  · intro y'
    show V c main_v3 (((cfg0.win 2).blk t).view.emb y') = V c main_v3 y'
    have e : ((cfg0.win 2).blk t).view.emb y' = y' := by
      funext a; apply Fin.ext
      match a with
      | ⟨0, _⟩ => show win0_2.index t (0 : Fin 2) * 1 + 1 * (y' 0).val = (y' 0).val; omega
      | ⟨1, _⟩ => show win0_2.index t (1 : Fin 2) * 1024 + 1 * (y' 1).val = (y' 1).val; omega
    rw [e]
  · show win0_3.index t (0 : Fin 2) * 512 + 1 * (y 0).val = t.val * 512 + (y 0).val; omega
  · show win0_3.index t (1 : Fin 2) * 1024 + 1 * (y 1).val = (y 1).val; omega

/-- An index of the output array is in point `t`'s block iff each coordinate is in the block's range. -/
theorem mem_blk0 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v4).slice (win0_3.rect t)).set ↔ _
  rw [View.set_slice_whole, Rect.mem_set_unit]
  exact Iff.rfl

/-- Row `r` of the array is in the block of point `r / 512`: the eight blocks cover the array. -/
theorem cover0 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after region 0: `x · W + b` of the arrays as the region finds them, at every index. -/
theorem final0 (c : Dev nD) :
    (Lin0.dat (F := Ideal) V c).arrAt 3 cfg0.N = G (V c main_v0) (V c main_arg3) (V c main_v3) :=
  (Lin0.dat (F := Ideal) V c).arrAt_eq_of_cover 3 (G (V c main_v0) (V c main_arg3) (V c main_v3)) (fun t _ => flushed0_eq V c t) (cover0)

/-! ## Projection 1: from blocks to the array -/

/-- A block's payload is the block of `G`: when the `x` block holds rows `512·q …` of `X` and the weight and
    bias blocks hold all of `W` and `B`, the payload at block index `y` is `G X W B` at row `512·q + y 0`,
    column `y 1`. -/
theorem block_value1 (X : S4096x1024.Idx → EReal) (W : S1024x1024.Idx → EReal) (B : S1x1024.Idx → EReal) (q : ℕ)
    (x0 : Vec Ideal S512x1024 .f32) (x1 : Vec Ideal S1024x1024 .f32) (x2 : Vec Ideal S1x1024 .f32)
    (h0 : ∀ (y' : S512x1024.Idx) (i' : S4096x1024.Idx), (i' 0).val = q * 512 + (y' 0).val → (i' 1).val = (y' 1).val → x0 y' = X i')
    (h1 : ∀ y', x1 y' = W y') (h2 : ∀ y', x2 y' = B y')
    (y : S512x1024.Idx) (i : S4096x1024.Idx) (hi0 : (i 0).val = q * 512 + (y 0).val) (hi1 : (i 1).val = (y 1).val) :
    k1_pay1 (F := Ideal) x0 x1 x2 y = G X W B i := by
  rw [eq_ix2 y]
  refine (pay1_at x0 x1 x2 (y 0) (y 1)).trans ?_
  have c1 : (y 1 : Fin 1024) = i 1 := Fin.ext hi1.symm
  rw [G_apply, ← c1]
  refine congrArg₂ (· + ·) (Finset.sum_congr rfl fun k _ => congrArg₂ (· * ·) ?_ (h1 _)) (h2 _)
  exact h0 _ _ hi0 rfl

/-- The printed index maps over the grid: the `x` and output blocks are block `t` of the rows, the weight and the
    bias are block 0 at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `G` of the arrays as the region finds them. -/
theorem flushed1_eq (c : Dev nD) (t : Fin cfg1.N) :
    (Lin1.dat (F := Ideal) V c).flushed 3 t
      = ((cfg1.win 3).blk t).view.read (Elt Ideal) (G (V c main_v1) (V c main_arg5) (V c main_v5)) := by
  show (cfg1.win 3).cut (grid1.coords t) ((Lin1.dat (F := Ideal) V c).after 3 t) = _
  rw [Lin1.after_3]
  unfold Lin1.out3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts1 t
  funext y
  show k1_pay1 (F := Ideal) (Lin1.iblk V c 0 t) (Lin1.iblk V c 1 t) (Lin1.iblk V c 2 t) y
    = G (V c main_v1) (V c main_arg5) (V c main_v5) (((cfg1.win 3).blk t).view.emb y)
  refine block_value1 (V c main_v1) (V c main_arg5) (V c main_v5) t.val (Lin1.iblk V c 0 t) (Lin1.iblk V c 1 t) (Lin1.iblk V c 2 t)
    ?_ ?_ ?_ y (((cfg1.win 3).blk t).view.emb y) ?_ ?_
  · intro y' i' a0 a1
    show V c main_v1 (((cfg1.win 0).blk t).view.emb y') = V c main_v1 i'
    have e : ((cfg1.win 0).blk t).view.emb y' = i' := by
      funext a; apply Fin.ext
      match a with
      | ⟨0, _⟩ => show win1_0.index t (0 : Fin 2) * 512 + 1 * (y' 0).val = (i' 0).val; omega
      | ⟨1, _⟩ => show win1_0.index t (1 : Fin 2) * 1024 + 1 * (y' 1).val = (i' 1).val; omega
    rw [e]
  · intro y'
    show V c main_arg5 (((cfg1.win 1).blk t).view.emb y') = V c main_arg5 y'
    have e : ((cfg1.win 1).blk t).view.emb y' = y' := by
      funext a; apply Fin.ext
      match a with
      | ⟨0, _⟩ => show win1_1.index t (0 : Fin 2) * 1024 + 1 * (y' 0).val = (y' 0).val; omega
      | ⟨1, _⟩ => show win1_1.index t (1 : Fin 2) * 1024 + 1 * (y' 1).val = (y' 1).val; omega
    rw [e]
  · intro y'
    show V c main_v5 (((cfg1.win 2).blk t).view.emb y') = V c main_v5 y'
    have e : ((cfg1.win 2).blk t).view.emb y' = y' := by
      funext a; apply Fin.ext
      match a with
      | ⟨0, _⟩ => show win1_2.index t (0 : Fin 2) * 1 + 1 * (y' 0).val = (y' 0).val; omega
      | ⟨1, _⟩ => show win1_2.index t (1 : Fin 2) * 1024 + 1 * (y' 1).val = (y' 1).val; omega
    rw [e]
  · show win1_3.index t (0 : Fin 2) * 512 + 1 * (y 0).val = t.val * 512 + (y 0).val; omega
  · show win1_3.index t (1 : Fin 2) * 1024 + 1 * (y 1).val = (y 1).val; omega

/-- An index of the output array is in point `t`'s block iff each coordinate is in the block's range. -/
theorem mem_blk1 (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v6).slice (win1_3.rect t)).set ↔ _
  rw [View.set_slice_whole, Rect.mem_set_unit]
  exact Iff.rfl

/-- Row `r` of the array is in the block of point `r / 512`: the eight blocks cover the array. -/
theorem cover1 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ : ∃ t : Fin cfg1.N, t.val = (i 0).val / 512 :=
    ⟨⟨(i 0).val / 512, by show (i 0).val / 512 < grid1.N; rw [N_1]; omega⟩, rfl⟩
  obtain ⟨-, -, -, -, -, -, e6, e7⟩ := idx_facts1 t
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE ARRAY after region 1: `x · W + b` of the arrays as the region finds them, at every index. -/
theorem final1 (c : Dev nD) :
    (Lin1.dat (F := Ideal) V c).arrAt 3 cfg1.N = G (V c main_v1) (V c main_arg5) (V c main_v5) :=
  (Lin1.dat (F := Ideal) V c).arrAt_eq_of_cover 3 (G (V c main_v1) (V c main_arg5) (V c main_v5)) (fun t _ => flushed1_eq V c t) (cover1)

/-! ## Projection 2: from blocks to the array -/

/-- A block's payload is the block of `G`: when the `x` block holds rows `512·q …` of `X` and the weight and
    bias blocks hold all of `W` and `B`, the payload at block index `y` is `G X W B` at row `512·q + y 0`,
    column `y 1`. -/
theorem block_value2 (X : S4096x1024.Idx → EReal) (W : S1024x1024.Idx → EReal) (B : S1x1024.Idx → EReal) (q : ℕ)
    (x0 : Vec Ideal S512x1024 .f32) (x1 : Vec Ideal S1024x1024 .f32) (x2 : Vec Ideal S1x1024 .f32)
    (h0 : ∀ (y' : S512x1024.Idx) (i' : S4096x1024.Idx), (i' 0).val = q * 512 + (y' 0).val → (i' 1).val = (y' 1).val → x0 y' = X i')
    (h1 : ∀ y', x1 y' = W y') (h2 : ∀ y', x2 y' = B y')
    (y : S512x1024.Idx) (i : S4096x1024.Idx) (hi0 : (i 0).val = q * 512 + (y 0).val) (hi1 : (i 1).val = (y 1).val) :
    k2_pay1 (F := Ideal) x0 x1 x2 y = G X W B i := by
  rw [eq_ix2 y]
  refine (pay2_at x0 x1 x2 (y 0) (y 1)).trans ?_
  have c1 : (y 1 : Fin 1024) = i 1 := Fin.ext hi1.symm
  rw [G_apply, ← c1]
  refine congrArg₂ (· + ·) (Finset.sum_congr rfl fun k _ => congrArg₂ (· * ·) ?_ (h1 _)) (h2 _)
  exact h0 _ _ hi0 rfl

/-- The printed index maps over the grid: the `x` and output blocks are block `t` of the rows, the weight and the
    bias are block 0 at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G` of the arrays as the region finds them. -/
theorem flushed2_eq (c : Dev nD) (t : Fin cfg2.N) :
    (Lin2.dat (F := Ideal) V c).flushed 3 t
      = ((cfg2.win 3).blk t).view.read (Elt Ideal) (G (V c main_v2) (V c main_arg7) (V c main_v7)) := by
  show (cfg2.win 3).cut (grid2.coords t) ((Lin2.dat (F := Ideal) V c).after 3 t) = _
  rw [Lin2.after_3]
  unfold Lin2.out3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts2 t
  funext y
  show k2_pay1 (F := Ideal) (Lin2.iblk V c 0 t) (Lin2.iblk V c 1 t) (Lin2.iblk V c 2 t) y
    = G (V c main_v2) (V c main_arg7) (V c main_v7) (((cfg2.win 3).blk t).view.emb y)
  refine block_value2 (V c main_v2) (V c main_arg7) (V c main_v7) t.val (Lin2.iblk V c 0 t) (Lin2.iblk V c 1 t) (Lin2.iblk V c 2 t)
    ?_ ?_ ?_ y (((cfg2.win 3).blk t).view.emb y) ?_ ?_
  · intro y' i' a0 a1
    show V c main_v2 (((cfg2.win 0).blk t).view.emb y') = V c main_v2 i'
    have e : ((cfg2.win 0).blk t).view.emb y' = i' := by
      funext a; apply Fin.ext
      match a with
      | ⟨0, _⟩ => show win2_0.index t (0 : Fin 2) * 512 + 1 * (y' 0).val = (i' 0).val; omega
      | ⟨1, _⟩ => show win2_0.index t (1 : Fin 2) * 1024 + 1 * (y' 1).val = (i' 1).val; omega
    rw [e]
  · intro y'
    show V c main_arg7 (((cfg2.win 1).blk t).view.emb y') = V c main_arg7 y'
    have e : ((cfg2.win 1).blk t).view.emb y' = y' := by
      funext a; apply Fin.ext
      match a with
      | ⟨0, _⟩ => show win2_1.index t (0 : Fin 2) * 1024 + 1 * (y' 0).val = (y' 0).val; omega
      | ⟨1, _⟩ => show win2_1.index t (1 : Fin 2) * 1024 + 1 * (y' 1).val = (y' 1).val; omega
    rw [e]
  · intro y'
    show V c main_v7 (((cfg2.win 2).blk t).view.emb y') = V c main_v7 y'
    have e : ((cfg2.win 2).blk t).view.emb y' = y' := by
      funext a; apply Fin.ext
      match a with
      | ⟨0, _⟩ => show win2_2.index t (0 : Fin 2) * 1 + 1 * (y' 0).val = (y' 0).val; omega
      | ⟨1, _⟩ => show win2_2.index t (1 : Fin 2) * 1024 + 1 * (y' 1).val = (y' 1).val; omega
    rw [e]
  · show win2_3.index t (0 : Fin 2) * 512 + 1 * (y 0).val = t.val * 512 + (y 0).val; omega
  · show win2_3.index t (1 : Fin 2) * 1024 + 1 * (y 1).val = (y 1).val; omega

/-- An index of the output array is in point `t`'s block iff each coordinate is in the block's range. -/
theorem mem_blk2 (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v8).slice (win2_3.rect t)).set ↔ _
  rw [View.set_slice_whole, Rect.mem_set_unit]
  exact Iff.rfl

/-- Row `r` of the array is in the block of point `r / 512`: the eight blocks cover the array. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ : ∃ t : Fin cfg2.N, t.val = (i 0).val / 512 :=
    ⟨⟨(i 0).val / 512, by show (i 0).val / 512 < grid2.N; rw [N_2]; omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE ARRAY after region 2: `x · W + b` of the arrays as the region finds them, at every index. -/
theorem final2 (c : Dev nD) :
    (Lin2.dat (F := Ideal) V c).arrAt 3 cfg2.N = G (V c main_v2) (V c main_arg7) (V c main_v7) :=
  (Lin2.dat (F := Ideal) V c).arrAt_eq_of_cover 3 (G (V c main_v2) (V c main_arg7) (V c main_v7)) (fun t _ => flushed2_eq V c t) (cover2)

/-! ## Projection 4: from blocks to the array -/

/-- A block's payload is the block of `G`: when the `x` block holds rows `512·q …` of `X` and the weight and
    bias blocks hold all of `W` and `B`, the payload at block index `y` is `G X W B` at row `512·q + y 0`,
    column `y 1`. -/
theorem block_value4 (X : S4096x1024.Idx → EReal) (W : S1024x1024.Idx → EReal) (B : S1x1024.Idx → EReal) (q : ℕ)
    (x0 : Vec Ideal S512x1024 .bf16) (x1 : Vec Ideal S1024x1024 .f32) (x2 : Vec Ideal S1x1024 .f32)
    (h0 : ∀ (y' : S512x1024.Idx) (i' : S4096x1024.Idx), (i' 0).val = q * 512 + (y' 0).val → (i' 1).val = (y' 1).val → x0 y' = X i')
    (h1 : ∀ y', x1 y' = W y') (h2 : ∀ y', x2 y' = B y')
    (y : S512x1024.Idx) (i : S4096x1024.Idx) (hi0 : (i 0).val = q * 512 + (y 0).val) (hi1 : (i 1).val = (y 1).val) :
    k4_pay1 (F := Ideal) x0 x1 x2 y = G X W B i := by
  rw [eq_ix2 y]
  refine (pay4_at x0 x1 x2 (y 0) (y 1)).trans ?_
  have c1 : (y 1 : Fin 1024) = i 1 := Fin.ext hi1.symm
  rw [G_apply, ← c1]
  refine congrArg₂ (· + ·) (Finset.sum_congr rfl fun k _ => congrArg₂ (· * ·) ?_ (h1 _)) (h2 _)
  exact h0 _ _ hi0 rfl

/-- The printed index maps over the grid: the `x` and output blocks are block `t` of the rows, the weight and the
    bias are block 0 at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of `G` of the arrays as the region finds them. -/
theorem flushed4_eq (c : Dev nD) (t : Fin cfg4.N) :
    (Lin4.dat (F := Ideal) V c).flushed 3 t
      = ((cfg4.win 3).blk t).view.read (Elt Ideal) (G (V c main_v21) (V c main_arg9) (V c main_v22)) := by
  show (cfg4.win 3).cut (grid4.coords t) ((Lin4.dat (F := Ideal) V c).after 3 t) = _
  rw [Lin4.after_3]
  unfold Lin4.out3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts4 t
  funext y
  show k4_pay1 (F := Ideal) (Lin4.iblk V c 0 t) (Lin4.iblk V c 1 t) (Lin4.iblk V c 2 t) y
    = G (V c main_v21) (V c main_arg9) (V c main_v22) (((cfg4.win 3).blk t).view.emb y)
  refine block_value4 (V c main_v21) (V c main_arg9) (V c main_v22) t.val (Lin4.iblk V c 0 t) (Lin4.iblk V c 1 t) (Lin4.iblk V c 2 t)
    ?_ ?_ ?_ y (((cfg4.win 3).blk t).view.emb y) ?_ ?_
  · intro y' i' a0 a1
    show V c main_v21 (((cfg4.win 0).blk t).view.emb y') = V c main_v21 i'
    have e : ((cfg4.win 0).blk t).view.emb y' = i' := by
      funext a; apply Fin.ext
      match a with
      | ⟨0, _⟩ => show win4_0.index t (0 : Fin 2) * 512 + 1 * (y' 0).val = (i' 0).val; omega
      | ⟨1, _⟩ => show win4_0.index t (1 : Fin 2) * 1024 + 1 * (y' 1).val = (i' 1).val; omega
    rw [e]
  · intro y'
    show V c main_arg9 (((cfg4.win 1).blk t).view.emb y') = V c main_arg9 y'
    have e : ((cfg4.win 1).blk t).view.emb y' = y' := by
      funext a; apply Fin.ext
      match a with
      | ⟨0, _⟩ => show win4_1.index t (0 : Fin 2) * 1024 + 1 * (y' 0).val = (y' 0).val; omega
      | ⟨1, _⟩ => show win4_1.index t (1 : Fin 2) * 1024 + 1 * (y' 1).val = (y' 1).val; omega
    rw [e]
  · intro y'
    show V c main_v22 (((cfg4.win 2).blk t).view.emb y') = V c main_v22 y'
    have e : ((cfg4.win 2).blk t).view.emb y' = y' := by
      funext a; apply Fin.ext
      match a with
      | ⟨0, _⟩ => show win4_2.index t (0 : Fin 2) * 1 + 1 * (y' 0).val = (y' 0).val; omega
      | ⟨1, _⟩ => show win4_2.index t (1 : Fin 2) * 1024 + 1 * (y' 1).val = (y' 1).val; omega
    rw [e]
  · show win4_3.index t (0 : Fin 2) * 512 + 1 * (y 0).val = t.val * 512 + (y 0).val; omega
  · show win4_3.index t (1 : Fin 2) * 1024 + 1 * (y 1).val = (y 1).val; omega

/-- An index of the output array is in point `t`'s block iff each coordinate is in the block's range. -/
theorem mem_blk4 (t : Fin cfg4.N) (i : S4096x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v23).slice (win4_3.rect t)).set ↔ _
  rw [View.set_slice_whole, Rect.mem_set_unit]
  exact Iff.rfl

/-- Row `r` of the array is in the block of point `r / 512`: the eight blocks cover the array. -/
theorem cover4 (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ : ∃ t : Fin cfg4.N, t.val = (i 0).val / 512 :=
    ⟨⟨(i 0).val / 512, by show (i 0).val / 512 < grid4.N; rw [N_4]; omega⟩, rfl⟩
  obtain ⟨-, -, -, -, -, -, e6, e7⟩ := idx_facts4 t
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- THE ARRAY after region 4: `x · W + b` of the arrays as the region finds them, at every index. -/
theorem final4 (c : Dev nD) :
    (Lin4.dat (F := Ideal) V c).arrAt 3 cfg4.N = G (V c main_v21) (V c main_arg9) (V c main_v22) :=
  (Lin4.dat (F := Ideal) V c).arrAt_eq_of_cover 3 (G (V c main_v21) (V c main_arg9) (V c main_v22)) (fun t _ => flushed4_eq V c t) (cover4)

end Cert.KernelIdeal.LinValue

end
-- ==== Proof.HostFlat.lean ====
import proofs.«147348_j2388001816882_2_alg».proof.Proof.Gen.KernelIdeal.Launch
import Idealize.ShloMosaic.Lib.StableHlo.Run
import Idealize.ShloMosaic.Lib.Pipeline.Value
import Idealize.ShloMosaic.Lib.ValueIdx

/-! # The host reshapes around the projections, read at an index

Before the first projection the three [2, 2048, 1024] inputs are flattened to [4096, 1024] — element (n, t, k) becomes
element (2048·n + t, k) — and each bias vector [1024] becomes a row [1, 1024]; after the last projection the
[4096, 1024] result is unflattened the same way. A reshape keeps the row-major position of every element, so each of
these is an identity on the elements once the positions are spelt out. -/

set_option maxRecDepth 16384

noncomputable section

namespace Cert.KernelIdeal.HostFlat

open Cert.KernelIdeal Cert.KernelIdeal.Gen
open Idealize.ShloMosaic Idealize.ShloMosaic.TcCoe Idealize.SL.Sem Idealize.ShloMosaic.StableHlo
open Idealize.ShloMosaic.ValueIdx (ix1 ix2 ix3)

/-! ## The three reshapes on plain functions -/

/-- [2, 2048, 1024] flattened to [4096, 1024], read at row 2048·n + t. -/
theorem flat_apply (x : S2x2048x1024.Idx → EReal) (n : Fin 2) (t : Fin 2048) (k : Fin 1024) (h : 2048 * n.val + t.val < 4096) :
    shapeCast S4096x1024 x shapeCasts_S2x2048x1024_S4096x1024 (ix2 ⟨2048 * n.val + t.val, h⟩ k) = x (ix3 n t k) := by
  refine shapeCast_apply x _ _ _ ?_
  rw [Shape.rowMajor_val_three, Shape.rowMajor_val_two]
  show (n.val * 2048 + t.val) * 1024 + k.val = (2048 * n.val + t.val) * 1024 + k.val
  omega

/-- [4096, 1024] unflattened to [2, 2048, 1024], read at (n, t, j). -/
theorem unflat_apply (x : S4096x1024.Idx → EReal) (n : Fin 2) (t : Fin 2048) (j : Fin 1024) (h : 2048 * n.val + t.val < 4096) :
    shapeCast S2x2048x1024 x shapeCasts_S4096x1024_S2x2048x1024 (ix3 n t j) = x (ix2 ⟨2048 * n.val + t.val, h⟩ j) := by
  refine shapeCast_apply x _ _ _ ?_
  rw [Shape.rowMajor_val_three, Shape.rowMajor_val_two]
  show (2048 * n.val + t.val) * 1024 + j.val = (n.val * 2048 + t.val) * 1024 + j.val
  omega

/-- [1024] as a row [1, 1024], read at (0, j). -/
theorem row_apply (x : S1024.Idx → EReal) (j : Fin 1024) :
    shapeCast S1x1024 x shapeCasts_S1024_S1x1024 (ix2 0 j) = x (ix1 j) := by
  refine shapeCast_apply x _ _ _ ?_
  rw [Shape.rowMajor_val_one, Shape.rowMajor_val_two]
  show j.val = 0 * 1024 + j.val
  omega

/-! ## The host stretches, from any contents `V` of the buffers -/

variable (V : Valuation τ sig (Elt Ideal))

/-! ### Before projection 0: the three inputs flattened, the first bias as a row -/

theorem v0_eq : (StableHlo.after (hostOps0 (F := Ideal)) V (Proc.devRef .tc main_v0) : S4096x1024.Idx → EReal)
    = shapeCast S4096x1024 (V (Proc.devRef .tc main_arg0) : S2x2048x1024.Idx → EReal) shapeCasts_S2x2048x1024_S4096x1024 := by
  dsimp only [hostOps0]; after_results; rfl
theorem v1_eq : (StableHlo.after (hostOps0 (F := Ideal)) V (Proc.devRef .tc main_v1) : S4096x1024.Idx → EReal)
    = shapeCast S4096x1024 (V (Proc.devRef .tc main_arg1) : S2x2048x1024.Idx → EReal) shapeCasts_S2x2048x1024_S4096x1024 := by
  dsimp only [hostOps0]; after_results; rfl
theorem v2_eq : (StableHlo.after (hostOps0 (F := Ideal)) V (Proc.devRef .tc main_v2) : S4096x1024.Idx → EReal)
    = shapeCast S4096x1024 (V (Proc.devRef .tc main_arg2) : S2x2048x1024.Idx → EReal) shapeCasts_S2x2048x1024_S4096x1024 := by
  dsimp only [hostOps0]; after_results; rfl
theorem v3_eq : (StableHlo.after (hostOps0 (F := Ideal)) V (Proc.devRef .tc main_v3) : S1x1024.Idx → EReal)
    = shapeCast S1x1024 (V (Proc.devRef .tc main_arg4) : S1024.Idx → EReal) shapeCasts_S1024_S1x1024 := by
  dsimp only [hostOps0]; after_results; rfl

theorem v0_at (n : Fin 2) (t : Fin 2048) (k : Fin 1024) (h : 2048 * n.val + t.val < 4096) :
    (StableHlo.after (hostOps0 (F := Ideal)) V (Proc.devRef .tc main_v0) : S4096x1024.Idx → EReal) (ix2 ⟨2048 * n.val + t.val, h⟩ k)
      = (V (Proc.devRef .tc main_arg0) : S2x2048x1024.Idx → EReal) (ix3 n t k) := by
  rw [v0_eq]; exact flat_apply _ n t k h
theorem v1_at (n : Fin 2) (t : Fin 2048) (k : Fin 1024) (h : 2048 * n.val + t.val < 4096) :
    (StableHlo.after (hostOps0 (F := Ideal)) V (Proc.devRef .tc main_v1) : S4096x1024.Idx → EReal) (ix2 ⟨2048 * n.val + t.val, h⟩ k)
      = (V (Proc.devRef .tc main_arg1) : S2x2048x1024.Idx → EReal) (ix3 n t k) := by
  rw [v1_eq]; exact flat_apply _ n t k h
theorem v2_at (n : Fin 2) (t : Fin 2048) (k : Fin 1024) (h : 2048 * n.val + t.val < 4096) :
    (StableHlo.after (hostOps0 (F := Ideal)) V (Proc.devRef .tc main_v2) : S4096x1024.Idx → EReal) (ix2 ⟨2048 * n.val + t.val, h⟩ k)
      = (V (Proc.devRef .tc main_arg2) : S2x2048x1024.Idx → EReal) (ix3 n t k) := by
  rw [v2_eq]; exact flat_apply _ n t k h
theorem v3_at (j : Fin 1024) :
    (StableHlo.after (hostOps0 (F := Ideal)) V (Proc.devRef .tc main_v3) : S1x1024.Idx → EReal) (ix2 0 j)
      = (V (Proc.devRef .tc main_arg4) : S1024.Idx → EReal) (ix1 j) := by
  rw [v3_eq]; exact row_apply _ j

/-- A buffer the first stretch does not write keeps its contents: every argument of the program, in particular. -/
theorem keep0 (r : Ref sig .tc) (h0 : r ≠ main_v0) (h1 : r ≠ main_v1) (h2 : r ≠ main_v2) (h3 : r ≠ main_v3) :
    StableHlo.after (hostOps0 (F := Ideal)) V (Proc.devRef .tc r) = V (Proc.devRef .tc r) := by
  dsimp only [hostOps0]
  simp only [after_cons, after_nil]
  rw [reshape_result_ne (h := h3), reshape_result_ne (h := h2), reshape_result_ne (h := h1), reshape_result_ne (h := h0)]

/-! ### Before projections 1 and 2: the bias as a row -/

theorem v5_eq : (StableHlo.after (hostOps1 (F := Ideal)) V (Proc.devRef .tc main_v5) : S1x1024.Idx → EReal)
    = shapeCast S1x1024 (V (Proc.devRef .tc main_arg6) : S1024.Idx → EReal) shapeCasts_S1024_S1x1024 := by
  dsimp only [hostOps1]; after_results; rfl
theorem v5_at (j : Fin 1024) :
    (StableHlo.after (hostOps1 (F := Ideal)) V (Proc.devRef .tc main_v5) : S1x1024.Idx → EReal) (ix2 0 j)
      = (V (Proc.devRef .tc main_arg6) : S1024.Idx → EReal) (ix1 j) := by
  rw [v5_eq]; exact row_apply _ j
theorem keep1 (r : Ref sig .tc) (h : r ≠ main_v5) :
    StableHlo.after (hostOps1 (F := Ideal)) V (Proc.devRef .tc r) = V (Proc.devRef .tc r) := by
  dsimp only [hostOps1]
  simp only [after_cons, after_nil]
  rw [reshape_result_ne (h := h)]

theorem v7_eq : (StableHlo.after (hostOps2 (F := Ideal)) V (Proc.devRef .tc main_v7) : S1x1024.Idx → EReal)
    = shapeCast S1x1024 (V (Proc.devRef .tc main_arg8) : S1024.Idx → EReal) shapeCasts_S1024_S1x1024 := by
  dsimp only [hostOps2]; after_results; rfl
theorem v7_at (j : Fin 1024) :
    (StableHlo.after (hostOps2 (F := Ideal)) V (Proc.devRef .tc main_v7) : S1x1024.Idx → EReal) (ix2 0 j)
      = (V (Proc.devRef .tc main_arg8) : S1024.Idx → EReal) (ix1 j) := by
  rw [v7_eq]; exact row_apply _ j
theorem keep2 (r : Ref sig .tc) (h : r ≠ main_v7) :
    StableHlo.after (hostOps2 (F := Ideal)) V (Proc.devRef .tc r) = V (Proc.devRef .tc r) := by
  dsimp only [hostOps2]
  simp only [after_cons, after_nil]
  rw [reshape_result_ne (h := h)]

/-! ### Before projection 4: the output bias as a row (the stretch's last operation) -/

theorem v22_eq : (StableHlo.after (hostOps4 (F := Ideal)) V (Proc.devRef .tc main_v22) : S1x1024.Idx → EReal)
    = shapeCast S1x1024 (V (Proc.devRef .tc main_arg10) : S1024.Idx → EReal) shapeCasts_S1024_S1x1024 := by
  dsimp only [hostOps4]; after_results; rfl
theorem v22_at (j : Fin 1024) :
    (StableHlo.after (hostOps4 (F := Ideal)) V (Proc.devRef .tc main_v22) : S1x1024.Idx → EReal) (ix2 0 j)
      = (V (Proc.devRef .tc main_arg10) : S1024.Idx → EReal) (ix1 j) := by
  rw [v22_eq]; exact row_apply _ j

/-! ### After projection 4: the result unflattened -/

theorem v24_eq : (StableHlo.after (hostOps5 (F := Ideal)) V (Proc.devRef .tc main_v24) : S2x2048x1024.Idx → EReal)
    = shapeCast S2x2048x1024 (V (Proc.devRef .tc main_v23) : S4096x1024.Idx → EReal) shapeCasts_S4096x1024_S2x2048x1024 := by
  dsimp only [hostOps5]; after_results; rfl
theorem v24_at (n : Fin 2) (t : Fin 2048) (j : Fin 1024) (h : 2048 * n.val + t.val < 4096) :
    (StableHlo.after (hostOps5 (F := Ideal)) V (Proc.devRef .tc main_v24) : S2x2048x1024.Idx → EReal) (ix3 n t j)
      = (V (Proc.devRef .tc main_v23) : S4096x1024.Idx → EReal) (ix2 ⟨2048 * n.val + t.val, h⟩ j) := by
  rw [v24_eq]; exact unflat_apply _ n t j h
theorem keep5 (r : Ref sig .tc) (h : r ≠ main_v24) :
    StableHlo.after (hostOps5 (F := Ideal)) V (Proc.devRef .tc r) = V (Proc.devRef .tc r) := by
  dsimp only [hostOps5]
  simp only [after_cons, after_nil]
  rw [reshape_result_ne (h := h)]

end Cert.KernelIdeal.HostFlat

end
-- ==== Proof.IdealProjValue.lean ====
import proofs.«147348_j2388001816882_2_alg».proof.Proof.IdealLinValue
import proofs.«147348_j2388001816882_2_alg».proof.Proof.HostFlat
import proofs.«147348_j2388001816882_2_alg».proof.Proof.Spec

/-! # The four projections' outputs as `x · W + b` of the program's arguments

Each linear region leaves `x · W + b` of the arrays it finds. When those arrays are a flattened [2, 2048, 1024] input,
a weight matrix and a bias row, the output read at flattened row 2048·n + t is the projection of the specification at
(n, t): a sum over the model axis plus the bias. -/

set_option maxRecDepth 16384

noncomputable section

namespace Cert.KernelIdeal.ProjValue

open Cert.KernelIdeal Cert.KernelIdeal.Gen
open Idealize.ShloMosaic Idealize.ShloMosaic.TcCoe Idealize.SL.Sem Idealize.ShloMosaic.StableHlo
open Idealize.ShloMosaic.ValueIdx (ix1 ix2 ix3)

-- the core's buffer contents when a region is entered
variable (V : (c : Dev nD) → (b : Ref sig .tc) → Buf (Elt Ideal) ((c : Thread nD τ).loc b))

/-- Projection 0's output array at flattened row 2048·n + t, column j, is `projAt X W B n t j`, for any region-entry
    contents that hold `X` flattened, `W`, and `B` as a row. -/
theorem proj0 (c : Dev nD) (X : Spec.Act) (W : Spec.Wt) (B : Spec.Bias)
    (hX : ∀ (n : Fin 2) (t : Fin 2048) (k : Fin 1024) (h : 2048 * n.val + t.val < 4096),
      (V c main_v0 : S4096x1024.Idx → EReal) (ix2 ⟨2048 * n.val + t.val, h⟩ k) = X (ix3 n t k))
    (hW : ∀ i : S1024x1024.Idx, (V c main_arg3 : S1024x1024.Idx → EReal) i = W i)
    (hB : ∀ j : Fin 1024, (V c main_v3 : S1x1024.Idx → EReal) (ix2 0 j) = B (ix1 j))
    (n : Fin 2) (t : Fin 2048) (j : Fin 1024) (h : 2048 * n.val + t.val < 4096) :
    ((Lin0.dat (F := Ideal) V c).arrAt 3 cfg0.N : S4096x1024.Idx → EReal) (ix2 ⟨2048 * n.val + t.val, h⟩ j)
      = Spec.projAt X W B n t j := by
  rw [LinValue.final0, LinValue.G_apply]
  unfold Spec.projAt
  exact congrArg₂ (· + ·) (Finset.sum_congr rfl fun k _ => congrArg₂ (· * ·) (hX n t k h) (hW _)) (hB j)

/-- Projection 1's output array at flattened row 2048·n + t, column j, is `projAt X W B n t j`, for any region-entry
    contents that hold `X` flattened, `W`, and `B` as a row. -/
theorem proj1 (c : Dev nD) (X : Spec.Act) (W : Spec.Wt) (B : Spec.Bias)
    (hX : ∀ (n : Fin 2) (t : Fin 2048) (k : Fin 1024) (h : 2048 * n.val + t.val < 4096),
      (V c main_v1 : S4096x1024.Idx → EReal) (ix2 ⟨2048 * n.val + t.val, h⟩ k) = X (ix3 n t k))
    (hW : ∀ i : S1024x1024.Idx, (V c main_arg5 : S1024x1024.Idx → EReal) i = W i)
    (hB : ∀ j : Fin 1024, (V c main_v5 : S1x1024.Idx → EReal) (ix2 0 j) = B (ix1 j))
    (n : Fin 2) (t : Fin 2048) (j : Fin 1024) (h : 2048 * n.val + t.val < 4096) :
    ((Lin1.dat (F := Ideal) V c).arrAt 3 cfg1.N : S4096x1024.Idx → EReal) (ix2 ⟨2048 * n.val + t.val, h⟩ j)
      = Spec.projAt X W B n t j := by
  rw [LinValue.final1, LinValue.G_apply]
  unfold Spec.projAt
  exact congrArg₂ (· + ·) (Finset.sum_congr rfl fun k _ => congrArg₂ (· * ·) (hX n t k h) (hW _)) (hB j)

/-- Projection 2's output array at flattened row 2048·n + t, column j, is `projAt X W B n t j`, for any region-entry
    contents that hold `X` flattened, `W`, and `B` as a row. -/
theorem proj2 (c : Dev nD) (X : Spec.Act) (W : Spec.Wt) (B : Spec.Bias)
    (hX : ∀ (n : Fin 2) (t : Fin 2048) (k : Fin 1024) (h : 2048 * n.val + t.val < 4096),
      (V c main_v2 : S4096x1024.Idx → EReal) (ix2 ⟨2048 * n.val + t.val, h⟩ k) = X (ix3 n t k))
    (hW : ∀ i : S1024x1024.Idx, (V c main_arg7 : S1024x1024.Idx → EReal) i = W i)
    (hB : ∀ j : Fin 1024, (V c main_v7 : S1x1024.Idx → EReal) (ix2 0 j) = B (ix1 j))
    (n : Fin 2) (t : Fin 2048) (j : Fin 1024) (h : 2048 * n.val + t.val < 4096) :
    ((Lin2.dat (F := Ideal) V c).arrAt 3 cfg2.N : S4096x1024.Idx → EReal) (ix2 ⟨2048 * n.val + t.val, h⟩ j)
      = Spec.projAt X W B n t j := by
  rw [LinValue.final2, LinValue.G_apply]
  unfold Spec.projAt
  exact congrArg₂ (· + ·) (Finset.sum_congr rfl fun k _ => congrArg₂ (· * ·) (hX n t k h) (hW _)) (hB j)

/-- Projection 4's output array at flattened row 2048·n + t, column j, is `projAt X W B n t j`, for any region-entry
    contents that hold `X` flattened, `W`, and `B` as a row. -/
theorem proj4 (c : Dev nD) (X : Spec.Act) (W : Spec.Wt) (B : Spec.Bias)
    (hX : ∀ (n : Fin 2) (t : Fin 2048) (k : Fin 1024) (h : 2048 * n.val + t.val < 4096),
      (V c main_v21 : S4096x1024.Idx → EReal) (ix2 ⟨2048 * n.val + t.val, h⟩ k) = X (ix3 n t k))
    (hW : ∀ i : S1024x1024.Idx, (V c main_arg9 : S1024x1024.Idx → EReal) i = W i)
    (hB : ∀ j : Fin 1024, (V c main_v22 : S1x1024.Idx → EReal) (ix2 0 j) = B (ix1 j))
    (n : Fin 2) (t : Fin 2048) (j : Fin 1024) (h : 2048 * n.val + t.val < 4096) :
    ((Lin4.dat (F := Ideal) V c).arrAt 3 cfg4.N : S4096x1024.Idx → EReal) (ix2 ⟨2048 * n.val + t.val, h⟩ j)
      = Spec.projAt X W B n t j := by
  rw [LinValue.final4, LinValue.G_apply]
  unfold Spec.projAt
  exact congrArg₂ (· + ·) (Finset.sum_congr rfl fun k _ => congrArg₂ (· * ·) (hX n t k h) (hW _)) (hB j)

/-- The query projection from the launch contents `U`: region 0 entered right after the first host stretch. -/
theorem q_value (U : Dev nD → Valuation τ sig (Elt Ideal)) (c : Dev nD) (n : Fin 2) (t : Fin 2048) (j : Fin 1024)
    (h : 2048 * n.val + t.val < 4096) :
    ((Lin0.dat (F := Ideal) (fun c b => StableHlo.after (hostOps0 (F := Ideal)) (U c) (Proc.devRef .tc b)) c).arrAt 3 cfg0.N
        : S4096x1024.Idx → EReal) (ix2 ⟨2048 * n.val + t.val, h⟩ j)
      = Spec.projAt (U c (Proc.devRef .tc main_arg0)) (U c (Proc.devRef .tc main_arg3)) (U c (Proc.devRef .tc main_arg4)) n t j :=
  proj0 (fun c b => StableHlo.after (hostOps0 (F := Ideal)) (U c) (Proc.devRef .tc b)) c
    (U c (Proc.devRef .tc main_arg0)) (U c (Proc.devRef .tc main_arg3)) (U c (Proc.devRef .tc main_arg4))
    (fun n t k h => HostFlat.v0_at (U c) n t k h)
    (fun i => congrFun (HostFlat.keep0 (U c) main_arg3 (by decide) (by decide) (by decide) (by decide)) i)
    (fun j => HostFlat.v3_at (U c) j) n t j h

end Cert.KernelIdeal.ProjValue

end
-- ==== Proof.HostGlue.lean ====
/-
  The kernel's host glue between its launches, read at an index.

  Between the projections and the attention kernel each projected array [4096, 1024] — rows (batch, position), columns
  (head, lane) — is reshaped to [2, 2048, 16, 64], transposed to [2, 16, 2048, 64] and reshaped to [32, 2048, 64] — rows
  (batch, head). After the attention kernel its result [32, 2048, 64] goes the same way back to [4096, 1024], and the output
  bias [1024] becomes a row [1, 1024]. Entry for entry:
    split x (16 n + h, t, e) = x (2048 n + t, 64 h + e),
    join o (2048 n + t, j)     = o (16 n + j / 64, t, j % 64),
    row b (0, j)               = b (j).
  The layout facts are first proved for arbitrary arrays of any element type, then read off the operations' results.
-/
import proofs.«147348_j2388001816882_2_alg».proof.Proof.Gen.KernelIdeal.Launch
import Idealize.ShloMosaic.Lib.StableHlo.Run
import Idealize.ShloMosaic.Lib.Pipeline.Value
import Idealize.ShloMosaic.Lib.ValueIdx
import proofs.«147348_j2388001816882_2_alg».proof.Proof.Spec

noncomputable section

namespace Cert.KernelIdeal.HostGlue

open Cert.KernelIdeal Cert.KernelIdeal.Gen Idealize.ShloMosaic Idealize.ShloMosaic.TcCoe Idealize.SL.Sem
  Idealize.ShloMosaic.StableHlo Idealize.ShloMosaic.ValueIdx

/-! ## The three layouts, for any array -/

/-- Row (batch n, head h) of the split array. -/
def bh (n : Fin 2) (h : Fin 16) : Fin 32 := ⟨16 * n.val + h.val, by have := n.isLt; have := h.isLt; omega⟩
/-- Row (batch n, position t) of a projected array. -/
def bt (n : Fin 2) (t : Fin 2048) : Fin 4096 := ⟨2048 * n.val + t.val, by have := n.isLt; have := t.isLt; omega⟩

/- Column (head h, lane e) of a projected array is the specification's `laneOf h e` = 64 h + e; the head and the lane of
   column `j` are its `headOf j` = j / 64 and `lanePart j` = j % 64. -/
open Cert.Spec (laneOf headOf lanePart)

theorem split_apply {α : Type} (x : S4096x1024.Idx → α) (n : Fin 2) (h : Fin 16) (t : Fin 2048) (e : Fin 64) :
    shapeCast S32x2048x64 (transpose S2x16x2048x64 [0, 2, 1, 3] (shapeCast S2x2048x16x64 x shapeCasts_S4096x1024_S2x2048x16x64)
        transposes_S2x2048x16x64_S2x16x2048x64_0_2_1_3) shapeCasts_S2x16x2048x64_S32x2048x64 (ix3 (bh n h) t e)
      = x (ix2 (bt n t) (laneOf h e)) := by
  have hn := n.isLt; have hh := h.isLt; have ht := t.isLt; have hee := e.isLt
  refine (shapeCast_apply _ shapeCasts_S2x16x2048x64_S32x2048x64 (ix3 (bh n h) t e) (ix4 n h t e) ?_).trans ?_
  · rewrite [Shape.rowMajor_val_four, Shape.rowMajor_val_three]
    show ((n.val * 16 + h.val) * 2048 + t.val) * 64 + e.val = ((16 * n.val + h.val) * 2048 + t.val) * 64 + e.val
    omega
  refine (transpose_apply [0, 2, 1, 3] _ transposes_S2x2048x16x64_S2x16x2048x64_0_2_1_3 (ix4 n h t e) (ix4 n t h e)
    (fun b => match b with | ⟨0, _⟩ => rfl | ⟨1, _⟩ => rfl | ⟨2, _⟩ => rfl | ⟨3, _⟩ => rfl)).trans ?_
  refine shapeCast_apply x shapeCasts_S4096x1024_S2x2048x16x64 (ix4 n t h e) (ix2 (bt n t) (laneOf h e)) ?_
  rewrite [Shape.rowMajor_val_two, Shape.rowMajor_val_four]
  show (2048 * n.val + t.val) * 1024 + (64 * h.val + e.val) = ((n.val * 2048 + t.val) * 16 + h.val) * 64 + e.val
  omega

theorem join_apply {α : Type} (o : S32x2048x64.Idx → α) (n : Fin 2) (t : Fin 2048) (j : Fin 1024) :
    shapeCast S4096x1024 (transpose S2x2048x16x64 [0, 2, 1, 3] (shapeCast S2x16x2048x64 o shapeCasts_S32x2048x64_S2x16x2048x64)
        transposes_S2x16x2048x64_S2x2048x16x64_0_2_1_3) shapeCasts_S2x2048x16x64_S4096x1024 (ix2 (bt n t) j)
      = o (ix3 (bh n (headOf j)) t (lanePart j)) := by
  have hn := n.isLt; have ht := t.isLt; have hj := j.isLt
  refine (shapeCast_apply _ shapeCasts_S2x2048x16x64_S4096x1024 (ix2 (bt n t) j) (ix4 n t (headOf j) (lanePart j)) ?_).trans ?_
  · rewrite [Shape.rowMajor_val_four, Shape.rowMajor_val_two]
    show ((n.val * 2048 + t.val) * 16 + j.val / 64) * 64 + j.val % 64 = (2048 * n.val + t.val) * 1024 + j.val
    omega
  refine (transpose_apply [0, 2, 1, 3] _ transposes_S2x16x2048x64_S2x2048x16x64_0_2_1_3 (ix4 n t (headOf j) (lanePart j))
    (ix4 n (headOf j) t (lanePart j))
    (fun b => match b with | ⟨0, _⟩ => rfl | ⟨1, _⟩ => rfl | ⟨2, _⟩ => rfl | ⟨3, _⟩ => rfl)).trans ?_
  refine shapeCast_apply o shapeCasts_S32x2048x64_S2x16x2048x64 (ix4 n (headOf j) t (lanePart j))
    (ix3 (bh n (headOf j)) t (lanePart j)) ?_
  rewrite [Shape.rowMajor_val_three, Shape.rowMajor_val_four]
  show ((16 * n.val + j.val / 64) * 2048 + t.val) * 64 + j.val % 64 = ((n.val * 16 + j.val / 64) * 2048 + t.val) * 64 + j.val % 64
  omega

theorem row_apply {α : Type} (b : S1024.Idx → α) (j : Fin 1024) :
    shapeCast S1x1024 b shapeCasts_S1024_S1x1024 (ix2 (0 : Fin 1) j) = b (ix1 j) := by
  refine shapeCast_apply b shapeCasts_S1024_S1x1024 (ix2 (0 : Fin 1) j) (ix1 j) ?_
  rewrite [Shape.rowMajor_val_one, Shape.rowMajor_val_two]
  show j.val = 0 * 1024 + j.val
  omega

/-! ## The operations' results -/

variable (V : Valuation τ sig (Elt Ideal))

/-- The queries' projection, split into heads. -/
theorem v11_apply (n : Fin 2) (h : Fin 16) (t : Fin 2048) (e : Fin 64) :
    (StableHlo.after hostOps3 V (Proc.devRef .tc main_v11) : S32x2048x64.Idx → EReal) (ix3 (bh n h) t e)
      = (V (Proc.devRef .tc main_v4) : S4096x1024.Idx → EReal) (ix2 (bt n t) (laneOf h e)) := by
  have e0 : (StableHlo.after hostOps3 V (Proc.devRef .tc main_v11) : S32x2048x64.Idx → EReal)
      = shapeCast S32x2048x64 (transpose S2x16x2048x64 [0, 2, 1, 3]
          (shapeCast S2x2048x16x64 (V (Proc.devRef .tc main_v4) : S4096x1024.Idx → EReal) shapeCasts_S4096x1024_S2x2048x16x64)
          transposes_S2x2048x16x64_S2x16x2048x64_0_2_1_3) shapeCasts_S2x16x2048x64_S32x2048x64 := by
    after_results; rfl
  rw [e0]; exact split_apply _ n h t e

/-- The keys' projection, split into heads. -/
theorem v14_apply (n : Fin 2) (h : Fin 16) (t : Fin 2048) (e : Fin 64) :
    (StableHlo.after hostOps3 V (Proc.devRef .tc main_v14) : S32x2048x64.Idx → EReal) (ix3 (bh n h) t e)
      = (V (Proc.devRef .tc main_v6) : S4096x1024.Idx → EReal) (ix2 (bt n t) (laneOf h e)) := by
  have e0 : (StableHlo.after hostOps3 V (Proc.devRef .tc main_v14) : S32x2048x64.Idx → EReal)
      = shapeCast S32x2048x64 (transpose S2x16x2048x64 [0, 2, 1, 3]
          (shapeCast S2x2048x16x64 (V (Proc.devRef .tc main_v6) : S4096x1024.Idx → EReal) shapeCasts_S4096x1024_S2x2048x16x64)
          transposes_S2x2048x16x64_S2x16x2048x64_0_2_1_3) shapeCasts_S2x16x2048x64_S32x2048x64 := by
    after_results; rfl
  rw [e0]; exact split_apply _ n h t e

/-- The values' projection, split into heads. -/
theorem v17_apply (n : Fin 2) (h : Fin 16) (t : Fin 2048) (e : Fin 64) :
    (StableHlo.after hostOps3 V (Proc.devRef .tc main_v17) : S32x2048x64.Idx → EReal) (ix3 (bh n h) t e)
      = (V (Proc.devRef .tc main_v8) : S4096x1024.Idx → EReal) (ix2 (bt n t) (laneOf h e)) := by
  have e0 : (StableHlo.after hostOps3 V (Proc.devRef .tc main_v17) : S32x2048x64.Idx → EReal)
      = shapeCast S32x2048x64 (transpose S2x16x2048x64 [0, 2, 1, 3]
          (shapeCast S2x2048x16x64 (V (Proc.devRef .tc main_v8) : S4096x1024.Idx → EReal) shapeCasts_S4096x1024_S2x2048x16x64)
          transposes_S2x2048x16x64_S2x16x2048x64_0_2_1_3) shapeCasts_S2x16x2048x64_S32x2048x64 := by
    after_results; rfl
  rw [e0]; exact split_apply _ n h t e

/-- The attention kernel's result, joined back into (batch, position) rows and (head, lane) columns. -/
theorem v21_apply (n : Fin 2) (t : Fin 2048) (j : Fin 1024) :
    (StableHlo.after hostOps4 V (Proc.devRef .tc main_v21) : S4096x1024.Idx → EReal) (ix2 (bt n t) j)
      = (V (Proc.devRef .tc main_v18) : S32x2048x64.Idx → EReal) (ix3 (bh n (headOf j)) t (lanePart j)) := by
  have e0 : (StableHlo.after hostOps4 V (Proc.devRef .tc main_v21) : S4096x1024.Idx → EReal)
      = shapeCast S4096x1024 (transpose S2x2048x16x64 [0, 2, 1, 3]
          (shapeCast S2x16x2048x64 (V (Proc.devRef .tc main_v18) : S32x2048x64.Idx → EReal) shapeCasts_S32x2048x64_S2x16x2048x64)
          transposes_S2x16x2048x64_S2x2048x16x64_0_2_1_3) shapeCasts_S2x2048x16x64_S4096x1024 := by
    after_results; rfl
  rw [e0]; exact join_apply _ n t j

/-- The output bias as a row. -/
theorem v22_apply (j : Fin 1024) :
    (StableHlo.after hostOps4 V (Proc.devRef .tc main_v22) : S1x1024.Idx → EReal) (ix2 (0 : Fin 1) j)
      = (V (Proc.devRef .tc main_arg10) : S1024.Idx → EReal) (ix1 j) := by
  have e0 : (StableHlo.after hostOps4 V (Proc.devRef .tc main_v22) : S1x1024.Idx → EReal)
      = shapeCast S1x1024 (V (Proc.devRef .tc main_arg10) : S1024.Idx → EReal) shapeCasts_S1024_S1x1024 := by
    after_results; rfl
  rw [e0]; exact row_apply _ j

end Cert.KernelIdeal.HostGlue

end
-- ==== Proof.BridgeHeads.lean ====
import proofs.«147348_j2388001816882_2_alg».proof.Proof.IdealRun
import proofs.«147348_j2388001816882_2_alg».proof.Proof.IdealProjValue
import proofs.«147348_j2388001816882_2_alg».proof.Proof.HostGlue

/-! # The three head arrays the attention region is entered with

Followed through the run's boundaries: each of the first three regions leaves the projection `x · W + b` of its
flattened input, its weights and its bias row; these are the launch arguments, untouched by everything before (an
argument is never written; a flattened input and a bias row are written once, by the host stretch that makes them). The
head split then moves (row 2048·n + t, column 64·h + e) to (16·n + h, t, e). So the query, key and value arrays the
attention region finds are the specification's projections split into heads. -/

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo
open Idealize.ShloMosaic.ValueIdx (ix1 ix2 ix3 ix4)

variable (m : (ℓ : Loc nD τ sig) → Buf (Elt Ideal) ℓ) (ρ : Dev nD → PrngReg)

/-! ## The projections' outputs at a flattened row -/

/-- The query projection: region 0's output array. -/
theorem q_flat (c : Dev nD) (n : Fin 2) (t : Fin 2048) (j : Fin 1024) (h : 2048 * n.val + t.val < 4096) :
    (Run.W2 m ρ c (Proc.devRef .tc main_v4) : S4096x1024.Idx → EReal) (ix2 ⟨2048 * n.val + t.val, h⟩ j)
      = Spec.projAt (m ((c.tc : Thread nD τ).loc main_arg0)) (m ((c.tc : Thread nD τ).loc main_arg3)) (m ((c.tc : Thread nD τ).loc main_arg4)) n t j := by
  have e : Run.W2 m ρ c (Proc.devRef .tc main_v4) = (Lin0.dat (Run.rd (Run.W1 m ρ)) c).arrAt 3 cfg0.N := Run.W2_arr m ρ c 3
  rw [e]
  refine ProjValue.proj0 (Run.rd (Run.W1 m ρ)) c _ _ _ ?_ ?_ ?_ n t j h
  · intro n t k h
    exact HostFlat.v0_at (Run.W0 m ρ c) n t k h
  · intro i
    exact congrFun (Run.W1_keep m ρ c main_arg3 (by decide)) i
  · intro j
    exact HostFlat.v3_at (Run.W0 m ρ c) j

/-- The key projection: region 1's output array. -/
theorem k_flat (c : Dev nD) (n : Fin 2) (t : Fin 2048) (j : Fin 1024) (h : 2048 * n.val + t.val < 4096) :
    (Run.W4 m ρ c (Proc.devRef .tc main_v6) : S4096x1024.Idx → EReal) (ix2 ⟨2048 * n.val + t.val, h⟩ j)
      = Spec.projAt (m ((c.tc : Thread nD τ).loc main_arg1)) (m ((c.tc : Thread nD τ).loc main_arg5)) (m ((c.tc : Thread nD τ).loc main_arg6)) n t j := by
  have e : Run.W4 m ρ c (Proc.devRef .tc main_v6) = (Lin1.dat (Run.rd (Run.W3 m ρ)) c).arrAt 3 cfg1.N := Run.W4_arr m ρ c 3
  rw [e]
  refine ProjValue.proj1 (Run.rd (Run.W3 m ρ)) c _ _ _ ?_ ?_ ?_ n t j h
  · intro n t k h
    have e1 : Run.W3 m ρ c (Proc.devRef .tc main_v1) = Run.W1 m ρ c (Proc.devRef .tc main_v1) :=
      (Run.W3_keep m ρ c main_v1 (by decide)).trans (Run.W2_keep m ρ c main_v1 (by decide))
    show (Run.W3 m ρ c (Proc.devRef .tc main_v1) : S4096x1024.Idx → EReal) (ix2 ⟨2048 * n.val + t.val, h⟩ k) = _
    rw [e1]
    exact HostFlat.v1_at (Run.W0 m ρ c) n t k h
  · intro i
    have e1 : Run.W3 m ρ c (Proc.devRef .tc main_arg5) = Run.W0 m ρ c (Proc.devRef .tc main_arg5) :=
      ((Run.W3_keep m ρ c main_arg5 (by decide)).trans (Run.W2_keep m ρ c main_arg5 (by decide))).trans (Run.W1_keep m ρ c main_arg5 (by decide))
    exact congrFun e1 i
  · intro j
    have e1 : Run.W2 m ρ c (Proc.devRef .tc main_arg6) = Run.W0 m ρ c (Proc.devRef .tc main_arg6) :=
      (Run.W2_keep m ρ c main_arg6 (by decide)).trans (Run.W1_keep m ρ c main_arg6 (by decide))
    refine (HostFlat.v5_at (Run.W2 m ρ c) j).trans ?_
    rw [e1]

/-- The value projection: region 2's output array. -/
theorem v_flat (c : Dev nD) (n : Fin 2) (t : Fin 2048) (j : Fin 1024) (h : 2048 * n.val + t.val < 4096) :
    (Run.W6 m ρ c (Proc.devRef .tc main_v8) : S4096x1024.Idx → EReal) (ix2 ⟨2048 * n.val + t.val, h⟩ j)
      = Spec.projAt (m ((c.tc : Thread nD τ).loc main_arg2)) (m ((c.tc : Thread nD τ).loc main_arg7)) (m ((c.tc : Thread nD τ).loc main_arg8)) n t j := by
  have e : Run.W6 m ρ c (Proc.devRef .tc main_v8) = (Lin2.dat (Run.rd (Run.W5 m ρ)) c).arrAt 3 cfg2.N := Run.W6_arr m ρ c 3
  rw [e]
  refine ProjValue.proj2 (Run.rd (Run.W5 m ρ)) c _ _ _ ?_ ?_ ?_ n t j h
  · intro n t k h
    have e1 : Run.W5 m ρ c (Proc.devRef .tc main_v2) = Run.W1 m ρ c (Proc.devRef .tc main_v2) :=
      (((Run.W5_keep m ρ c main_v2 (by decide)).trans (Run.W4_keep m ρ c main_v2 (by decide))).trans
        (Run.W3_keep m ρ c main_v2 (by decide))).trans (Run.W2_keep m ρ c main_v2 (by decide))
    show (Run.W5 m ρ c (Proc.devRef .tc main_v2) : S4096x1024.Idx → EReal) (ix2 ⟨2048 * n.val + t.val, h⟩ k) = _
    rw [e1]
    exact HostFlat.v2_at (Run.W0 m ρ c) n t k h
  · intro i
    have e1 : Run.W5 m ρ c (Proc.devRef .tc main_arg7) = Run.W0 m ρ c (Proc.devRef .tc main_arg7) :=
      ((((Run.W5_keep m ρ c main_arg7 (by decide)).trans (Run.W4_keep m ρ c main_arg7 (by decide))).trans
        (Run.W3_keep m ρ c main_arg7 (by decide))).trans (Run.W2_keep m ρ c main_arg7 (by decide))).trans
        (Run.W1_keep m ρ c main_arg7 (by decide))
    exact congrFun e1 i
  · intro j
    have e1 : Run.W4 m ρ c (Proc.devRef .tc main_arg8) = Run.W0 m ρ c (Proc.devRef .tc main_arg8) :=
      (((Run.W4_keep m ρ c main_arg8 (by decide)).trans (Run.W3_keep m ρ c main_arg8 (by decide))).trans
        (Run.W2_keep m ρ c main_arg8 (by decide))).trans (Run.W1_keep m ρ c main_arg8 (by decide))
    refine (HostFlat.v7_at (Run.W4 m ρ c) j).trans ?_
    rw [e1]

/-! ## Split into heads -/

/-- The query array the attention region finds. -/
theorem qh_at (c : Dev nD) (n : Fin 2) (h : Fin 16) (t : Fin 2048) (e : Fin 64) (hlt : 16 * n.val + h.val < 32) :
    (Run.W7 m ρ c (Proc.devRef .tc main_v11) : S32x2048x64.Idx → EReal) (ix3 ⟨16 * n.val + h.val, hlt⟩ t e)
      = Spec.heads (Spec.proj (m ((c.tc : Thread nD τ).loc main_arg0)) (m ((c.tc : Thread nD τ).loc main_arg3)) (m ((c.tc : Thread nD τ).loc main_arg4))) (ix4 n h t e) := by
  have e1 : Run.W6 m ρ c (Proc.devRef .tc main_v4) = Run.W2 m ρ c (Proc.devRef .tc main_v4) :=
    (((Run.W6_keep m ρ c main_v4 (by decide)).trans (Run.W5_keep m ρ c main_v4 (by decide))).trans
      (Run.W4_keep m ρ c main_v4 (by decide))).trans (Run.W3_keep m ρ c main_v4 (by decide))
  refine (HostGlue.v11_apply (Run.W6 m ρ c) n h t e).trans ?_
  rw [e1]
  exact q_flat m ρ c n t (Spec.laneOf h e) _

/-- The key array the attention region finds. -/
theorem kh_at (c : Dev nD) (n : Fin 2) (h : Fin 16) (t : Fin 2048) (e : Fin 64) (hlt : 16 * n.val + h.val < 32) :
    (Run.W7 m ρ c (Proc.devRef .tc main_v14) : S32x2048x64.Idx → EReal) (ix3 ⟨16 * n.val + h.val, hlt⟩ t e)
      = Spec.heads (Spec.proj (m ((c.tc : Thread nD τ).loc main_arg1)) (m ((c.tc : Thread nD τ).loc main_arg5)) (m ((c.tc : Thread nD τ).loc main_arg6))) (ix4 n h t e) := by
  have e1 : Run.W6 m ρ c (Proc.devRef .tc main_v6) = Run.W4 m ρ c (Proc.devRef .tc main_v6) :=
    (Run.W6_keep m ρ c main_v6 (by decide)).trans (Run.W5_keep m ρ c main_v6 (by decide))
  refine (HostGlue.v14_apply (Run.W6 m ρ c) n h t e).trans ?_
  rw [e1]
  exact k_flat m ρ c n t (Spec.laneOf h e) _

/-- The value array the attention region finds. -/
theorem vh_at (c : Dev nD) (n : Fin 2) (h : Fin 16) (t : Fin 2048) (e : Fin 64) (hlt : 16 * n.val + h.val < 32) :
    (Run.W7 m ρ c (Proc.devRef .tc main_v17) : S32x2048x64.Idx → EReal) (ix3 ⟨16 * n.val + h.val, hlt⟩ t e)
      = Spec.heads (Spec.proj (m ((c.tc : Thread nD τ).loc main_arg2)) (m ((c.tc : Thread nD τ).loc main_arg7)) (m ((c.tc : Thread nD τ).loc main_arg8))) (ix4 n h t e) := by
  refine (HostGlue.v17_apply (Run.W6 m ρ c) n h t e).trans ?_
  exact v_flat m ρ c n t (Spec.laneOf h e) _

end Cert.KernelIdeal.Bridge

end
-- ==== Proof.Finite.lean ====
/-
  From the precondition to real-valuedness.

  The precondition evaluates, over the eleven argument arrays, the conjunction of eleven tests "every entry has
  |a| < +∞"; it is stated as: the result is 1. Each conjunct being 1 says that every entry of that array is a real number
  (neither infinity).
-/
import proofs.«147348_j2388001816882_2_alg».proof.Defs
import proofs.«147348_j2388001816882_2_alg».proof.Proof.Gen.Pre_finite_inputs
import proofs.«147348_j2388001816882_2_alg».proof.Proof.LibRealValued
import Idealize.ShloMosaic.Lib.Affine

noncomputable section

namespace Cert.KernelIdeal.Finite

open Idealize.ShloMosaic Idealize.ShloMosaic.TcCoe Idealize.SL.Sem Idealize.ShloMosaic.ValueIdx Cert.RealValued
open Cert.Pre_finite_inputs

/-- The precondition's function being 1 on eleven arrays: every entry of each is a real number. -/
theorem fn_real [Cert.Pre_finite_inputs.Facts]
    (a0 a1 a2 : FVec Ideal S2x2048x1024 .f32) (a3 : FVec Ideal S1024x1024 .f32) (a4 : FVec Ideal S1024 .f32)
    (a5 : FVec Ideal S1024x1024 .f32) (a6 : FVec Ideal S1024 .f32) (a7 : FVec Ideal S1024x1024 .f32)
    (a8 : FVec Ideal S1024 .f32) (a9 : FVec Ideal S1024x1024 .f32) (a10 : FVec Ideal S1024 .f32)
    (h : Cert.Pre_finite_inputs.fn (F := Ideal) a0 a1 a2 a3 a4 a5 a6 a7 a8 a9 a10 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) := by
  have h0 := congrFun h ix0
  dsimp only [Cert.Pre_finite_inputs.fn, Cert.Pre_finite_inputs.fn_part1, Cert.Pre_finite_inputs.fn_part2,
    Cert.Pre_finite_inputs.fn_part3, Idealize.ShloMosaic.andi] at h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨all_isReal a0 _ _ _ _ c0, all_isReal a1 _ _ _ _ c1, all_isReal a2 _ _ _ _ c2, all_isReal a3 _ _ _ _ c3,
    all_isReal a4 _ _ _ _ c4, all_isReal a5 _ _ _ _ c5, all_isReal a6 _ _ _ _ c6, all_isReal a7 _ _ _ _ c7,
    all_isReal a8 _ _ _ _ c8, all_isReal a9 _ _ _ _ c9, all_isReal a10 _ _ _ _ c10⟩

/-- Under the precondition every entry of every argument array is a real number, on every device. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i)) :=
  fn_real _ _ _ _ _ _ _ _ _ _ _ (h c)

end Cert.KernelIdeal.Finite

end
-- ==== Proof.BridgeAttn.lean ====
import proofs.«147348_j2388001816882_2_alg».proof.Proof.IdealRun
import proofs.«147348_j2388001816882_2_alg».proof.Proof.IdealAttnValue
import proofs.«147348_j2388001816882_2_alg».proof.Proof.IdealAttnStep
import proofs.«147348_j2388001816882_2_alg».proof.Proof.IdealAttnMath
import proofs.«147348_j2388001816882_2_alg».proof.Proof.BridgeHeads
import proofs.«147348_j2388001816882_2_alg».proof.Proof.Finite
import proofs.«147348_j2388001816882_2_alg».proof.Proof.SpecReal

/-
  The attention region's output array is the specification's attention output.

  Row 16·n + h of the [32, 2048, 64] output array belongs to the grid's pair g = 8·n + h/2, at position h mod 2 inside the
  pair's block. What the pipeline writes back there is numerator / denominator of the pair's state after its eight key
  tiles; the pair's query, key and value blocks are rows of the three head arrays the region was entered with, which are
  the heads of the three projections; under the precondition every input entry is a real number, hence so is every entry
  of the projections. So the online-softmax law applies at every row and lane.
-/

set_option maxRecDepth 16384

noncomputable section

namespace Cert.KernelIdeal.Bridge

open Cert.KernelIdeal Cert.KernelIdeal.Gen
open Idealize.ShloMosaic Idealize.ShloMosaic.TcCoe
open Idealize.ShloMosaic.ValueIdx
open Cert.RealValued (IsReal)

variable (m : (ℓ : Loc nD τ sig) → Buf (Elt Ideal) ℓ) (ρ : Dev nD → PrngReg)

/-- The three projections' head arrays, of the launch memory's arguments. -/
abbrev Qh (c : Dev nD) : Cert.Spec.Hd :=
  Cert.Spec.heads (Cert.Spec.proj (m ((c.tc : Thread nD τ).loc main_arg0)) (m ((c.tc : Thread nD τ).loc main_arg3)) (m ((c.tc : Thread nD τ).loc main_arg4)))
abbrev Kh (c : Dev nD) : Cert.Spec.Hd :=
  Cert.Spec.heads (Cert.Spec.proj (m ((c.tc : Thread nD τ).loc main_arg1)) (m ((c.tc : Thread nD τ).loc main_arg5)) (m ((c.tc : Thread nD τ).loc main_arg6)))
abbrev Vh (c : Dev nD) : Cert.Spec.Hd :=
  Cert.Spec.heads (Cert.Spec.proj (m ((c.tc : Thread nD τ).loc main_arg2)) (m ((c.tc : Thread nD τ).loc main_arg7)) (m ((c.tc : Thread nD τ).loc main_arg8)))

theorem attn_at (hpre : Cert.Pre_KernelIdeal m) (c : Dev nD) (n : Fin 2) (h : Fin 16) (t : Fin 2048) (e : Fin 64) (hlt : 16 * n.val + h.val < 32) :
    (Run.W8 m ρ c (Proc.devRef .tc main_v18) : S32x2048x64.Idx → EReal) (ix3 ⟨16 * n.val + h.val, hlt⟩ t e)
      = Cert.Spec.attend (Cert.Spec.weights (Cert.Spec.scores (Qh m c) (Kh m c))) (Vh m c) (ix4 n h t e) := by
  obtain ⟨r0, r1, r2, r3, r4, r5, r6, r7, r8, -, -⟩ := Cert.KernelIdeal.Finite.args_real m hpre c
  have hQ : ∀ i, IsReal (Qh m c i) := Cert.Spec.heads_real _ (Cert.Spec.proj_real _ _ _ r0 r3 r4)
  have hK : ∀ i, IsReal (Kh m c i) := Cert.Spec.heads_real _ (Cert.Spec.proj_real _ _ _ r1 r5 r6)
  have hV : ∀ i, IsReal (Vh m c i) := Cert.Spec.heads_real _ (Cert.Spec.proj_real _ _ _ r2 r7 r8)
  -- the pair and the position inside it
  have hn := n.isLt; have hh := h.isLt
  let g : Fin 16 := ⟨8 * n.val + h.val / 2, by omega⟩
  let b : Fin 2 := ⟨h.val % 2, Nat.mod_lt _ (by decide)⟩
  have hgb : 2 * g.val + b.val = 16 * n.val + h.val := by show 2 * (8 * n.val + h.val / 2) + h.val % 2 = _; omega
  have hlt' : 2 * g.val + b.val < 32 := by rw [hgb]; exact hlt
  have hrow : (⟨16 * n.val + h.val, hlt⟩ : Fin 32) = ⟨2 * g.val + b.val, hlt'⟩ := Fin.ext hgb.symm
  rw [Cert.Spec.attend_ix, hrow]
  have harr : (Run.W8 m ρ c (Proc.devRef .tc main_v18) : S32x2048x64.Idx → EReal)
      = ((Attn.dat (F := Ideal) (Run.rd (Run.W7 m ρ)) c).arrAt 3 cfg3.N : S32x2048x64.Idx → EReal) := Run.W8_arr m ρ c 3
  rw [harr, AttnValue.final3_at (Run.rd (Run.W7 m ρ)) c g b t e hlt', AttnStep.pay3_at]
  refine AttnMath.tiles_quotient (Run.rd (Run.W7 m ρ)) c g b t e (Qh m c) (Kh m c) (Vh m c) n h ?_ ?_ ?_ hQ hK hV
  · intro j d
    rw [AttnValue.q_blk (Run.rd (Run.W7 m ρ)) c g j b t d hlt', ← hrow]
    exact qh_at m ρ c n h t d hlt
  · intro j κ d
    rw [AttnValue.k_blk (Run.rd (Run.W7 m ρ)) c g j b κ d hlt' (AttnMath.keyOf j κ).isLt, ← hrow]
    exact kh_at m ρ c n h (AttnMath.keyOf j κ) d hlt
  · intro j κ
    rw [AttnValue.v_blk (Run.rd (Run.W7 m ρ)) c g j b κ e hlt' (AttnMath.keyOf j κ).isLt, ← hrow]
    exact vh_at m ρ c n h (AttnMath.keyOf j κ) e hlt

end Cert.KernelIdeal.Bridge

end
-- ==== Proof.BridgeOut.lean ====
import proofs.«147348_j2388001816882_2_alg».proof.Proof.IdealRun
import proofs.«147348_j2388001816882_2_alg».proof.Proof.IdealProjValue
import proofs.«147348_j2388001816882_2_alg».proof.Proof.HostGlue
import proofs.«147348_j2388001816882_2_alg».proof.Proof.HostFlat
import proofs.«147348_j2388001816882_2_alg».proof.Proof.Spec

/-! # From the attention region's output to the program's result

After the attention region the host lines join the heads back into the model axis, turn the output bias into a row, the last
linear region multiplies by the output weights and adds the bias, and the last host line unflattens the rows. So if the
attention region leaves `O` (read by batch, head, position, lane), the program's result is the output projection of the
merged `O` with the launch's output weights and bias. -/

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo
open Idealize.ShloMosaic.ValueIdx (ix1 ix2 ix3 ix4)

variable (m : (ℓ : Loc nD τ sig) → Buf (Elt Ideal) ℓ) (ρ : Dev nD → PrngReg)

/-- A buffer that no host line before the attention region writes, and that is none of the first four regions' output
    arrays, holds its launch contents when the attention region is left. -/
theorem W8_arg (c : Dev nD) (r : Ref sig .tc) (h0 : r ∉ hostOps0_W) (h1 : r ∉ hostOps1_W) (h2 : r ∉ hostOps2_W)
    (h3 : r ∉ hostOps3_W) (o0 : r ≠ main_v4) (o1 : r ≠ main_v6) (o2 : r ≠ main_v8) (o3 : r ≠ main_v18) :
    Run.W8 m ρ c (Proc.devRef .tc r) = m ((c : Thread nD τ).loc r) :=
  calc Run.W8 m ρ c (Proc.devRef .tc r)
    _ = Run.W7 m ρ c (Proc.devRef .tc r) := Run.W8_keep m ρ c r o3
    _ = Run.W6 m ρ c (Proc.devRef .tc r) := Run.W7_keep m ρ c r h3
    _ = Run.W5 m ρ c (Proc.devRef .tc r) := Run.W6_keep m ρ c r o2
    _ = Run.W4 m ρ c (Proc.devRef .tc r) := Run.W5_keep m ρ c r h2
    _ = Run.W3 m ρ c (Proc.devRef .tc r) := Run.W4_keep m ρ c r o1
    _ = Run.W2 m ρ c (Proc.devRef .tc r) := Run.W3_keep m ρ c r h1
    _ = Run.W1 m ρ c (Proc.devRef .tc r) := Run.W2_keep m ρ c r o0
    _ = Run.W0 m ρ c (Proc.devRef .tc r) := Run.W1_keep m ρ c r h0
    _ = m ((c : Thread nD τ).loc r) := rfl

/-- The output weights reach the last linear region as launched. -/
theorem wo_at (c : Dev nD) :
    Run.W9 m ρ c (Proc.devRef .tc main_arg9) = m ((c : Thread nD τ).loc main_arg9) :=
  (Run.W9_keep m ρ c main_arg9 (by decide)).trans
    (W8_arg m ρ c main_arg9 (by decide) (by decide) (by decide) (by decide) (by decide) (by decide) (by decide) (by decide))

/-- The output bias is as launched when the attention region is left. -/
theorem bo_at (c : Dev nD) :
    Run.W8 m ρ c (Proc.devRef .tc main_arg10) = m ((c : Thread nD τ).loc main_arg10) :=
  W8_arg m ρ c main_arg10 (by decide) (by decide) (by decide) (by decide) (by decide) (by decide) (by decide) (by decide)

/-- THE RESULT AT AN INDEX: the program's result at (n, t, j) is the output projection, at (n, t, j), of the merged
    attention output with the launch's output weights and bias. -/
theorem out_at (c : Dev nD) (O : Cert.Spec.Hd)
    (hO : ∀ (n : Fin 2) (h : Fin 16) (t : Fin 2048) (e : Fin 64) (hlt : 16 * n.val + h.val < 32),
      (Run.W8 m ρ c (Proc.devRef .tc main_v18) : S32x2048x64.Idx → EReal) (ix3 ⟨16 * n.val + h.val, hlt⟩ t e) = O (ix4 n h t e))
    (n : Fin 2) (t : Fin 2048) (j : Fin 1024) :
    (Run.W11 m ρ c (Proc.devRef .tc main_v24) : S2x2048x1024.Idx → EReal) (ix3 n t j)
      = Cert.Spec.proj (Cert.Spec.merge O) (m ((c : Thread nD τ).loc main_arg9)) (m ((c : Thread nD τ).loc main_arg10)) (ix3 n t j) := by
  have hlt : 2048 * n.val + t.val < 4096 := by have := n.isLt; have := t.isLt; omega
  rw [Cert.Spec.proj_ix]
  refine (HostFlat.v24_at (Run.W10 m ρ c) n t j hlt).trans ?_
  rw [show Run.W10 m ρ c (Proc.devRef .tc main_v23) = (Lin4.dat (Run.rd (Run.W9 m ρ)) c).arrAt 3 cfg4.N from Run.W10_arr m ρ c 3]
  refine ProjValue.proj4 (Run.rd (Run.W9 m ρ)) c (Cert.Spec.merge O) (m ((c : Thread nD τ).loc main_arg9))
    (m ((c : Thread nD τ).loc main_arg10)) ?_ ?_ ?_ n t j hlt
  · intro n t k h
    refine (HostGlue.v21_apply (Run.W8 m ρ c) n t k).trans ?_
    exact hO n (Cert.Spec.headOf k) t (Cert.Spec.lanePart k) _
  · intro i
    exact congrFun (wo_at m ρ c) i
  · intro j
    refine (HostGlue.v22_apply (Run.W8 m ρ c) j).trans ?_
    exact congrFun (bo_at m ρ c) (ix1 j)

/-- THE RESULT: the output projection of the merged attention output. -/
theorem out_eq (c : Dev nD) (O : Cert.Spec.Hd)
    (hO : ∀ (n : Fin 2) (h : Fin 16) (t : Fin 2048) (e : Fin 64) (hlt : 16 * n.val + h.val < 32),
      (Run.W8 m ρ c (Proc.devRef .tc main_v18) : S32x2048x64.Idx → EReal) (ix3 ⟨16 * n.val + h.val, hlt⟩ t e) = O (ix4 n h t e)) :
    (Run.W11 m ρ c (Proc.devRef .tc main_v24) : S2x2048x1024.Idx → EReal)
      = Cert.Spec.proj (Cert.Spec.merge O) (m ((c : Thread nD τ).loc main_arg9)) (m ((c : Thread nD τ).loc main_arg10)) := by
  funext i
  rw [Idealize.ShloMosaic.ValueIdx.eq_ix3 i]
  exact out_at m ρ c O hO (i 0) (i 1) (i 2)

end Cert.KernelIdeal.Bridge

end
-- ==== Proof.Bridge.lean ====
import proofs.«147348_j2388001816882_2_alg».proof.Proof.BridgeAttn
import proofs.«147348_j2388001816882_2_alg».proof.Proof.BridgeOut

/-
  The idealized kernel's result array is the specification `G` of the launch memory's arguments: the three projections'
  heads enter the attention region, its output is the specification's attention output, and the head merge, the output
  projection and the last reshape give `proj (merge …) Wo bo`, which is `G`.
-/

set_option maxRecDepth 16384

noncomputable section

namespace Cert.KernelIdeal.Bridge

open Cert.KernelIdeal Cert.KernelIdeal.Gen
open Idealize.ShloMosaic Idealize.ShloMosaic.TcCoe

theorem kernel_is_G (m : (ℓ : Loc nD τ sig) → Buf (Elt Ideal) ℓ) (ρ : Dev nD → PrngReg) (hpre : Cert.Pre_KernelIdeal m) (c : Dev nD) :
    (Run.W11 m ρ c (Proc.devRef .tc main_v24) : S2x2048x1024.Idx → EReal)
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [out_eq m ρ c (Cert.Spec.attend (Cert.Spec.weights (Cert.Spec.scores (Qh m c) (Kh m c))) (Vh m c))
    (fun n h t e hlt => attn_at m ρ hpre c n h t e hlt)]
  rfl

end Cert.KernelIdeal.Bridge

end
-- ==== Proof.lean ====
/-
  Multi-head attention: a Pallas forward pass (three bf16-output projections, a flash-attention kernel that visits the keys
  in eight tiles with an online softmax, the output projection) against the plain jnp reference with a materialised
  softmax.

  Frames. Each kernel program is run region by region: the contents of every unscoped buffer are followed through the six
  host stretches and the five kernel regions (Proof/IdealRun.lean, Proof/BitsRun.lean), every weakly fair execution
  terminates without a fault and the arguments end as launched. The reference is a host program; its frame is its run.

  Values at the extended reals. A change of float format is the identity, a matrix unit's product into a zero accumulator is
  the plain contraction, so each projection is x·W + b and the head split and merge are index bookkeeping. In the attention
  kernel the running maximum, denominator and numerator of a query row advance by the online-softmax step; the inputs
  being finite, all scores are real numbers, and then numerator / denominator after the eight tiles is the softmax-weighted
  sum of the values — the weights normalised by their own sum do not depend on the level the exponentials are taken at
  (Proof/LibOnlineSoftmax.lean). Both programs therefore compute the one function `Cert.Spec.G` of the arguments.
-/
import proofs.«147348_j2388001816882_2_alg».proof.Defs
import proofs.«147348_j2388001816882_2_alg».proof.Proof.Gen.Kernel
import proofs.«147348_j2388001816882_2_alg».proof.Proof.Gen.KernelIdeal
import proofs.«147348_j2388001816882_2_alg».proof.Proof.Gen.ReferenceIdeal
import proofs.«147348_j2388001816882_2_alg».proof.Proof.Gen.Pre_finite_inputs
import proofs.«147348_j2388001816882_2_alg».proof.Proof.Gen.ReferenceIdeal.Run
import proofs.«147348_j2388001816882_2_alg».proof.Proof.Gen.ReferenceIdeal.Read
import proofs.«147348_j2388001816882_2_alg».proof.Proof.IdealRun
import proofs.«147348_j2388001816882_2_alg».proof.Proof.BitsRun
import proofs.«147348_j2388001816882_2_alg».proof.Proof.RefValue
import proofs.«147348_j2388001816882_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ =>
  (θ_run Cert.Kernel.defs _ _).mono (fun _ h c => (h c).2) (Cert.Kernel.Run.run (F := Bits) m ρ)

/-- So does the idealized kernel. -/
theorem frame_ki : Cert.frame_KernelIdeal := fun m ρ _ =>
  (θ_run Cert.KernelIdeal.defs _ _).mono (fun _ h c => (h c).2) (Cert.KernelIdeal.Run.run (F := Ideal) m ρ)

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals, from memories agreeing on the arguments, both programs end with the result `G` of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Bridge.kernel_is_G m ρ hpre c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.RefValue.run_G m' ρ')
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
